-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x7 : Shape := ⟨2, ![131072, 7]⟩
abbrev S131072x64 : Shape := ⟨2, ![131072, 64]⟩
abbrev S7 : Shape := ⟨1, ![7]⟩
abbrev S65x32 : Shape := ⟨2, ![65, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S131072x7 : S_.BroadcastsInDim S131072x7 (![] : Fin 0 → Fin S131072x7.rank)
  reducesTo_S131072x7_S_d0_1 : S131072x7.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S7 : S_.BroadcastsInDim S7 (![] : Fin 0 → Fin S7.rank)
  reducesTo_S7_S_d0 : S7.ReducesTo [0] S_
  bcast_S_S65x32 : S_.BroadcastsInDim S65x32 (![] : Fin 0 → Fin S65x32.rank)
  reducesTo_S65x32_S_d0_1 : S65x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S16x1 .f32) (main_arg8 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S32 .f32) (main_arg5 : FVec F S32x16 .f32) (main_arg6 : FVec F S16 .f32) (main_arg7 : FVec F S16x1 .f32) (main_arg8 : FVec F S1 .f32) (main_v13 : IVec S_ 1) (main_v16 : IVec S65x32 1) : IVec S_ 1 :=
  let main_c_5 : IVec S_ 1 := constantI S_ 1 1#1
  let main_v17 : IVec S_ 1 := (fun x v => Host.reduce IntOp.andi x v reducesTo_S65x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S131072x7 .f32) (main_arg1 : FVec F S131072x64 .f32) (main_arg2 : FVec F S7 .f32) (main_arg3 : FVec F S65x32 .f32) (main_arg4 : FVec F S32 .f32) (main_arg5 : FVec F S32x16 .f32) (main_arg6 : FVec F S16 .f32) (main_arg7 : FVec F S16x1 .f32) (main_arg8 : FVec F S1 .f32) : IVec S_ 1 :=
  let main_v0 : FVec F S131072x7 .f32 := Host.absf main_arg0
  let main_cst : FVec F S_ .f32 := constant S_ .f32 0x7F800000#32
  let main_v1 : FVec F S131072x7 .f32 := broadcastInDim S131072x7 ![] bcast_S_S131072x7 main_cst
  let main_v2 : IVec S131072x7 1 := cmpf .olt main_v0 main_v1
  let main_c : IVec S_ 1 := constantI S_ 1 1#1
  let main_v3 : IVec S_ 1 := (fun x v => Host.reduce IntOp.andi x v reducesTo_S131072x7_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S7 .f32 := Host.absf main_arg2
  let main_cst_2 : FVec F S_ .f32 := constant S_ .f32 0x7F800000#32
  let main_v10 : FVec F S7 .f32 := broadcastInDim S7 ![] bcast_S_S7 main_cst_2
  let main_v11 : IVec S7 1 := cmpf .olt main_v9 main_v10
  let main_c_3 : IVec S_ 1 := constantI S_ 1 1#1
  let main_v12 : IVec S_ 1 := (fun x v => Host.reduce IntOp.andi x v reducesTo_S7_S_d0 h_S_) main_v11 main_c_3
  let main_v13 : IVec S_ 1 := andi main_v8 main_v12
  let main_v14 : FVec F S65x32 .f32 := Host.absf main_arg3
  let main_cst_4 : FVec F S_ .f32 := constant S_ .f32 0x7F800000#32
  let main_v15 : FVec F S65x32 .f32 := broadcastInDim S65x32 ![] bcast_S_S65x32 main_cst_4
  let main_v16 : IVec S65x32 1 := cmpf .olt main_v14 main_v15
  fn_part1 (F := F) main_arg4 main_arg5 main_arg6 main_arg7 main_arg8 main_v13 main_v16
-- ==== Kernel.lean ====
abbrev S131072x7 : Shape := ⟨2, ![131072, 7]⟩
abbrev S131072x64 : Shape := ⟨2, ![131072, 64]⟩
abbrev S7 : Shape := ⟨1, ![7]⟩
abbrev S65x32 : Shape := ⟨2, ![65, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S128 : Shape := ⟨1, ![128]⟩
abbrev S1x128 : Shape := ⟨2, ![1, 128]⟩
abbrev S1x7 : Shape := ⟨2, ![1, 7]⟩
abbrev S1x32 : Shape := ⟨2, ![1, 32]⟩
abbrev S1x16 : Shape := ⟨2, ![1, 16]⟩
abbrev S1x1 : Shape := ⟨2, ![1, 1]⟩
abbrev S131072x1 : Shape := ⟨2, ![131072, 1]⟩
abbrev S4096x7 : Shape := ⟨2, ![4096, 7]⟩
abbrev S4096x64 : Shape := ⟨2, ![4096, 64]⟩
abbrev S4096x1 : Shape := ⟨2, ![4096, 1]⟩
abbrev S4096x2 : Shape := ⟨2, ![4096, 2]⟩
abbrev S4096x4 : Shape := ⟨2, ![4096, 4]⟩
abbrev S4096x8 : Shape := ⟨2, ![4096, 8]⟩
abbrev S4096x16 : Shape := ⟨2, ![4096, 16]⟩
abbrev S4096x32 : Shape := ⟨2, ![4096, 32]⟩
abbrev S4096x128 : Shape := ⟨2, ![4096, 128]⟩
abbrev S4096 : Shape := ⟨1, ![4096]⟩
abbrev S64x32 : Shape := ⟨2, ![64, 32]⟩
abbrev S131072 : Shape := ⟨1, ![131072]⟩

abbrev nBuf : Space → Nat
  | .hbm => 17
  | .vmem => 14
  | .smem => 0
  | _ => 0

abbrev bufTy : (tb : Table) → Fin (tcTables nBuf tb) → BufTy
  | .hbm, ⟨0, _⟩ => ⟨S131072x7, .f32⟩
  | .hbm, ⟨1, _⟩ => ⟨S131072x64, .f32⟩
  | .hbm, ⟨2, _⟩ => ⟨S7, .f32⟩
  | .hbm, ⟨3, _⟩ => ⟨S65x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S128, .f32⟩
  | .hbm, ⟨10, _⟩ => ⟨S1x128, .f32⟩
  | .hbm, ⟨11, _⟩ => ⟨S1x7, .f32⟩
  | .hbm, ⟨12, _⟩ => ⟨S1x32, .f32⟩
  | .hbm, ⟨13, _⟩ => ⟨S1x16, .f32⟩
  | .hbm, ⟨14, _⟩ => ⟨S1x1, .f32⟩
  | .hbm, ⟨15, _⟩ => ⟨S131072x1, .f32⟩
  | .hbm, ⟨16, _⟩ => ⟨S131072, .f32⟩
  | .local _ .vmem, ⟨0, _⟩ => ⟨S4096x7, .f32⟩
  | .local _ .vmem, ⟨1, _⟩ => ⟨S4096x7, .f32⟩
  | .local _ .vmem, ⟨2, _⟩ => ⟨S4096x64, .f32⟩
  | .local _ .vmem, ⟨3, _⟩ => ⟨S4096x64, .f32⟩
  | .local _ .vmem, ⟨4, _⟩ => ⟨S1x7, .f32⟩
  | .local _ .vmem, ⟨5, _⟩ => ⟨S1x128, .f32⟩
  | .local _ .vmem, ⟨6, _⟩ => ⟨S65x32, .f32⟩
  | .local _ .vmem, ⟨7, _⟩ => ⟨S1x32, .f32⟩
  | .local _ .vmem, ⟨8, _⟩ => ⟨S32x16, .f32⟩
  | .local _ .vmem, ⟨9, _⟩ => ⟨S1x16, .f32⟩
  | .local _ .vmem, ⟨10, _⟩ => ⟨S16x1, .f32⟩
  | .local _ .vmem, ⟨11, _⟩ => ⟨S1x1, .f32⟩
  | .local _ .vmem, ⟨12, _⟩ => ⟨S4096x1, .f32⟩
  | .local _ .vmem, ⟨13, _⟩ => ⟨S4096x1, .f32⟩
  | _, _ => ⟨S131072x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S128_S1x128 : S128.ShapeCasts S1x128
  shapeCasts_S7_S1x7 : S7.ShapeCasts S1x7
  shapeCasts_S32_S1x32 : S32.ShapeCasts S1x32
  shapeCasts_S16_S1x16 : S16.ShapeCasts S1x16
  shapeCasts_S1_S1x1 : S1.ShapeCasts S1x1
  inb_S4096x7_S4096x7_0_0 : ∀ a, (![0, 0] : Fin 2 → Nat) a + S4096x7.size a ≤ S4096x7.size a
  h_S4096x7 : 0 < S4096x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S4096x7 : S1x7.Broadcasts S4096x7
  slices_S4096x7_o0_6_S4096x1 : S4096x7.Slices ![0, 6] S4096x1
  concatenates_S4096x1_S4096x1_S4096x2_d1 : Shape.Concatenates [S4096x1, S4096x1] S4096x2 1
  slices_S4096x7_o0_5_S4096x1 : S4096x7.Slices ![0, 5] S4096x1
  broadcasts_S4096x1_S4096x2 : S4096x1.Broadcasts S4096x2
  concatenates_S4096x2_S4096x2_S4096x4_d1 : Shape.Concatenates [S4096x2, S4096x2] S4096x4 1
  slices_S4096x7_o0_4_S4096x1 : S4096x7.Slices ![0, 4] S4096x1
  broadcasts_S4096x1_S4096x4 : S4096x1.Broadcasts S4096x4
  concatenates_S4096x4_S4096x4_S4096x8_d1 : Shape.Concatenates [S4096x4, S4096x4] S4096x8 1
  slices_S4096x7_o0_3_S4096x1 : S4096x7.Slices ![0, 3] S4096x1
  broadcasts_S4096x1_S4096x8 : S4096x1.Broadcasts S4096x8
  concatenates_S4096x8_S4096x8_S4096x16_d1 : Shape.Concatenates [S4096x8, S4096x8] S4096x16 1
  slices_S4096x7_o0_2_S4096x1 : S4096x7.Slices ![0, 2] S4096x1
  broadcasts_S4096x1_S4096x16 : S4096x1.Broadcasts S4096x16
  concatenates_S4096x16_S4096x16_S4096x32_d1 : Shape.Concatenates [S4096x16, S4096x16] S4096x32 1
  slices_S4096x7_o0_1_S4096x1 : S4096x7.Slices ![0, 1] S4096x1
  broadcasts_S4096x1_S4096x32 : S4096x1.Broadcasts S4096x32
  concatenates_S4096x32_S4096x32_S4096x64_d1 : Shape.Concatenates [S4096x32, S4096x32] S4096x64 1
  slices_S4096x7_o0_0_S4096x1 : S4096x7.Slices ![0, 0] S4096x1
  broadcasts_S4096x1_S4096x64 : S4096x1.Broadcasts S4096x64
  concatenates_S4096x64_S4096x64_S4096x128_d1 : Shape.Concatenates [S4096x64, S4096x64] S4096x128 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  inb_S4096x64_S4096x64_0_0 : ∀ a, (![0, 0] : Fin 2 → Nat) a + S4096x64.size a ≤ S4096x64.size a
  h_S4096x64 : 0 < S4096x64.numel
  inb_S65x32_S65x32_0_0 : ∀ a, (![0, 0] : Fin 2 → Nat) a + S65x32.size a ≤ S65x32.size a
  h_S65x32 : 0 < S65x32.numel
  slices_S65x32_o0_0_S1x32 : S65x32.Slices ![0, 0] S1x32
  slices_S65x32_o1_0_S64x32 : S65x32.Slices ![1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  bitsLt_bf16_f32 : FTy.bits .bf16 < FTy.bits .f32
  broadcasts_S1x32_S4096x32 : S1x32.Broadcasts S4096x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4096x16 : S1x16.Broadcasts S4096x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S131072x1_S131072 : S131072x1.ShapeCasts S131072
  dot_S4096x1_S1x32_S4096x32_1_0_0_1_n_n_wf : DotDims.WF S4096x1 S1x32 S4096x32 [1] [0] [0] [1] [] []
  dot_S4096x64_S64x32_S4096x32_1_0_0_1_n_n_wf : DotDims.WF S4096x64 S64x32 S4096x32 [1] [0] [0] [1] [] []
  dot_S4096x32_S32x16_S4096x16_1_0_0_1_n_n_wf : DotDims.WF S4096x32 S32x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x7.size a ≤ S131072x7.size a
  hwx0_0 : ∀ i : grid0.Coords, EltTy.bits .f32 = 32 ∨ (Rect.block (s := S131072x7) S4096x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .f32 = 32 ∨ (Rect.block (s := S131072x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x7.size a ≤ S1x7.size a
  hwx0_2 : ∀ i : grid0.Coords, EltTy.bits .f32 = 32 ∨ (Rect.block (s := S1x7) S1x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x32.size a ≤ S65x32.size a
  hwx0_4 : ∀ i : grid0.Coords, EltTy.bits .f32 = 32 ∨ (Rect.block (s := S65x32) S65x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x1.size a ≤ S16x1.size a
  hwx0_8 : ∀ i : grid0.Coords, EltTy.bits .f32 = 32 ∨ (Rect.block (s := S16x1) S16x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x1.size a ≤ S131072x1.size a
  hwx0_10 : ∀ i : grid0.Coords, EltTy.bits .f32 = 32 ∨ (Rect.block (s := S131072x1) S4096x1.size (cc0_transform_10 i) (hinb0_10 i)).WholeWords (EltTy.packing .f32)

variable [Facts₀]

def dot_S4096x1_S1x32_S4096x32_1_0_0_1_n_n : DotDims S4096x1 S1x32 S4096x32 where
  lhsContracting := [1]
  rhsContracting := [0]
  lhsNonContracting := [0]
  rhsNonContracting := [1]
  lhsBatch := []
  rhsBatch := []
  wf := dot_S4096x1_S1x32_S4096x32_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_arg0) S4096x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S65x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S16x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S4096x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x7 : Shape := ⟨2, ![131072, 7]⟩
abbrev S131072x64 : Shape := ⟨2, ![131072, 64]⟩
abbrev S7 : Shape := ⟨1, ![7]⟩
abbrev S65x32 : Shape := ⟨2, ![65, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x7 : Shape := ⟨2, ![1, 7]⟩
abbrev S_ : Shape := ⟨0, ![]⟩
abbrev S131072x7x1 : Shape := ⟨3, ![131072, 7, 1]⟩
abbrev S131072x7x2 : Shape := ⟨3, ![131072, 7, 2]⟩
abbrev S131072x1x2 : Shape := ⟨3, ![131072, 1, 2]⟩
abbrev S131072x2 : Shape := ⟨2, ![131072, 2]⟩
abbrev S131072x2x1 : Shape := ⟨3, ![131072, 2, 1]⟩
abbrev S131072x2x2 : Shape := ⟨3, ![131072, 2, 2]⟩
abbrev S131072x4 : Shape := ⟨2, ![131072, 4]⟩
abbrev S131072x4x1 : Shape := ⟨3, ![131072, 4, 1]⟩
abbrev S131072x4x2 : Shape := ⟨3, ![131072, 4, 2]⟩
abbrev S131072x8 : Shape := ⟨2, ![131072, 8]⟩
abbrev S131072x8x1 : Shape := ⟨3, ![131072, 8, 1]⟩
abbrev S131072x8x2 : Shape := ⟨3, ![131072, 8, 2]⟩
abbrev S131072x16 : Shape := ⟨2, ![131072, 16]⟩
abbrev S131072x16x1 : Shape := ⟨3, ![131072, 16, 1]⟩
abbrev S131072x16x2 : Shape := ⟨3, ![131072, 16, 2]⟩
abbrev S131072x32 : Shape := ⟨2, ![131072, 32]⟩
abbrev S131072x32x1 : Shape := ⟨3, ![131072, 32, 1]⟩
abbrev S131072x32x2 : Shape := ⟨3, ![131072, 32, 2]⟩
abbrev S131072x64x1 : Shape := ⟨3, ![131072, 64, 1]⟩
abbrev S131072x64x2 : Shape := ⟨3, ![131072, 64, 2]⟩
abbrev S131072x128 : Shape := ⟨2, ![131072, 128]⟩
abbrev S131072x2x2x2x2x2x2x2 : Shape := ⟨8, ![131072, 2, 2, 2, 2, 2, 2, 2]⟩
abbrev S131072x1x2x2x2x2x2x2 : Shape := ⟨8, ![131072, 1, 2, 2, 2, 2, 2, 2]⟩
abbrev S131072x2x2x2x2x2x2 : Shape := ⟨7, ![131072, 2, 2, 2, 2, 2, 2]⟩
abbrev S131072x2x64 : Shape := ⟨3, ![131072, 2, 64]⟩
abbrev S131072x1x64 : Shape := ⟨3, ![131072, 1, 64]⟩
abbrev S131072 : Shape := ⟨1, ![131072]⟩
abbrev S131072x1 : Shape := ⟨2, ![131072, 1]⟩
abbrev S131072x65 : Shape := ⟨2, ![131072, 65]⟩
abbrev S1x32 : Shape := ⟨2, ![1, 32]⟩
abbrev S1x16 : Shape := ⟨2, ![1, 16]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S131072x7, .f32⟩
  | 1 => ⟨S131072x64, .f32⟩
  | 2 => ⟨S7, .f32⟩
  | 3 => ⟨S65x32, .f32⟩
  | 4 => ⟨S32, .f32⟩
  | 5 => ⟨S32x16, .f32⟩
  | 6 => ⟨S16, .f32⟩
  | 7 => ⟨S16x1, .f32⟩
  | 8 => ⟨S1, .f32⟩
  | 9 => ⟨S1x7, .f32⟩
  | 10 => ⟨S131072x7, .f32⟩
  | 11 => ⟨S131072x7, .f32⟩
  | 12 => ⟨S_, .f32⟩
  | 13 => ⟨S131072x7, .f32⟩
  | 14 => ⟨S131072x7, .f32⟩
  | 15 => ⟨S131072x7, .f32⟩
  | 16 => ⟨S131072x7, .f32⟩
  | 17 => ⟨S131072x7x1, .f32⟩
  | 18 => ⟨S131072x7x1, .f32⟩
  | 19 => ⟨S131072x7x2, .f32⟩
  | 20 => ⟨S131072x1x2, .f32⟩
  | 21 => ⟨S131072x2, .f32⟩
  | 22 => ⟨S131072x2x1, .f32⟩
  | 23 => ⟨S131072x1x2, .f32⟩
  | 24 => ⟨S131072x2, .f32⟩
  | 25 => ⟨S131072x1x2, .f32⟩
  | 26 => ⟨S131072x2x2, .f32⟩
  | 27 => ⟨S131072x2x2, .f32⟩
  | 28 => ⟨S131072x2x2, .f32⟩
  | 29 => ⟨S131072x4, .f32⟩
  | 30 => ⟨S131072x4x1, .f32⟩
  | 31 => ⟨S131072x1x2, .f32⟩
  | 32 => ⟨S131072x2, .f32⟩
  | 33 => ⟨S131072x1x2, .f32⟩
  | 34 => ⟨S131072x4x2, .f32⟩
  | 35 => ⟨S131072x4x2, .f32⟩
  | 36 => ⟨S131072x4x2, .f32⟩
  | 37 => ⟨S131072x8, .f32⟩
  | 38 => ⟨S131072x8x1, .f32⟩
  | 39 => ⟨S131072x1x2, .f32⟩
  | 40 => ⟨S131072x2, .f32⟩
  | 41 => ⟨S131072x1x2, .f32⟩
  | 42 => ⟨S131072x8x2, .f32⟩
  | 43 => ⟨S131072x8x2, .f32⟩
  | 44 => ⟨S131072x8x2, .f32⟩
  | 45 => ⟨S131072x16, .f32⟩
  | 46 => ⟨S131072x16x1, .f32⟩
  | 47 => ⟨S131072x1x2, .f32⟩
  | 48 => ⟨S131072x2, .f32⟩
  | 49 => ⟨S131072x1x2, .f32⟩
  | 50 => ⟨S131072x16x2, .f32⟩
  | 51 => ⟨S131072x16x2, .f32⟩
  | 52 => ⟨S131072x16x2, .f32⟩
  | 53 => ⟨S131072x32, .f32⟩
  | 54 => ⟨S131072x32x1, .f32⟩
  | 55 => ⟨S131072x1x2, .f32⟩
  | 56 => ⟨S131072x2, .f32⟩
  | 57 => ⟨S131072x1x2, .f32⟩
  | 58 => ⟨S131072x32x2, .f32⟩
  | 59 => ⟨S131072x32x2, .f32⟩
  | 60 => ⟨S131072x32x2, .f32⟩
  | 61 => ⟨S131072x64, .f32⟩
  | 62 => ⟨S131072x64x1, .f32⟩
  | 63 => ⟨S131072x1x2, .f32⟩
  | 64 => ⟨S131072x2, .f32⟩
  | 65 => ⟨S131072x1x2, .f32⟩
  | 66 => ⟨S131072x64x2, .f32⟩
  | 67 => ⟨S131072x64x2, .f32⟩
  | 68 => ⟨S131072x64x2, .f32⟩
  | 69 => ⟨S131072x128, .f32⟩
  | 70 => ⟨S131072x2x2x2x2x2x2x2, .f32⟩
  | 71 => ⟨S131072x1x2x2x2x2x2x2, .f32⟩
  | 72 => ⟨S131072x2x2x2x2x2x2, .f32⟩
  | 73 => ⟨S131072x1x2x2x2x2x2x2, .f32⟩
  | 74 => ⟨S131072x1x2x2x2x2x2x2, .f32⟩
  | 75 => ⟨S131072x2x2x2x2x2x2, .f32⟩
  | 76 => ⟨S131072x1x2x2x2x2x2x2, .f32⟩
  | 77 => ⟨S131072x1x2x2x2x2x2x2, .f32⟩
  | 78 => ⟨S131072x2x2x2x2x2x2x2, .f32⟩
  | 79 => ⟨S131072x2x2x2x2x2x2x2, .f32⟩
  | 80 => ⟨S131072x1x2x2x2x2x2x2, .f32⟩
  | 81 => ⟨S131072x2x2x2x2x2x2, .f32⟩
  | 82 => ⟨S131072x1x2x2x2x2x2x2, .f32⟩
  | 83 => ⟨S131072x1x2x2x2x2x2x2, .f32⟩
  | 84 => ⟨S131072x2x2x2x2x2x2, .f32⟩
  | 85 => ⟨S131072x1x2x2x2x2x2x2, .f32⟩
  | 86 => ⟨S131072x1x2x2x2x2x2x2, .f32⟩
  | 87 => ⟨S131072x2x2x2x2x2x2x2, .f32⟩
  | 88 => ⟨S131072x2x2x2x2x2x2x2, .f32⟩
  | 89 => ⟨S131072x2x2x2x2x2x2x2, .f32⟩
  | 90 => ⟨S131072x1x2x2x2x2x2x2, .f32⟩
  | 91 => ⟨S131072x2x2x2x2x2x2, .f32⟩
  | 92 => ⟨S131072x1x2x2x2x2x2x2, .f32⟩
  | 93 => ⟨S131072x1x2x2x2x2x2x2, .f32⟩
  | 94 => ⟨S131072x2x2x2x2x2x2, .f32⟩
  | 95 => ⟨S131072x1x2x2x2x2x2x2, .f32⟩
  | 96 => ⟨S131072x1x2x2x2x2x2x2, .f32⟩
  | 97 => ⟨S131072x2x2x2x2x2x2x2, .f32⟩
  | 98 => ⟨S131072x2x2x2x2x2x2x2, .f32⟩
  | 99 => ⟨S131072x2x2x2x2x2x2x2, .f32⟩
  | 100 => ⟨S131072x1x2x2x2x2x2x2, .f32⟩
  | 101 => ⟨S131072x2x2x2x2x2x2, .f32⟩
  | 102 => ⟨S131072x1x2x2x2x2x2x2, .f32⟩
  | 103 => ⟨S131072x1x2x2x2x2x2x2, .f32⟩
  | 104 => ⟨S131072x2x2x2x2x2x2, .f32⟩
  | 105 => ⟨S131072x1x2x2x2x2x2x2, .f32⟩
  | 106 => ⟨S131072x1x2x2x2x2x2x2, .f32⟩
  | 107 => ⟨S131072x2x2x2x2x2x2x2, .f32⟩
  | 108 => ⟨S131072x2x2x2x2x2x2x2, .f32⟩
  | 109 => ⟨S131072x2x2x2x2x2x2x2, .f32⟩
  | 110 => ⟨S131072x1x2x2x2x2x2x2, .f32⟩
  | 111 => ⟨S131072x2x2x2x2x2x2, .f32⟩
  | 112 => ⟨S131072x1x2x2x2x2x2x2, .f32⟩
  | 113 => ⟨S131072x1x2x2x2x2x2x2, .f32⟩
  | 114 => ⟨S131072x2x2x2x2x2x2, .f32⟩
  | 115 => ⟨S131072x1x2x2x2x2x2x2, .f32⟩
  | 116 => ⟨S131072x1x2x2x2x2x2x2, .f32⟩
  | 117 => ⟨S131072x2x2x2x2x2x2x2, .f32⟩
  | 118 => ⟨S131072x2x2x2x2x2x2x2, .f32⟩
  | 119 => ⟨S131072x2x2x2x2x2x2x2, .f32⟩
  | 120 => ⟨S131072x1x2x2x2x2x2x2, .f32⟩
  | 121 => ⟨S131072x2x2x2x2x2x2, .f32⟩
  | 122 => ⟨S131072x1x2x2x2x2x2x2, .f32⟩
  | 123 => ⟨S131072x1x2x2x2x2x2x2, .f32⟩
  | 124 => ⟨S131072x2x2x2x2x2x2, .f32⟩
  | 125 => ⟨S131072x1x2x2x2x2x2x2, .f32⟩
  | 126 => ⟨S131072x1x2x2x2x2x2x2, .f32⟩
  | 127 => ⟨S131072x2x2x2x2x2x2x2, .f32⟩
  | _ => ⟨S131072x7, .f32⟩

abbrev hbmTy0_1 (i : Nat) : BufTy := match i % 128 with
  | 0 => ⟨S131072x2x2x2x2x2x2x2, .f32⟩
  | 1 => ⟨S131072x2x2x2x2x2x2x2, .f32⟩
  | 2 => ⟨S131072x1x2x2x2x2x2x2, .f32⟩
  | 3 => ⟨S131072x2x2x2x2x2x2, .f32⟩
  | 4 => ⟨S131072x1x2x2x2x2x2x2, .f32⟩
  | 5 => ⟨S131072x1x2x2x2x2x2x2, .f32⟩
  | 6 => ⟨S131072x2x2x2x2x2x2, .f32⟩
  | 7 => ⟨S131072x1x2x2x2x2x2x2, .f32⟩
  | 8 => ⟨S131072x1x2x2x2x2x2x2, .f32⟩
  | 9 => ⟨S131072x2x2x2x2x2x2x2, .f32⟩
  | 10 => ⟨S131072x2x2x2x2x2x2x2, .f32⟩
  | 11 => ⟨S131072x2x64, .f32⟩
  | 12 => ⟨S131072x2x64, .f32⟩
  | 13 => ⟨S131072x1x64, .f32⟩
  | 14 => ⟨S131072x64, .f32⟩
  | 15 => ⟨S_, .f32⟩
  | 16 => ⟨S131072, .f32⟩
  | 17 => ⟨S131072x1x64, .f32⟩
  | 18 => ⟨S131072x64, .f32⟩
  | 19 => ⟨S_, .f32⟩
  | 20 => ⟨S131072, .f32⟩
  | 21 => ⟨S131072, .f32⟩
  | 22 => ⟨S131072x1, .f32⟩
  | 23 => ⟨S131072x65, .f32⟩
  | 24 => ⟨S131072x32, .f32⟩
  | 25 => ⟨S1x32, .f32⟩
  | 26 => ⟨S131072x32, .f32⟩
  | 27 => ⟨S131072x32, .f32⟩
  | 28 => ⟨S_, .f32⟩
  | 29 => ⟨S131072x32, .f32⟩
  | 30 => ⟨S131072x32, .f32⟩
  | 31 => ⟨S131072x16, .f32⟩
  | 32 => ⟨S1x16, .f32⟩
  | 33 => ⟨S131072x16, .f32⟩
  | 34 => ⟨S131072x16, .f32⟩
  | 35 => ⟨S_, .f32⟩
  | 36 => ⟨S131072x16, .f32⟩
  | 37 => ⟨S131072x16, .f32⟩
  | 38 => ⟨S131072x1, .f32⟩
  | 39 => ⟨S1x1, .f32⟩
  | 40 => ⟨S131072x1, .f32⟩
  | 41 => ⟨S131072x1, .f32⟩
  | 42 => ⟨S131072, .f32⟩
  | _ => ⟨S131072x7, .f32⟩

abbrev hbmTy (i : Nat) : BufTy := match i / 128 with
  | 0 => hbmTy0_0 i
  | 1 => hbmTy0_1 i
  | _ => ⟨S131072x7, .f32⟩

abbrev bufTy : (tb : Table) → Fin (tcTables nBuf tb) → BufTy
  | .hbm, ⟨i, _⟩ => hbmTy i
  | _, _ => ⟨S131072x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_cst_0 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_cst_1 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_call0_cst : Ref sig .tc := ⟨.hbm, 156, rfl⟩
abbrev main_call0_v0 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_call1_cst : Ref sig .tc := ⟨.hbm, 163, rfl⟩
abbrev main_call1_v0 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S131072x7_0_1 : S1x7.BroadcastsInDim S131072x7 (![0, 1] : Fin 2 → Fin S131072x7.rank)
  bcast_S_S131072x7 : S_.BroadcastsInDim S131072x7 (![] : Fin 0 → Fin S131072x7.rank)
  bcast_S131072x7_S131072x7x1_0_1 : S131072x7.BroadcastsInDim S131072x7x1 (![0, 1] : Fin 2 → Fin S131072x7x1.rank)
  concatenates_S131072x7x1_S131072x7x1_S131072x7x2_d2 : Shape.Concatenates [S131072x7x1, S131072x7x1] S131072x7x2 2
  slices_S131072x7x2_S131072x1x2_0_0_0 : S131072x7x2.Slices ![0, 0, 0] S131072x1x2
  shapeCasts_S131072x1x2_S131072x2 : S131072x1x2.ShapeCasts S131072x2
  bcast_S131072x2_S131072x2x1_0_1 : S131072x2.BroadcastsInDim S131072x2x1 (![0, 1] : Fin 2 → Fin S131072x2x1.rank)
  slices_S131072x7x2_S131072x1x2_0_1_0 : S131072x7x2.Slices ![0, 1, 0] S131072x1x2
  bcast_S131072x2_S131072x1x2_0_2 : S131072x2.BroadcastsInDim S131072x1x2 (![0, 2] : Fin 2 → Fin S131072x1x2.rank)
  bcast_S131072x2x1_S131072x2x2_0_1_2 : S131072x2x1.BroadcastsInDim S131072x2x2 (![0, 1, 2] : Fin 3 → Fin S131072x2x2.rank)
  bcast_S131072x1x2_S131072x2x2_0_1_2 : S131072x1x2.BroadcastsInDim S131072x2x2 (![0, 1, 2] : Fin 3 → Fin S131072x2x2.rank)
  shapeCasts_S131072x2x2_S131072x4 : S131072x2x2.ShapeCasts S131072x4
  bcast_S131072x4_S131072x4x1_0_1 : S131072x4.BroadcastsInDim S131072x4x1 (![0, 1] : Fin 2 → Fin S131072x4x1.rank)
  slices_S131072x7x2_S131072x1x2_0_2_0 : S131072x7x2.Slices ![0, 2, 0] S131072x1x2
  bcast_S131072x4x1_S131072x4x2_0_1_2 : S131072x4x1.BroadcastsInDim S131072x4x2 (![0, 1, 2] : Fin 3 → Fin S131072x4x2.rank)
  bcast_S131072x1x2_S131072x4x2_0_1_2 : S131072x1x2.BroadcastsInDim S131072x4x2 (![0, 1, 2] : Fin 3 → Fin S131072x4x2.rank)
  shapeCasts_S131072x4x2_S131072x8 : S131072x4x2.ShapeCasts S131072x8
  bcast_S131072x8_S131072x8x1_0_1 : S131072x8.BroadcastsInDim S131072x8x1 (![0, 1] : Fin 2 → Fin S131072x8x1.rank)
  slices_S131072x7x2_S131072x1x2_0_3_0 : S131072x7x2.Slices ![0, 3, 0] S131072x1x2
  bcast_S131072x8x1_S131072x8x2_0_1_2 : S131072x8x1.BroadcastsInDim S131072x8x2 (![0, 1, 2] : Fin 3 → Fin S131072x8x2.rank)
  bcast_S131072x1x2_S131072x8x2_0_1_2 : S131072x1x2.BroadcastsInDim S131072x8x2 (![0, 1, 2] : Fin 3 → Fin S131072x8x2.rank)
  shapeCasts_S131072x8x2_S131072x16 : S131072x8x2.ShapeCasts S131072x16
  bcast_S131072x16_S131072x16x1_0_1 : S131072x16.BroadcastsInDim S131072x16x1 (![0, 1] : Fin 2 → Fin S131072x16x1.rank)
  slices_S131072x7x2_S131072x1x2_0_4_0 : S131072x7x2.Slices ![0, 4, 0] S131072x1x2
  bcast_S131072x16x1_S131072x16x2_0_1_2 : S131072x16x1.BroadcastsInDim S131072x16x2 (![0, 1, 2] : Fin 3 → Fin S131072x16x2.rank)
  bcast_S131072x1x2_S131072x16x2_0_1_2 : S131072x1x2.BroadcastsInDim S131072x16x2 (![0, 1, 2] : Fin 3 → Fin S131072x16x2.rank)
  shapeCasts_S131072x16x2_S131072x32 : S131072x16x2.ShapeCasts S131072x32
  bcast_S131072x32_S131072x32x1_0_1 : S131072x32.BroadcastsInDim S131072x32x1 (![0, 1] : Fin 2 → Fin S131072x32x1.rank)
  slices_S131072x7x2_S131072x1x2_0_5_0 : S131072x7x2.Slices ![0, 5, 0] S131072x1x2
  bcast_S131072x32x1_S131072x32x2_0_1_2 : S131072x32x1.BroadcastsInDim S131072x32x2 (![0, 1, 2] : Fin 3 → Fin S131072x32x2.rank)
  bcast_S131072x1x2_S131072x32x2_0_1_2 : S131072x1x2.BroadcastsInDim S131072x32x2 (![0, 1, 2] : Fin 3 → Fin S131072x32x2.rank)
  shapeCasts_S131072x32x2_S131072x64 : S131072x32x2.ShapeCasts S131072x64
  bcast_S131072x64_S131072x64x1_0_1 : S131072x64.BroadcastsInDim S131072x64x1 (![0, 1] : Fin 2 → Fin S131072x64x1.rank)
  slices_S131072x7x2_S131072x1x2_0_6_0 : S131072x7x2.Slices ![0, 6, 0] S131072x1x2
  bcast_S131072x64x1_S131072x64x2_0_1_2 : S131072x64x1.BroadcastsInDim S131072x64x2 (![0, 1, 2] : Fin 3 → Fin S131072x64x2.rank)
  bcast_S131072x1x2_S131072x64x2_0_1_2 : S131072x1x2.BroadcastsInDim S131072x64x2 (![0, 1, 2] : Fin 3 → Fin S131072x64x2.rank)
  shapeCasts_S131072x64x2_S131072x128 : S131072x64x2.ShapeCasts S131072x128
  shapeCasts_S131072x128_S131072x2x2x2x2x2x2x2 : S131072x128.ShapeCasts S131072x2x2x2x2x2x2x2
  slices_S131072x2x2x2x2x2x2x2_S131072x1x2x2x2x2x2x2_0_0_0_0_0_0_0_0 : S131072x2x2x2x2x2x2x2.Slices ![0, 0, 0, 0, 0, 0, 0, 0] S131072x1x2x2x2x2x2x2
  shapeCasts_S131072x1x2x2x2x2x2x2_S131072x2x2x2x2x2x2 : S131072x1x2x2x2x2x2x2.ShapeCasts S131072x2x2x2x2x2x2
  slices_S131072x2x2x2x2x2x2x2_S131072x1x2x2x2x2x2x2_0_1_0_0_0_0_0_0 : S131072x2x2x2x2x2x2x2.Slices ![0, 1, 0, 0, 0, 0, 0, 0] S131072x1x2x2x2x2x2x2
  bcast_S131072x2x2x2x2x2x2_S131072x1x2x2x2x2x2x2_0_2_3_4_5_6_7 : S131072x2x2x2x2x2x2.BroadcastsInDim S131072x1x2x2x2x2x2x2 (![0, 2, 3, 4, 5, 6, 7] : Fin 7 → Fin S131072x1x2x2x2x2x2x2.rank)
  concatenates_S131072x1x2x2x2x2x2x2_S131072x1x2x2x2x2x2x2_S131072x2x2x2x2x2x2x2_d1 : Shape.Concatenates [S131072x1x2x2x2x2x2x2, S131072x1x2x2x2x2x2x2] S131072x2x2x2x2x2x2x2 1
  transposes_S131072x2x2x2x2x2x2x2_S131072x2x2x2x2x2x2x2_0_2_3_1_4_5_6_7 : S131072x2x2x2x2x2x2x2.Transposes [0, 2, 3, 1, 4, 5, 6, 7] S131072x2x2x2x2x2x2x2
  transposes_S131072x2x2x2x2x2x2x2_S131072x2x2x2x2x2x2x2_0_3_1_2_4_5_6_7 : S131072x2x2x2x2x2x2x2.Transposes [0, 3, 1, 2, 4, 5, 6, 7] S131072x2x2x2x2x2x2x2
  transposes_S131072x2x2x2x2x2x2x2_S131072x2x2x2x2x2x2x2_0_3_4_1_2_5_6_7 : S131072x2x2x2x2x2x2x2.Transposes [0, 3, 4, 1, 2, 5, 6, 7] S131072x2x2x2x2x2x2x2
  transposes_S131072x2x2x2x2x2x2x2_S131072x2x2x2x2x2x2x2_0_4_5_1_2_3_6_7 : S131072x2x2x2x2x2x2x2.Transposes [0, 4, 5, 1, 2, 3, 6, 7] S131072x2x2x2x2x2x2x2
  transposes_S131072x2x2x2x2x2x2x2_S131072x2x2x2x2x2x2x2_0_3_4_5_1_2_6_7 : S131072x2x2x2x2x2x2x2.Transposes [0, 3, 4, 5, 1, 2, 6, 7] S131072x2x2x2x2x2x2x2
  transposes_S131072x2x2x2x2x2x2x2_S131072x2x2x2x2x2x2x2_0_5_6_1_2_3_4_7 : S131072x2x2x2x2x2x2x2.Transposes [0, 5, 6, 1, 2, 3, 4, 7] S131072x2x2x2x2x2x2x2
  transposes_S131072x2x2x2x2x2x2x2_S131072x2x2x2x2x2x2x2_0_3_4_5_6_1_2_7 : S131072x2x2x2x2x2x2x2.Transposes [0, 3, 4, 5, 6, 1, 2, 7] S131072x2x2x2x2x2x2x2
  transposes_S131072x2x2x2x2x2x2x2_S131072x2x2x2x2x2x2x2_0_6_7_1_2_3_4_5 : S131072x2x2x2x2x2x2x2.Transposes [0, 6, 7, 1, 2, 3, 4, 5] S131072x2x2x2x2x2x2x2
  transposes_S131072x2x2x2x2x2x2x2_S131072x2x2x2x2x2x2x2_0_3_4_5_6_7_1_2 : S131072x2x2x2x2x2x2x2.Transposes [0, 3, 4, 5, 6, 7, 1, 2] S131072x2x2x2x2x2x2x2
  transposes_S131072x2x2x2x2x2x2x2_S131072x2x2x2x2x2x2x2_0_7_1_2_3_4_5_6 : S131072x2x2x2x2x2x2x2.Transposes [0, 7, 1, 2, 3, 4, 5, 6] S131072x2x2x2x2x2x2x2
  transposes_S131072x2x2x2x2x2x2x2_S131072x2x2x2x2x2x2x2_0_2_3_4_5_6_7_1 : S131072x2x2x2x2x2x2x2.Transposes [0, 2, 3, 4, 5, 6, 7, 1] S131072x2x2x2x2x2x2x2
  shapeCasts_S131072x2x2x2x2x2x2x2_S131072x2x64 : S131072x2x2x2x2x2x2x2.ShapeCasts S131072x2x64
  slices_S131072x2x64_S131072x1x64_0_0_0 : S131072x2x64.Slices ![0, 0, 0] S131072x1x64
  shapeCasts_S131072x1x64_S131072x64 : S131072x1x64.ShapeCasts S131072x64
  reducesTo_S131072x64_S131072_d1 : S131072x64.ReducesTo [1] S131072
  h_S_ : 0 < S_.numel
  slices_S131072x2x64_S131072x1x64_0_1_0 : S131072x2x64.Slices ![0, 1, 0] S131072x1x64
  bcast_S131072_S131072x1_0 : S131072.BroadcastsInDim S131072x1 (![0] : Fin 1 → Fin S131072x1.rank)
  concatenates_S131072x1_S131072x64_S131072x65_d1 : Shape.Concatenates [S131072x1, S131072x64] S131072x65 1
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  dot_S131072x65_S65x32_S131072x32_1_0_0_1_n_n_wf : DotDims.WF S131072x65 S65x32 S131072x32 [1] [0] [0] [1] [] []
  dot_S131072x32_S32x16_S131072x16_1_0_0_1_n_n_wf : DotDims.WF S131072x32 S32x16 S131072x16 [1] [0] [0] [1] [] []
  dot_S131072x16_S16x1_S131072x1_1_0_0_1_n_n_wf : DotDims.WF S131072x16 S16x1 S131072x1 [1] [0] [0] [1] [] []

variable [Facts₀]

def dot_S131072x65_S65x32_S131072x32_1_0_0_1_n_n : DotDims S131072x65 S65x32 S131072x32 where
  lhsContracting := [1]
  rhsContracting := [0]
  lhsNonContracting := [0]
  rhsNonContracting := [1]
  lhsBatch := []
  rhsBatch := []
  wf := dot_S131072x65_S65x32_S131072x32_1_0_0_1_n_n_wf
def dot_S131072x32_S32x16_S131072x16_1_0_0_1_n_n : DotDims S131072x32 S32x16 S131072x16 where
  lhsContracting := [1]
  rhsContracting := [0]
  lhsNonContracting := [0]
  rhsNonContracting := [1]
  lhsBatch := []
  rhsBatch := []
  wf := dot_S131072x32_S32x16_S131072x16_1_0_0_1_n_n_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf

class Facts : Prop extends Facts₀ where

variable [Facts]
-- ==== Proof.RefRun.lean ====
/-
  The reference program's run, read back in stages.

  The program is a straight line of 162 host operations. Several of its intermediate arrays are read twice by what
  follows — the stacked amplitudes seven times, and the state before each of the seven controlled flips twice — so its
  result written out as one term of the arguments doubles in size seven times over. Read back in ten stages instead,
  each stage's last array named before the next stage starts, every term stays as small as one stage: the line cut in
  two is read back in two steps, the second from what the first leaves.
-/
import proofs.«164904_j9509057593682_2_alg».proof.Proof.RunP
import proofs.«164904_j9509057593682_2_alg».proof.Proof.ReadP

noncomputable section

namespace Idealize.ShloMosaic.StableHlo

variable {τ : Topo} {sig : RefSig} {Val : EltTy → Type}

/-- The contents after two lines run one after the other: the second line's, from what the first leaves. -/
theorem after_append' (A B : List (HloOp τ sig Val)) (V : Valuation τ sig Val) :
    after (A ++ B) V = after B (after A V) := by
  induction A generalizing V with
  | nil => rfl
  | cons a A ih => exact ih (a.result V)

end Idealize.ShloMosaic.StableHlo

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The ten stages -/

/-- Stage 0: operations 1–11 of the line. -/
abbrev seg0 : List (HloOp τ sig (Elt F)) :=
  [ unary main_arg2 main_v0 (broadcastInDim S1x7 ![1] bcast_S7_S1x7_1 : (⟨S7, .f32⟩ : BufTy).Contents (Elt F) → (⟨S1x7, .f32⟩ : BufTy).Contents (Elt F)),
    unary main_v0 main_v1 (broadcastInDim S131072x7 ![0, 1] bcast_S1x7_S131072x7_0_1 : (⟨S1x7, .f32⟩ : BufTy).Contents (Elt F) → (⟨S131072x7, .f32⟩ : BufTy).Contents (Elt F)),
    binary main_arg0 main_v1 main_v2 (addf : (⟨S131072x7, .f32⟩ : BufTy).Contents (Elt F) → (⟨S131072x7, .f32⟩ : BufTy).Contents (Elt F) → (⟨S131072x7, .f32⟩ : BufTy).Contents (Elt F)),
    nullary main_cst (constant S_ .f32 0x3F000000#32),
    unary main_cst main_v3 (broadcastInDim S131072x7 ![] bcast_S_S131072x7 : (⟨S_, .f32⟩ : BufTy).Contents (Elt F) → (⟨S131072x7, .f32⟩ : BufTy).Contents (Elt F)),
    binary main_v2 main_v3 main_v4 (mulf : (⟨S131072x7, .f32⟩ : BufTy).Contents (Elt F) → (⟨S131072x7, .f32⟩ : BufTy).Contents (Elt F) → (⟨S131072x7, .f32⟩ : BufTy).Contents (Elt F)),
    unary main_v4 main_v5 (Host.cos : (⟨S131072x7, .f32⟩ : BufTy).Contents (Elt F) → (⟨S131072x7, .f32⟩ : BufTy).Contents (Elt F)),
    unary main_v4 main_v6 (Host.sin : (⟨S131072x7, .f32⟩ : BufTy).Contents (Elt F) → (⟨S131072x7, .f32⟩ : BufTy).Contents (Elt F)),
    unary main_v5 main_v7 (broadcastInDim S131072x7x1 ![0, 1] bcast_S131072x7_S131072x7x1_0_1 : (⟨S131072x7, .f32⟩ : BufTy).Contents (Elt F) → (⟨S131072x7x1, .f32⟩ : BufTy).Contents (Elt F)),
    unary main_v6 main_v8 (broadcastInDim S131072x7x1 ![0, 1] bcast_S131072x7_S131072x7x1_0_1 : (⟨S131072x7, .f32⟩ : BufTy).Contents (Elt F) → (⟨S131072x7x1, .f32⟩ : BufTy).Contents (Elt F)),
    binary main_v7 main_v8 main_v9 ((fun a b => concatenate S131072x7x2 2 [⟨S131072x7x1, a⟩, ⟨S131072x7x1, b⟩] concatenates_S131072x7x1_S131072x7x1_S131072x7x2_d2) : (⟨S131072x7x1, .f32⟩ : BufTy).Contents (Elt F) → (⟨S131072x7x1, .f32⟩ : BufTy).Contents (Elt F) → (⟨S131072x7x2, .f32⟩ : BufTy).Contents (Elt F)) ]

/-- Stage 1: operations 12–62 of the line. -/
abbrev seg1 : List (HloOp τ sig (Elt F)) :=
  [ unary main_v9 main_v10 ((extractStridedSlice S131072x1x2 ![0, 0, 0] · slices_S131072x7x2_S131072x1x2_0_0_0) : (⟨S131072x7x2, .f32⟩ : BufTy).Contents (Elt F) → (⟨S131072x1x2, .f32⟩ : BufTy).Contents (Elt F)),
    reshape main_v10 main_v11 rfl shapeCasts_S131072x1x2_S131072x2,
    unary main_v11 main_v12 (broadcastInDim S131072x2x1 ![0, 1] bcast_S131072x2_S131072x2x1_0_1 : (⟨S131072x2, .f32⟩ : BufTy).Contents (Elt F) → (⟨S131072x2x1, .f32⟩ : BufTy).Contents (Elt F)),
    unary main_v9 main_v13 ((extractStridedSlice S131072x1x2 ![0, 1, 0] · slices_S131072x7x2_S131072x1x2_0_1_0) : (⟨S131072x7x2, .f32⟩ : BufTy).Contents (Elt F) → (⟨S131072x1x2, .f32⟩ : BufTy).Contents (Elt F)),
    reshape main_v13 main_v14 rfl shapeCasts_S131072x1x2_S131072x2,
    unary main_v14 main_v15 (broadcastInDim S131072x1x2 ![0, 2] bcast_S131072x2_S131072x1x2_0_2 : (⟨S131072x2, .f32⟩ : BufTy).Contents (Elt F) → (⟨S131072x1x2, .f32⟩ : BufTy).Contents (Elt F)),
    unary main_v12 main_v16 (broadcastInDim S131072x2x2 ![0, 1, 2] bcast_S131072x2x1_S131072x2x2_0_1_2 : (⟨S131072x2x1, .f32⟩ : BufTy).Contents (Elt F) → (⟨S131072x2x2, .f32⟩ : BufTy).Contents (Elt F)),
    unary main_v15 main_v17 (broadcastInDim S131072x2x2 ![0, 1, 2] bcast_S131072x1x2_S131072x2x2_0_1_2 : (⟨S131072x1x2, .f32⟩ : BufTy).Contents (Elt F) → (⟨S131072x2x2, .f32⟩ : BufTy).Contents (Elt F)),
    binary main_v16 main_v17 main_v18 (mulf : (⟨S131072x2x2, .f32⟩ : BufTy).Contents (Elt F) → (⟨S131072x2x2, .f32⟩ : BufTy).Contents (Elt F) → (⟨S131072x2x2, .f32⟩ : BufTy).Contents (Elt F)),
    reshape main_v18 main_v19 rfl shapeCasts_S131072x2x2_S131072x4,
    unary main_v19 main_v20 (broadcastInDim S131072x4x1 ![0, 1] bcast_S131072x4_S131072x4x1_0_1 : (⟨S131072x4, .f32⟩ : BufTy).Contents (Elt F) → (⟨S131072x4x1, .f32⟩ : BufTy).Contents (Elt F)),
    unary main_v9 main_v21 ((extractStridedSlice S131072x1x2 ![0, 2, 0] · slices_S131072x7x2_S131072x1x2_0_2_0) : (⟨S131072x7x2, .f32⟩ : BufTy).Contents (Elt F) → (⟨S131072x1x2, .f32⟩ : BufTy).Contents (Elt F)),
    reshape main_v21 main_v22 rfl shapeCasts_S131072x1x2_S131072x2,
    unary main_v22 main_v23 (broadcastInDim S131072x1x2 ![0, 2] bcast_S131072x2_S131072x1x2_0_2 : (⟨S131072x2, .f32⟩ : BufTy).Contents (Elt F) → (⟨S131072x1x2, .f32⟩ : BufTy).Contents (Elt F)),
    unary main_v20 main_v24 (broadcastInDim S131072x4x2 ![0, 1, 2] bcast_S131072x4x1_S131072x4x2_0_1_2 : (⟨S131072x4x1, .f32⟩ : BufTy).Contents (Elt F) → (⟨S131072x4x2, .f32⟩ : BufTy).Contents (Elt F)),
    unary main_v23 main_v25 (broadcastInDim S131072x4x2 ![0, 1, 2] bcast_S131072x1x2_S131072x4x2_0_1_2 : (⟨S131072x1x2, .f32⟩ : BufTy).Contents (Elt F) → (⟨S131072x4x2, .f32⟩ : BufTy).Contents (Elt F)),
    binary main_v24 main_v25 main_v26 (mulf : (⟨S131072x4x2, .f32⟩ : BufTy).Contents (Elt F) → (⟨S131072x4x2, .f32⟩ : BufTy).Contents (Elt F) → (⟨S131072x4x2, .f32⟩ : BufTy).Contents (Elt F)),
    reshape main_v26 main_v27 rfl shapeCasts_S131072x4x2_S131072x8,
    unary main_v27 main_v28 (broadcastInDim S131072x8x1 ![0, 1] bcast_S131072x8_S131072x8x1_0_1 : (⟨S131072x8, .f32⟩ : BufTy).Contents (Elt F) → (⟨S131072x8x1, .f32⟩ : BufTy).Contents (Elt F)),
    unary main_v9 main_v29 ((extractStridedSlice S131072x1x2 ![0, 3, 0] · slices_S131072x7x2_S131072x1x2_0_3_0) : (⟨S131072x7x2, .f32⟩ : BufTy).Contents (Elt F) → (⟨S131072x1x2, .f32⟩ : BufTy).Contents (Elt F)),
    reshape main_v29 main_v30 rfl shapeCasts_S131072x1x2_S131072x2,
    unary main_v30 main_v31 (broadcastInDim S131072x1x2 ![0, 2] bcast_S131072x2_S131072x1x2_0_2 : (⟨S131072x2, .f32⟩ : BufTy).Contents (Elt F) → (⟨S131072x1x2, .f32⟩ : BufTy).Contents (Elt F)),
    unary main_v28 main_v32 (broadcastInDim S131072x8x2 ![0, 1, 2] bcast_S131072x8x1_S131072x8x2_0_1_2 : (⟨S131072x8x1, .f32⟩ : BufTy).Contents (Elt F) → (⟨S131072x8x2, .f32⟩ : BufTy).Contents (Elt F)),
    unary main_v31 main_v33 (broadcastInDim S131072x8x2 ![0, 1, 2] bcast_S131072x1x2_S131072x8x2_0_1_2 : (⟨S131072x1x2, .f32⟩ : BufTy).Contents (Elt F) → (⟨S131072x8x2, .f32⟩ : BufTy).Contents (Elt F)),
    binary main_v32 main_v33 main_v34 (mulf : (⟨S131072x8x2, .f32⟩ : BufTy).Contents (Elt F) → (⟨S131072x8x2, .f32⟩ : BufTy).Contents (Elt F) → (⟨S131072x8x2, .f32⟩ : BufTy).Contents (Elt F)),
    reshape main_v34 main_v35 rfl shapeCasts_S131072x8x2_S131072x16,
    unary main_v35 main_v36 (broadcastInDim S131072x16x1 ![0, 1] bcast_S131072x16_S131072x16x1_0_1 : (⟨S131072x16, .f32⟩ : BufTy).Contents (Elt F) → (⟨S131072x16x1, .f32⟩ : BufTy).Contents (Elt F)),
    unary main_v9 main_v37 ((extractStridedSlice S131072x1x2 ![0, 4, 0] · slices_S131072x7x2_S131072x1x2_0_4_0) : (⟨S131072x7x2, .f32⟩ : BufTy).Contents (Elt F) → (⟨S131072x1x2, .f32⟩ : BufTy).Contents (Elt F)),
    reshape main_v37 main_v38 rfl shapeCasts_S131072x1x2_S131072x2,
    unary main_v38 main_v39 (broadcastInDim S131072x1x2 ![0, 2] bcast_S131072x2_S131072x1x2_0_2 : (⟨S131072x2, .f32⟩ : BufTy).Contents (Elt F) → (⟨S131072x1x2, .f32⟩ : BufTy).Contents (Elt F)),
    unary main_v36 main_v40 (broadcastInDim S131072x16x2 ![0, 1, 2] bcast_S131072x16x1_S131072x16x2_0_1_2 : (⟨S131072x16x1, .f32⟩ : BufTy).Contents (Elt F) → (⟨S131072x16x2, .f32⟩ : BufTy).Contents (Elt F)),
    unary main_v39 main_v41 (broadcastInDim S131072x16x2 ![0, 1, 2] bcast_S131072x1x2_S131072x16x2_0_1_2 : (⟨S131072x1x2, .f32⟩ : BufTy).Contents (Elt F) → (⟨S131072x16x2, .f32⟩ : BufTy).Contents (Elt F)),
    binary main_v40 main_v41 main_v42 (mulf : (⟨S131072x16x2, .f32⟩ : BufTy).Contents (Elt F) → (⟨S131072x16x2, .f32⟩ : BufTy).Contents (Elt F) → (⟨S131072x16x2, .f32⟩ : BufTy).Contents (Elt F)),
    reshape main_v42 main_v43 rfl shapeCasts_S131072x16x2_S131072x32,
    unary main_v43 main_v44 (broadcastInDim S131072x32x1 ![0, 1] bcast_S131072x32_S131072x32x1_0_1 : (⟨S131072x32, .f32⟩ : BufTy).Contents (Elt F) → (⟨S131072x32x1, .f32⟩ : BufTy).Contents (Elt F)),
    unary main_v9 main_v45 ((extractStridedSlice S131072x1x2 ![0, 5, 0] · slices_S131072x7x2_S131072x1x2_0_5_0) : (⟨S131072x7x2, .f32⟩ : BufTy).Contents (Elt F) → (⟨S131072x1x2, .f32⟩ : BufTy).Contents (Elt F)),
    reshape main_v45 main_v46 rfl shapeCasts_S131072x1x2_S131072x2,
    unary main_v46 main_v47 (broadcastInDim S131072x1x2 ![0, 2] bcast_S131072x2_S131072x1x2_0_2 : (⟨S131072x2, .f32⟩ : BufTy).Contents (Elt F) → (⟨S131072x1x2, .f32⟩ : BufTy).Contents (Elt F)),
    unary main_v44 main_v48 (broadcastInDim S131072x32x2 ![0, 1, 2] bcast_S131072x32x1_S131072x32x2_0_1_2 : (⟨S131072x32x1, .f32⟩ : BufTy).Contents (Elt F) → (⟨S131072x32x2, .f32⟩ : BufTy).Contents (Elt F)),
    unary main_v47 main_v49 (broadcastInDim S131072x32x2 ![0, 1, 2] bcast_S131072x1x2_S131072x32x2_0_1_2 : (⟨S131072x1x2, .f32⟩ : BufTy).Contents (Elt F) → (⟨S131072x32x2, .f32⟩ : BufTy).Contents (Elt F)),
    binary main_v48 main_v49 main_v50 (mulf : (⟨S131072x32x2, .f32⟩ : BufTy).Contents (Elt F) → (⟨S131072x32x2, .f32⟩ : BufTy).Contents (Elt F) → (⟨S131072x32x2, .f32⟩ : BufTy).Contents (Elt F)),
    reshape main_v50 main_v51 rfl shapeCasts_S131072x32x2_S131072x64,
    unary main_v51 main_v52 (broadcastInDim S131072x64x1 ![0, 1] bcast_S131072x64_S131072x64x1_0_1 : (⟨S131072x64, .f32⟩ : BufTy).Contents (Elt F) → (⟨S131072x64x1, .f32⟩ : BufTy).Contents (Elt F)),
    unary main_v9 main_v53 ((extractStridedSlice S131072x1x2 ![0, 6, 0] · slices_S131072x7x2_S131072x1x2_0_6_0) : (⟨S131072x7x2, .f32⟩ : BufTy).Contents (Elt F) → (⟨S131072x1x2, .f32⟩ : BufTy).Contents (Elt F)),
    reshape main_v53 main_v54 rfl shapeCasts_S131072x1x2_S131072x2,
    unary main_v54 main_v55 (broadcastInDim S131072x1x2 ![0, 2] bcast_S131072x2_S131072x1x2_0_2 : (⟨S131072x2, .f32⟩ : BufTy).Contents (Elt F) → (⟨S131072x1x2, .f32⟩ : BufTy).Contents (Elt F)),
    unary main_v52 main_v56 (broadcastInDim S131072x64x2 ![0, 1, 2] bcast_S131072x64x1_S131072x64x2_0_1_2 : (⟨S131072x64x1, .f32⟩ : BufTy).Contents (Elt F) → (⟨S131072x64x2, .f32⟩ : BufTy).Contents (Elt F)),
    unary main_v55 main_v57 (broadcastInDim S131072x64x2 ![0, 1, 2] bcast_S131072x1x2_S131072x64x2_0_1_2 : (⟨S131072x1x2, .f32⟩ : BufTy).Contents (Elt F) → (⟨S131072x64x2, .f32⟩ : BufTy).Contents (Elt F)),
    binary main_v56 main_v57 main_v58 (mulf : (⟨S131072x64x2, .f32⟩ : BufTy).Contents (Elt F) → (⟨S131072x64x2, .f32⟩ : BufTy).Contents (Elt F) → (⟨S131072x64x2, .f32⟩ : BufTy).Contents (Elt F)),
    reshape main_v58 main_v59 rfl shapeCasts_S131072x64x2_S131072x128,
    reshape main_v59 main_v60 rfl shapeCasts_S131072x128_S131072x2x2x2x2x2x2x2 ]

/-- Stage 2: operations 63–71 of the line. -/
abbrev seg2 : List (HloOp τ sig (Elt F)) :=
  [ unary main_v60 main_v61 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v61 main_v62 rfl shapeCasts_S131072x1x2x2x2x2x2x2_S131072x2x2x2x2x2x2,
    unary main_v60 main_v63 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v63 main_v64 (Host.reverse [2] : (⟨S131072x1x2x2x2x2x2x2, .f32⟩ : BufTy).Contents (Elt F) → (⟨S131072x1x2x2x2x2x2x2, .f32⟩ : BufTy).Contents (Elt F)),
    reshape main_v64 main_v65 rfl shapeCasts_S131072x1x2x2x2x2x2x2_S131072x2x2x2x2x2x2,
    unary main_v62 main_v66 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v65 main_v67 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v66 main_v67 main_v68 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v68 main_v69 ((transpose S131072x2x2x2x2x2x2x2 [0, 2, 3, 1, 4, 5, 6, 7] · transposes_S131072x2x2x2x2x2x2x2_S131072x2x2x2x2x2x2x2_0_2_3_1_4_5_6_7) : (⟨S131072x2x2x2x2x2x2x2, .f32⟩ : BufTy).Contents (Elt F) → (⟨S131072x2x2x2x2x2x2x2, .f32⟩ : BufTy).Contents (Elt F)) ]

/-- Stage 3: operations 72–81 of the line. -/
abbrev seg3 : List (HloOp τ sig (Elt F)) :=
  [ unary main_v69 main_v70 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v70 main_v71 rfl shapeCasts_S131072x1x2x2x2x2x2x2_S131072x2x2x2x2x2x2,
    unary main_v69 main_v72 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v72 main_v73 (Host.reverse [2] : (⟨S131072x1x2x2x2x2x2x2, .f32⟩ : BufTy).Contents (Elt F) → (⟨S131072x1x2x2x2x2x2x2, .f32⟩ : BufTy).Contents (Elt F)),
    reshape main_v73 main_v74 rfl shapeCasts_S131072x1x2x2x2x2x2x2_S131072x2x2x2x2x2x2,
    unary main_v71 main_v75 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v74 main_v76 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v75 main_v76 main_v77 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v77 main_v78 ((transpose S131072x2x2x2x2x2x2x2 [0, 3, 1, 2, 4, 5, 6, 7] · transposes_S131072x2x2x2x2x2x2x2_S131072x2x2x2x2x2x2x2_0_3_1_2_4_5_6_7) : (⟨S131072x2x2x2x2x2x2x2, .f32⟩ : BufTy).Contents (Elt F) → (⟨S131072x2x2x2x2x2x2x2, .f32⟩ : BufTy).Contents (Elt F)),
    unary main_v78 main_v79 ((transpose S131072x2x2x2x2x2x2x2 [0, 3, 4, 1, 2, 5, 6, 7] · transposes_S131072x2x2x2x2x2x2x2_S131072x2x2x2x2x2x2x2_0_3_4_1_2_5_6_7) : (⟨S131072x2x2x2x2x2x2x2, .f32⟩ : BufTy).Contents (Elt F) → (⟨S131072x2x2x2x2x2x2x2, .f32⟩ : BufTy).Contents (Elt F)) ]

/-- Stage 4: operations 82–91 of the line. -/
abbrev seg4 : List (HloOp τ sig (Elt F)) :=
  [ unary main_v79 main_v80 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v80 main_v81 rfl shapeCasts_S131072x1x2x2x2x2x2x2_S131072x2x2x2x2x2x2,
    unary main_v79 main_v82 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v82 main_v83 (Host.reverse [2] : (⟨S131072x1x2x2x2x2x2x2, .f32⟩ : BufTy).Contents (Elt F) → (⟨S131072x1x2x2x2x2x2x2, .f32⟩ : BufTy).Contents (Elt F)),
    reshape main_v83 main_v84 rfl shapeCasts_S131072x1x2x2x2x2x2x2_S131072x2x2x2x2x2x2,
    unary main_v81 main_v85 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v84 main_v86 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v85 main_v86 main_v87 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v87 main_v88 ((transpose S131072x2x2x2x2x2x2x2 [0, 3, 4, 1, 2, 5, 6, 7] · transposes_S131072x2x2x2x2x2x2x2_S131072x2x2x2x2x2x2x2_0_3_4_1_2_5_6_7) : (⟨S131072x2x2x2x2x2x2x2, .f32⟩ : BufTy).Contents (Elt F) → (⟨S131072x2x2x2x2x2x2x2, .f32⟩ : BufTy).Contents (Elt F)),
    unary main_v88 main_v89 ((transpose S131072x2x2x2x2x2x2x2 [0, 4, 5, 1, 2, 3, 6, 7] · transposes_S131072x2x2x2x2x2x2x2_S131072x2x2x2x2x2x2x2_0_4_5_1_2_3_6_7) : (⟨S131072x2x2x2x2x2x2x2, .f32⟩ : BufTy).Contents (Elt F) → (⟨S131072x2x2x2x2x2x2x2, .f32⟩ : BufTy).Contents (Elt F)) ]

/-- Stage 5: operations 92–101 of the line. -/
abbrev seg5 : List (HloOp τ sig (Elt F)) :=
  [ unary main_v89 main_v90 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v90 main_v91 rfl shapeCasts_S131072x1x2x2x2x2x2x2_S131072x2x2x2x2x2x2,
    unary main_v89 main_v92 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v92 main_v93 (Host.reverse [2] : (⟨S131072x1x2x2x2x2x2x2, .f32⟩ : BufTy).Contents (Elt F) → (⟨S131072x1x2x2x2x2x2x2, .f32⟩ : BufTy).Contents (Elt F)),
    reshape main_v93 main_v94 rfl shapeCasts_S131072x1x2x2x2x2x2x2_S131072x2x2x2x2x2x2,
    unary main_v91 main_v95 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v94 main_v96 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v95 main_v96 main_v97 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v97 main_v98 ((transpose S131072x2x2x2x2x2x2x2 [0, 3, 4, 5, 1, 2, 6, 7] · transposes_S131072x2x2x2x2x2x2x2_S131072x2x2x2x2x2x2x2_0_3_4_5_1_2_6_7) : (⟨S131072x2x2x2x2x2x2x2, .f32⟩ : BufTy).Contents (Elt F) → (⟨S131072x2x2x2x2x2x2x2, .f32⟩ : BufTy).Contents (Elt F)),
    unary main_v98 main_v99 ((transpose S131072x2x2x2x2x2x2x2 [0, 5, 6, 1, 2, 3, 4, 7] · transposes_S131072x2x2x2x2x2x2x2_S131072x2x2x2x2x2x2x2_0_5_6_1_2_3_4_7) : (⟨S131072x2x2x2x2x2x2x2, .f32⟩ : BufTy).Contents (Elt F) → (⟨S131072x2x2x2x2x2x2x2, .f32⟩ : BufTy).Contents (Elt F)) ]

/-- Stage 6: operations 102–111 of the line. -/
abbrev seg6 : List (HloOp τ sig (Elt F)) :=
  [ unary main_v99 main_v100 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v100 main_v101 rfl shapeCasts_S131072x1x2x2x2x2x2x2_S131072x2x2x2x2x2x2,
    unary main_v99 main_v102 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v102 main_v103 (Host.reverse [2] : (⟨S131072x1x2x2x2x2x2x2, .f32⟩ : BufTy).Contents (Elt F) → (⟨S131072x1x2x2x2x2x2x2, .f32⟩ : BufTy).Contents (Elt F)),
    reshape main_v103 main_v104 rfl shapeCasts_S131072x1x2x2x2x2x2x2_S131072x2x2x2x2x2x2,
    unary main_v101 main_v105 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v104 main_v106 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v105 main_v106 main_v107 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v107 main_v108 ((transpose S131072x2x2x2x2x2x2x2 [0, 3, 4, 5, 6, 1, 2, 7] · transposes_S131072x2x2x2x2x2x2x2_S131072x2x2x2x2x2x2x2_0_3_4_5_6_1_2_7) : (⟨S131072x2x2x2x2x2x2x2, .f32⟩ : BufTy).Contents (Elt F) → (⟨S131072x2x2x2x2x2x2x2, .f32⟩ : BufTy).Contents (Elt F)),
    unary main_v108 main_v109 ((transpose S131072x2x2x2x2x2x2x2 [0, 6, 7, 1, 2, 3, 4, 5] · transposes_S131072x2x2x2x2x2x2x2_S131072x2x2x2x2x2x2x2_0_6_7_1_2_3_4_5) : (⟨S131072x2x2x2x2x2x2x2, .f32⟩ : BufTy).Contents (Elt F) → (⟨S131072x2x2x2x2x2x2x2, .f32⟩ : BufTy).Contents (Elt F)) ]

/-- Stage 7: operations 112–121 of the line. -/
abbrev seg7 : List (HloOp τ sig (Elt F)) :=
  [ unary main_v109 main_v110 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v110 main_v111 rfl shapeCasts_S131072x1x2x2x2x2x2x2_S131072x2x2x2x2x2x2,
    unary main_v109 main_v112 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v112 main_v113 (Host.reverse [2] : (⟨S131072x1x2x2x2x2x2x2, .f32⟩ : BufTy).Contents (Elt F) → (⟨S131072x1x2x2x2x2x2x2, .f32⟩ : BufTy).Contents (Elt F)),
    reshape main_v113 main_v114 rfl shapeCasts_S131072x1x2x2x2x2x2x2_S131072x2x2x2x2x2x2,
    unary main_v111 main_v115 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v114 main_v116 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v115 main_v116 main_v117 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v117 main_v118 ((transpose S131072x2x2x2x2x2x2x2 [0, 3, 4, 5, 6, 7, 1, 2] · transposes_S131072x2x2x2x2x2x2x2_S131072x2x2x2x2x2x2x2_0_3_4_5_6_7_1_2) : (⟨S131072x2x2x2x2x2x2x2, .f32⟩ : BufTy).Contents (Elt F) → (⟨S131072x2x2x2x2x2x2x2, .f32⟩ : BufTy).Contents (Elt F)),
    unary main_v118 main_v119 ((transpose S131072x2x2x2x2x2x2x2 [0, 7, 1, 2, 3, 4, 5, 6] · transposes_S131072x2x2x2x2x2x2x2_S131072x2x2x2x2x2x2x2_0_7_1_2_3_4_5_6) : (⟨S131072x2x2x2x2x2x2x2, .f32⟩ : BufTy).Contents (Elt F) → (⟨S131072x2x2x2x2x2x2x2, .f32⟩ : BufTy).Contents (Elt F)) ]

/-- Stage 8: operations 122–131 of the line. -/
abbrev seg8 : List (HloOp τ sig (Elt F)) :=
  [ unary main_v119 main_v120 ((extractStridedSlice S131072x1x2x2x2x2x2x2 ![0, 0, 0, 0, 0, 0, 0, 0] · slices_S131072x2x2x2x2x2x2x2_S131072x1x2x2x2x2x2x2_0_0_0_0_0_0_0_0) : (⟨S131072x2x2x2x2x2x2x2, .f32⟩ : BufTy).Contents (Elt F) → (⟨S131072x1x2x2x2x2x2x2, .f32⟩ : BufTy).Contents (Elt F)),
    reshape main_v120 main_v121 rfl shapeCasts_S131072x1x2x2x2x2x2x2_S131072x2x2x2x2x2x2,
    unary main_v119 main_v122 ((extractStridedSlice S131072x1x2x2x2x2x2x2 ![0, 1, 0, 0, 0, 0, 0, 0] · slices_S131072x2x2x2x2x2x2x2_S131072x1x2x2x2x2x2x2_0_1_0_0_0_0_0_0) : (⟨S131072x2x2x2x2x2x2x2, .f32⟩ : BufTy).Contents (Elt F) → (⟨S131072x1x2x2x2x2x2x2, .f32⟩ : BufTy).Contents (Elt F)),
    unary main_v122 main_v123 (Host.reverse [2] : (⟨S131072x1x2x2x2x2x2x2, .f32⟩ : BufTy).Contents (Elt F) → (⟨S131072x1x2x2x2x2x2x2, .f32⟩ : BufTy).Contents (Elt F)),
    reshape main_v123 main_v124 rfl shapeCasts_S131072x1x2x2x2x2x2x2_S131072x2x2x2x2x2x2,
    unary main_v121 main_v125 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    unary main_v124 main_v126 (broadcastInDim S131072x1x2x2x2x2x2x2 ![0, 2, 3, 4, 5, 6, 7] bcast_S131072x2x2x2x2x2x2_S131072x1x2x2x2x2x2x2_0_2_3_4_5_6_7 : (⟨S131072x2x2x2x2x2x2, .f32⟩ : BufTy).Contents (Elt F) → (⟨S131072x1x2x2x2x2x2x2, .f32⟩ : BufTy).Contents (Elt F)),
    binary main_v125 main_v126 main_v127 ((fun a b => concatenate S131072x2x2x2x2x2x2x2 1 [⟨S131072x1x2x2x2x2x2x2, a⟩, ⟨S131072x1x2x2x2x2x2x2, b⟩] concatenates_S131072x1x2x2x2x2x2x2_S131072x1x2x2x2x2x2x2_S131072x2x2x2x2x2x2x2_d1) : (⟨S131072x1x2x2x2x2x2x2, .f32⟩ : BufTy).Contents (Elt F) → (⟨S131072x1x2x2x2x2x2x2, .f32⟩ : BufTy).Contents (Elt F) → (⟨S131072x2x2x2x2x2x2x2, .f32⟩ : BufTy).Contents (Elt F)),
    unary main_v127 main_v128 ((transpose S131072x2x2x2x2x2x2x2 [0, 2, 3, 4, 5, 6, 7, 1] · transposes_S131072x2x2x2x2x2x2x2_S131072x2x2x2x2x2x2x2_0_2_3_4_5_6_7_1) : (⟨S131072x2x2x2x2x2x2x2, .f32⟩ : BufTy).Contents (Elt F) → (⟨S131072x2x2x2x2x2x2x2, .f32⟩ : BufTy).Contents (Elt F)),
    reshape main_v128 main_v129 rfl shapeCasts_S131072x2x2x2x2x2x2x2_S131072x2x64 ]

/-- Stage 9: operations 132–162 of the line. -/
abbrev seg9 : List (HloOp τ sig (Elt F)) :=
  [ binary main_v129 main_v129 main_v130 (mulf : (⟨S131072x2x64, .f32⟩ : BufTy).Contents (Elt F) → (⟨S131072x2x64, .f32⟩ : BufTy).Contents (Elt F) → (⟨S131072x2x64, .f32⟩ : BufTy).Contents (Elt F)),
    unary main_v130 main_v131 ((extractStridedSlice S131072x1x64 ![0, 0, 0] · slices_S131072x2x64_S131072x1x64_0_0_0) : (⟨S131072x2x64, .f32⟩ : BufTy).Contents (Elt F) → (⟨S131072x1x64, .f32⟩ : BufTy).Contents (Elt F)),
    reshape main_v131 main_v132 rfl shapeCasts_S131072x1x64_S131072x64,
    nullary main_cst_0 (constant S_ .f32 0x00000000#32),
    binary main_v132 main_cst_0 main_v133 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v130 main_v134 ((extractStridedSlice S131072x1x64 ![0, 1, 0] · slices_S131072x2x64_S131072x1x64_0_1_0) : (⟨S131072x2x64, .f32⟩ : BufTy).Contents (Elt F) → (⟨S131072x1x64, .f32⟩ : BufTy).Contents (Elt F)),
    reshape main_v134 main_v135 rfl shapeCasts_S131072x1x64_S131072x64,
    nullary main_cst_1 (constant S_ .f32 0x00000000#32),
    binary main_v135 main_cst_1 main_v136 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    binary main_v133 main_v136 main_v137 (subf : (⟨S131072, .f32⟩ : BufTy).Contents (Elt F) → (⟨S131072, .f32⟩ : BufTy).Contents (Elt F) → (⟨S131072, .f32⟩ : BufTy).Contents (Elt F)),
    unary main_v137 main_v138 (broadcastInDim S131072x1 ![0] bcast_S131072_S131072x1_0 : (⟨S131072, .f32⟩ : BufTy).Contents (Elt F) → (⟨S131072x1, .f32⟩ : BufTy).Contents (Elt F)),
    binary main_v138 main_arg1 main_v139 ((fun a b => concatenate S131072x65 1 [⟨S131072x1, a⟩, ⟨S131072x64, b⟩] concatenates_S131072x1_S131072x64_S131072x65_d1) : (⟨S131072x1, .f32⟩ : BufTy).Contents (Elt F) → (⟨S131072x64, .f32⟩ : BufTy).Contents (Elt F) → (⟨S131072x65, .f32⟩ : BufTy).Contents (Elt F)),
    binary main_v139 main_arg3 main_v140 ((fun l r => Host.dotGeneral dot_S131072x65_S65x32_S131072x32_1_0_0_1_n_n none l r) : (⟨S131072x65, .f32⟩ : BufTy).Contents (Elt F) → (⟨S65x32, .f32⟩ : BufTy).Contents (Elt F) → (⟨S131072x32, .f32⟩ : BufTy).Contents (Elt F)),
    unary main_arg4 main_v141 (broadcastInDim S1x32 ![1] bcast_S32_S1x32_1 : (⟨S32, .f32⟩ : BufTy).Contents (Elt F) → (⟨S1x32, .f32⟩ : BufTy).Contents (Elt F)),
    unary main_v141 main_v142 (broadcastInDim S131072x32 ![0, 1] bcast_S1x32_S131072x32_0_1 : (⟨S1x32, .f32⟩ : BufTy).Contents (Elt F) → (⟨S131072x32, .f32⟩ : BufTy).Contents (Elt F)),
    binary main_v140 main_v142 main_v143 (addf : (⟨S131072x32, .f32⟩ : BufTy).Contents (Elt F) → (⟨S131072x32, .f32⟩ : BufTy).Contents (Elt F) → (⟨S131072x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131072x32, .f32⟩) main_call0_v0) (broadcastInDim S131072x32 ![] bcast_S_S131072x32),
    TRef.binary (TRef.of (T := ⟨S131072x32, .f32⟩) main_v143) (TRef.of (T := ⟨S131072x32, .f32⟩) main_call0_v0) (TRef.of (T := ⟨S131072x32, .f32⟩) main_v144) maximumf,
    binary main_v144 main_arg5 main_v145 ((fun l r => Host.dotGeneral dot_S131072x32_S32x16_S131072x16_1_0_0_1_n_n none l r) : (⟨S131072x32, .f32⟩ : BufTy).Contents (Elt F) → (⟨S32x16, .f32⟩ : BufTy).Contents (Elt F) → (⟨S131072x16, .f32⟩ : BufTy).Contents (Elt F)),
    unary main_arg6 main_v146 (broadcastInDim S1x16 ![1] bcast_S16_S1x16_1 : (⟨S16, .f32⟩ : BufTy).Contents (Elt F) → (⟨S1x16, .f32⟩ : BufTy).Contents (Elt F)),
    unary main_v146 main_v147 (broadcastInDim S131072x16 ![0, 1] bcast_S1x16_S131072x16_0_1 : (⟨S1x16, .f32⟩ : BufTy).Contents (Elt F) → (⟨S131072x16, .f32⟩ : BufTy).Contents (Elt F)),
    binary main_v145 main_v147 main_v148 (addf : (⟨S131072x16, .f32⟩ : BufTy).Contents (Elt F) → (⟨S131072x16, .f32⟩ : BufTy).Contents (Elt F) → (⟨S131072x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x16, .f32⟩) main_call1_v0) (broadcastInDim S131072x16 ![] bcast_S_S131072x16),
    TRef.binary (TRef.of (T := ⟨S131072x16, .f32⟩) main_v148) (TRef.of (T := ⟨S131072x16, .f32⟩) main_call1_v0) (TRef.of (T := ⟨S131072x16, .f32⟩) main_v149) maximumf,
    binary main_v149 main_arg7 main_v150 ((fun l r => Host.dotGeneral dot_S131072x16_S16x1_S131072x1_1_0_0_1_n_n none l r) : (⟨S131072x16, .f32⟩ : BufTy).Contents (Elt F) → (⟨S16x1, .f32⟩ : BufTy).Contents (Elt F) → (⟨S131072x1, .f32⟩ : BufTy).Contents (Elt F)),
    unary main_arg8 main_v151 (broadcastInDim S1x1 ![1] bcast_S1_S1x1_1 : (⟨S1, .f32⟩ : BufTy).Contents (Elt F) → (⟨S1x1, .f32⟩ : BufTy).Contents (Elt F)),
    unary main_v151 main_v152 (broadcastInDim S131072x1 ![0, 1] bcast_S1x1_S131072x1_0_1 : (⟨S1x1, .f32⟩ : BufTy).Contents (Elt F) → (⟨S131072x1, .f32⟩ : BufTy).Contents (Elt F)),
    binary main_v150 main_v152 main_v153 (addf : (⟨S131072x1, .f32⟩ : BufTy).Contents (Elt F) → (⟨S131072x1, .f32⟩ : BufTy).Contents (Elt F) → (⟨S131072x1, .f32⟩ : BufTy).Contents (Elt F)),
    reshape main_v153 main_v154 rfl shapeCasts_S131072x1_S131072 ]

set_option maxRecDepth 8192 in
/-- The line is its ten stages end to end. -/
theorem ops_eq : (ops : List (HloOp τ sig (Elt F))) = seg0 ++ (seg1 ++ (seg2 ++ (seg3 ++ (seg4 ++ (seg5 ++ (seg6 ++ (seg7 ++ (seg8 ++ seg9)))))))) := rfl

/-! ## Each stage, from any contents -/

set_option maxRecDepth 8192 in
set_option maxHeartbeats 4000000 in
/-- Stage 0 leaves the stacked amplitudes. -/
theorem after_seg0 (W : Valuation τ sig (Elt F)) :
    after seg0 W (Proc.devRef .tc main_v9) = val_main_v9 (F := F) (W (Proc.devRef .tc main_arg0)) (W (Proc.devRef .tc main_arg2)) := by
  after_results_simp
  rfl

set_option maxRecDepth 8192 in
set_option maxHeartbeats 4000000 in
/-- Stage 1, from contents whose `main_v9` is that array's value, leaves `main_v60` at its value. -/
theorem after_seg1 (W : Valuation τ sig (Elt F)) (x0 : (⟨S131072x7, .f32⟩ : BufTy).Contents (Elt F)) (x2 : (⟨S7, .f32⟩ : BufTy).Contents (Elt F))
    (h : W (Proc.devRef .tc main_v9) = val_main_v9 (F := F) x0 x2) :
    after seg1 W (Proc.devRef .tc main_v60) = val_main_v60 (F := F) x0 x2 := by
  after_results_simp
  rw [h]
  rfl

set_option maxRecDepth 8192 in
set_option maxHeartbeats 4000000 in
/-- Stage 2, from contents whose `main_v60` is that array's value, leaves `main_v69` at its value. -/
theorem after_seg2 (W : Valuation τ sig (Elt F)) (x0 : (⟨S131072x7, .f32⟩ : BufTy).Contents (Elt F)) (x2 : (⟨S7, .f32⟩ : BufTy).Contents (Elt F))
    (h : W (Proc.devRef .tc main_v60) = val_main_v60 (F := F) x0 x2) :
    after seg2 W (Proc.devRef .tc main_v69) = val_main_v69 (F := F) x0 x2 := by
  after_results
  rw [h]
  rfl

set_option maxRecDepth 8192 in
set_option maxHeartbeats 4000000 in
/-- Stage 3, from contents whose `main_v69` is that array's value, leaves `main_v79` at its value. -/
theorem after_seg3 (W : Valuation τ sig (Elt F)) (x0 : (⟨S131072x7, .f32⟩ : BufTy).Contents (Elt F)) (x2 : (⟨S7, .f32⟩ : BufTy).Contents (Elt F))
    (h : W (Proc.devRef .tc main_v69) = val_main_v69 (F := F) x0 x2) :
    after seg3 W (Proc.devRef .tc main_v79) = val_main_v79 (F := F) x0 x2 := by
  after_results
  rw [h]
  rfl

set_option maxRecDepth 8192 in
set_option maxHeartbeats 4000000 in
/-- Stage 4, from contents whose `main_v79` is that array's value, leaves `main_v89` at its value. -/
theorem after_seg4 (W : Valuation τ sig (Elt F)) (x0 : (⟨S131072x7, .f32⟩ : BufTy).Contents (Elt F)) (x2 : (⟨S7, .f32⟩ : BufTy).Contents (Elt F))
    (h : W (Proc.devRef .tc main_v79) = val_main_v79 (F := F) x0 x2) :
    after seg4 W (Proc.devRef .tc main_v89) = val_main_v89 (F := F) x0 x2 := by
  after_results
  rw [h]
  rfl

set_option maxRecDepth 8192 in
set_option maxHeartbeats 4000000 in
/-- Stage 5, from contents whose `main_v89` is that array's value, leaves `main_v99` at its value. -/
theorem after_seg5 (W : Valuation τ sig (Elt F)) (x0 : (⟨S131072x7, .f32⟩ : BufTy).Contents (Elt F)) (x2 : (⟨S7, .f32⟩ : BufTy).Contents (Elt F))
    (h : W (Proc.devRef .tc main_v89) = val_main_v89 (F := F) x0 x2) :
    after seg5 W (Proc.devRef .tc main_v99) = val_main_v99 (F := F) x0 x2 := by
  after_results
  rw [h]
  rfl

set_option maxRecDepth 8192 in
set_option maxHeartbeats 4000000 in
/-- Stage 6, from contents whose `main_v99` is that array's value, leaves `main_v109` at its value. -/
theorem after_seg6 (W : Valuation τ sig (Elt F)) (x0 : (⟨S131072x7, .f32⟩ : BufTy).Contents (Elt F)) (x2 : (⟨S7, .f32⟩ : BufTy).Contents (Elt F))
    (h : W (Proc.devRef .tc main_v99) = val_main_v99 (F := F) x0 x2) :
    after seg6 W (Proc.devRef .tc main_v109) = val_main_v109 (F := F) x0 x2 := by
  after_results
  rw [h]
  rfl

set_option maxRecDepth 8192 in
set_option maxHeartbeats 4000000 in
/-- Stage 7, from contents whose `main_v109` is that array's value, leaves `main_v119` at its value. -/
theorem after_seg7 (W : Valuation τ sig (Elt F)) (x0 : (⟨S131072x7, .f32⟩ : BufTy).Contents (Elt F)) (x2 : (⟨S7, .f32⟩ : BufTy).Contents (Elt F))
    (h : W (Proc.devRef .tc main_v109) = val_main_v109 (F := F) x0 x2) :
    after seg7 W (Proc.devRef .tc main_v119) = val_main_v119 (F := F) x0 x2 := by
  after_results
  rw [h]
  rfl

set_option maxRecDepth 8192 in
set_option maxHeartbeats 4000000 in
/-- Stage 8, from contents whose `main_v119` is that array's value, leaves `main_v129` at its value. -/
theorem after_seg8 (W : Valuation τ sig (Elt F)) (x0 : (⟨S131072x7, .f32⟩ : BufTy).Contents (Elt F)) (x2 : (⟨S7, .f32⟩ : BufTy).Contents (Elt F))
    (h : W (Proc.devRef .tc main_v119) = val_main_v119 (F := F) x0 x2) :
    after seg8 W (Proc.devRef .tc main_v129) = val_main_v129 (F := F) x0 x2 := by
  after_results
  rw [h]
  rfl

set_option maxRecDepth 8192 in
set_option maxHeartbeats 4000000 in
/-- The last stage, from contents whose `main_v129` is that array's value and whose arguments are `x1`, `x3` … `x8`. -/
theorem after_seg9 (W : Valuation τ sig (Elt F)) (x0 : (⟨S131072x7, .f32⟩ : BufTy).Contents (Elt F)) (x1 : (⟨S131072x64, .f32⟩ : BufTy).Contents (Elt F)) (x2 : (⟨S7, .f32⟩ : BufTy).Contents (Elt F)) (x3 : (⟨S65x32, .f32⟩ : BufTy).Contents (Elt F)) (x4 : (⟨S32, .f32⟩ : BufTy).Contents (Elt F)) (x5 : (⟨S32x16, .f32⟩ : BufTy).Contents (Elt F)) (x6 : (⟨S16, .f32⟩ : BufTy).Contents (Elt F)) (x7 : (⟨S16x1, .f32⟩ : BufTy).Contents (Elt F)) (x8 : (⟨S1, .f32⟩ : BufTy).Contents (Elt F))
    (h : W (Proc.devRef .tc main_v129) = val_main_v129 (F := F) x0 x2)
    (h1 : W (Proc.devRef .tc main_arg1) = x1) (h3 : W (Proc.devRef .tc main_arg3) = x3) (h4 : W (Proc.devRef .tc main_arg4) = x4)
    (h5 : W (Proc.devRef .tc main_arg5) = x5) (h6 : W (Proc.devRef .tc main_arg6) = x6) (h7 : W (Proc.devRef .tc main_arg7) = x7)
    (h8 : W (Proc.devRef .tc main_arg8) = x8) :
    after seg9 W (Proc.devRef .tc main_v154) = val_main_v154 (F := F) x0 x1 x2 x3 x4 x5 x6 x7 x8 := by
  after_results
  rw [h, h1, h3, h4, h5, h6, h7, h8]
  rfl

/-- The first nine stages end to end. -/
abbrev pre : List (HloOp τ sig (Elt F)) := seg0 ++ (seg1 ++ (seg2 ++ (seg3 ++ (seg4 ++ (seg5 ++ (seg6 ++ (seg7 ++ seg8)))))))

set_option maxRecDepth 8192 in
set_option maxHeartbeats 8000000 in
/-- The first nine stages write no argument array. -/
theorem pre_keeps (V : Valuation τ sig (Elt F)) (r : Ref sig .tc)
    (hr : r = main_arg1 ∨ r = main_arg3 ∨ r = main_arg4 ∨ r = main_arg5 ∨ r = main_arg6 ∨ r = main_arg7 ∨ r = main_arg8) :
    after pre V (Proc.devRef .tc r) = V (Proc.devRef .tc r) := by
  rcases hr with rfl | rfl | rfl | rfl | rfl | rfl | rfl <;>
  · simp only [pre, seg0, seg1, seg2, seg3, seg4, seg5, seg6, seg7, seg8, List.cons_append, List.nil_append]
    after_results_simp

/-- After the first nine stages the state moved by the seven flips is in place. -/
theorem pre_v129 (V : Valuation τ sig (Elt F)) :
    after pre V (Proc.devRef .tc main_v129) = val_main_v129 (F := F) (V (Proc.devRef .tc main_arg0)) (V (Proc.devRef .tc main_arg2)) := by
  simp only [pre, after_append']
  exact after_seg8 _ _ _ (after_seg7 _ _ _ (after_seg6 _ _ _ (after_seg5 _ _ _ (after_seg4 _ _ _ (after_seg3 _ _ _
    (after_seg2 _ _ _ (after_seg1 _ _ _ (after_seg0 V))))))))

set_option maxRecDepth 8192 in
/-- The line is its first nine stages and then the last. -/
theorem ops_pre : (ops : List (HloOp τ sig (Elt F))) = pre ++ seg9 := rfl

/-- The whole line leaves the result array at its value of the arguments' launch contents. -/
theorem after_ops (V : Valuation τ sig (Elt F)) :
    after ops V (Proc.devRef .tc main_v154) = val_main_v154 (F := F) (V (Proc.devRef .tc main_arg0)) (V (Proc.devRef .tc main_arg1))
      (V (Proc.devRef .tc main_arg2)) (V (Proc.devRef .tc main_arg3)) (V (Proc.devRef .tc main_arg4)) (V (Proc.devRef .tc main_arg5))
      (V (Proc.devRef .tc main_arg6)) (V (Proc.devRef .tc main_arg7)) (V (Proc.devRef .tc main_arg8)) := by
  rw [ops_pre, after_append']
  exact after_seg9 _ _ _ _ _ _ _ _ _ _ (pre_v129 V) (pre_keeps V _ (.inl rfl)) (pre_keeps V _ (.inr (.inl rfl)))
    (pre_keeps V _ (.inr (.inr (.inl rfl)))) (pre_keeps V _ (.inr (.inr (.inr (.inl rfl)))))
    (pre_keeps V _ (.inr (.inr (.inr (.inr (.inl rfl)))))) (pre_keeps V _ (.inr (.inr (.inr (.inr (.inr (.inl rfl)))))))
    (pre_keeps V _ (.inr (.inr (.inr (.inr (.inr (.inr rfl)))))))

set_option maxRecDepth 8192 in
set_option maxHeartbeats 64800000 in
/-- On every device, for any float values, from any memory with zero counters: every weakly fair execution of
    @main terminates with the result array at its value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154) = val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v154).trans (after_ops _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_after m ρ)

end Cert.ReferenceIdeal.RefRun

end
-- ==== Proof.LibDenseRow.lean ====
/-
  Affine layers on one row, over the extended reals.

  An affine layer takes a row `x` of `K` entries to the row `n ↦ (∑ k, x k · W k n) + b n`; the rectifier is `max · 0`.
  Two rows laid side by side. A last entry equal to zero contributes nothing to an affine layer, because `0 · w = 0`
  for every extended real `w`, infinite ones included: the layer is the one on the entries before it with the weight rows
  before the last. No entry is asked to be finite anywhere here.
-/
import Idealize.ShloMosaic.PureOps.Ideal

noncomputable section

open scoped BigOperators

namespace Cert.Proof.DenseRow

/-- The rectifier on the extended reals. -/
def relu (x : EReal) : EReal := max x 0

/-- An affine layer on one row: `n ↦ (∑ k, x k · W k n) + b n`. -/
def dense {K N : ℕ} (x : Fin K → EReal) (W : Fin K → Fin N → EReal) (b : Fin N → EReal) : Fin N → EReal :=
  fun n => (∑ k : Fin K, x k * W k n) + b n

/-- An affine layer followed by the rectifier. -/
def reluDense {K N : ℕ} (x : Fin K → EReal) (W : Fin K → Fin N → EReal) (b : Fin N → EReal) : Fin N → EReal :=
  fun n => relu (dense x W b n)

/-- Two rows laid side by side: the first `A` entries are `a`'s, the next `B` are `b`'s. -/
def cat2 {A B : ℕ} (a : Fin A → EReal) (b : Fin B → EReal) (C : ℕ) : Fin C → EReal :=
  fun k => if h : k.val < A then a ⟨k.val, h⟩ else if h' : k.val - A < B then b ⟨k.val - A, h'⟩ else 0

/-- A last entry equal to zero contributes nothing to an affine layer: the layer is the one on the entries
    before it, with the weight rows before the last. -/
theorem dense_castSucc {K N : ℕ} (x : Fin (K + 1) → EReal) (W : Fin (K + 1) → Fin N → EReal) (b : Fin N → EReal)
    (h : x (Fin.last K) = 0) :
    dense x W b = dense (fun k : Fin K => x k.castSucc) (fun k : Fin K => W k.castSucc) b := by
  funext n
  unfold dense
  rw [Fin.sum_univ_castSucc, h, zero_mul, add_zero]

end Cert.Proof.DenseRow

end
-- ==== Proof.Spec.lean ====
/-
  The mathematics both programs compute, on the extended reals, one row of the batch at a time.

  A row has seven wires. Wire `q` carries the half angle `(x q + p q) · ½` and the two amplitudes `cos` and `sin` of it.
  The product state of the seven wires has 128 amplitudes: amplitude `j` is the product over the wires of the wire's
  amplitude at its own bit of `j`, wire 0 owning the most significant bit. The expectation value is a signed sum of
  the squared amplitudes; one program weighs amplitude `j` by a sign table `w j`, the other first moves the amplitudes
  by a permutation of the 128 positions and then takes the first 64 squares minus the last 64. The two agree when the
  table is the sign of the half a position is moved to. The expectation value is then put in front of 64 further
  features and sent through three affine layers with two rectifiers between them.
-/
import Idealize.ShloMosaic.PureOps.Ideal
import Idealize.ShloMosaic.PureOps.Ideal.Laws
import proofs.«164904_j9509057593682_2_alg».proof.Proof.LibDenseRow

noncomputable section

open scoped BigOperators

namespace Cert.Spec

open Idealize.ShloMosaic Cert.Proof.DenseRow

/-- The f32 word of one half. -/
abbrev halfW : EReal := Ideal.ofBits .f32 0x3F000000#32

/-- A wire's half angle. -/
def ang (x p : EReal) : EReal := (x + p) * halfW

/-- A wire's two amplitudes: bit `0` the cosine of the half angle, any other bit its sine. -/
def amp (x p : EReal) (e : ℕ) : EReal := if e = 0 then Ideal.cos (ang x p) else Ideal.sin (ang x p)

/-- Amplitude `j` of the product state of seven wires with amplitudes `a q`: wire `q` reads bit `6 - q` of `j`. -/
def state (a : Fin 7 → ℕ → EReal) (j : ℕ) : EReal :=
  a 0 (j / 64 % 2) * a 1 (j / 32 % 2) * a 2 (j / 16 % 2) * a 3 (j / 8 % 2) * a 4 (j / 4 % 2) * a 5 (j / 2 % 2) * a 6 (j % 2)

/-- The expectation value as a sum of squared amplitudes weighed by a table. -/
def expTable (w : Fin 128 → EReal) (s : ℕ → EReal) : EReal := ∑ j : Fin 128, s j.val * s j.val * w j

/-- The expectation value as the first 64 squared amplitudes minus the last 64, the amplitudes moved by `π` first. -/
def expHalves (π : Fin 128 → Fin 128) (s : ℕ → EReal) : EReal :=
  (∑ k : Fin 64, s (π ⟨k.val, by omega⟩).val * s (π ⟨k.val, by omega⟩).val)
    - ∑ k : Fin 64, s (π ⟨64 + k.val, by omega⟩).val * s (π ⟨64 + k.val, by omega⟩).val

/-- Where the ring of controlled flips takes position `i` from: position `i` of the final state holds the
    amplitude that started at `cnotPerm i`. -/
def cnotPerm : Fin 128 → Fin 128 :=
  ![0, 97, 3, 98, 6, 103, 5, 100, 12, 109, 15, 110, 10, 107, 9, 104, 24, 121, 27, 122, 30, 127, 29, 124, 20, 117, 23, 118, 18, 115, 17, 112,
    48, 81, 51, 82, 54, 87, 53, 84, 60, 93, 63, 94, 58, 91, 57, 88, 40, 73, 43, 74, 46, 79, 45, 76, 36, 69, 39, 70, 34, 67, 33, 64,
    96, 1, 99, 2, 102, 7, 101, 4, 108, 13, 111, 14, 106, 11, 105, 8, 120, 25, 123, 26, 126, 31, 125, 28, 116, 21, 119, 22, 114, 19, 113, 16,
    80, 49, 83, 50, 86, 55, 85, 52, 92, 61, 95, 62, 90, 59, 89, 56, 72, 41, 75, 42, 78, 47, 77, 44, 68, 37, 71, 38, 66, 35, 65, 32]

/-- The three layers on one row: the expectation value `q` in front of the 64 features, an affine layer with a
    rectifier into 32, another into 16, an affine layer into one. -/
def mlp (q : EReal) (xc : Fin 64 → EReal) (W1 : Fin 65 → Fin 32 → EReal) (b1 : Fin 32 → EReal)
    (W2 : Fin 32 → Fin 16 → EReal) (b2 : Fin 16 → EReal) (W3 : Fin 16 → Fin 1 → EReal) (b3 : Fin 1 → EReal) : EReal :=
  dense (reluDense (reluDense (Fin.cons q xc : Fin 65 → EReal) W1 b1) W2 b2) W3 b3 0

/-- One row's result: the expectation value `E` of the row's product state, then the three layers. -/
def rowOut (E : (ℕ → EReal) → EReal) (xq qp : Fin 7 → EReal) (xc : Fin 64 → EReal) (W1 : Fin 65 → Fin 32 → EReal) (b1 : Fin 32 → EReal)
    (W2 : Fin 32 → Fin 16 → EReal) (b2 : Fin 16 → EReal) (W3 : Fin 16 → Fin 1 → EReal) (b3 : Fin 1 → EReal) : EReal :=
  mlp (E (state fun q e => amp (xq q) (qp q) e)) xc W1 b1 W2 b2 W3 b3

end Cert.Spec

end
-- ==== Proof.RefState.lean ====
/-
  The reference program's product state, one amplitude at a time.

  For a row `b` of the batch and a wire `q` of the seven, the program forms the half angle `(x0 (b, q) + x2 q) · ½`, its
  cosine and its sine, and lays the two side by side as `amp (b, q, 0)` and `amp (b, q, 1)`. The state starts as wire 0's
  two amplitudes. Six times the next wire is multiplied in: the `n` amplitudes are put in a column, wire `q`'s two in a
  row, the `n × 2` products are taken and read off row by row, so that new amplitude `2 · i + e` is old amplitude `i`
  times wire `q`'s amplitude `e`. Hence after wire `k` amplitude `j` is the product over the wires `q ≤ k` of wire `q`'s
  amplitude at bit `k - q` of `j`, taken in the order of the wires; after wire 6 that is the product state of the
  specification, wire 0 owning the most significant of the seven bits.
-/
import proofs.«164904_j9509057593682_2_alg».proof.Proof.ReadP
import proofs.«164904_j9509057593682_2_alg».proof.Proof.Spec
import Idealize.ShloMosaic.Lib.Pipeline.Value
import Idealize.ShloMosaic.Lib.ValueIdx
import Idealize.ShloMosaic.PureOps.Ideal

noncomputable section

namespace Cert.RefState

open Idealize.ShloMosaic Idealize.ShloMosaic.ValueIdx Cert.ReferenceIdeal Cert.ReferenceIdeal.Gen Cert.ReferenceIdeal.ReadP

/-- Wire `q`'s amplitude at bit `e` in row `b`, as the specification writes it. -/
abbrev wire (x0 : (⟨S131072x7, .f32⟩ : BufTy).Contents (Elt Ideal)) (x2 : (⟨S7, .f32⟩ : BufTy).Contents (Elt Ideal)) (b : Fin 131072) (q : Fin 7) (e : ℕ) : EReal :=
  Cert.Spec.amp (x0 (ix2 b q)) (x2 (ix1 q)) e

/-- The half angle of wire `q` in row `b`: the sum of the two inputs times the constant one half. -/
theorem half_apply (x0 : (⟨S131072x7, .f32⟩ : BufTy).Contents (Elt Ideal)) (x2 : (⟨S7, .f32⟩ : BufTy).Contents (Elt Ideal)) (b : Fin 131072) (q : Fin 7) :
    val_main_v4 (F := Ideal) x0 x2 (ix2 b q) = Cert.Spec.ang (x0 (ix2 b q)) (x2 (ix1 q)) := by
  have e : idx_main_v0 (idx_main_v1 (ix2 b q)) = ix1 q := by
    funext a
    match a with
    | ⟨0, _⟩ => rfl
  rw [val_main_v4_apply, val_main_v2_apply, val_main_v1_apply, val_main_v0_apply, val_main_v3_apply, val_main_cst_apply, e]
  rfl

/-- The stacked amplitudes: position 0 on the last axis is the cosine column, position 1 the sine column. -/
theorem amp_apply (x0 : (⟨S131072x7, .f32⟩ : BufTy).Contents (Elt Ideal)) (x2 : (⟨S7, .f32⟩ : BufTy).Contents (Elt Ideal)) (b : Fin 131072) (q : Fin 7) (e : Fin 2) :
    val_main_v9 (F := Ideal) x0 x2 (ix3 b q e) = Cert.Spec.amp (x0 (ix2 b q)) (x2 (ix1 q)) e.val := by
  have e7 : idx_main_v7 (ix3 b q (⟨0, Nat.one_pos⟩ : Fin 1)) = ix2 b q := by
    funext a
    match a with
    | ⟨0, _⟩ => rfl
    | ⟨1, _⟩ => rfl
  have e8 : idx_main_v8 (ix3 b q (⟨0, Nat.one_pos⟩ : Fin 1)) = ix2 b q := by
    funext a
    match a with
    | ⟨0, _⟩ => rfl
    | ⟨1, _⟩ => rfl
  match e with
  | ⟨0, _⟩ =>
    unfold val_main_v9
    refine (concatenate_pair_apply_left _ (val_main_v7 (F := Ideal) x0 x2) (val_main_v8 (F := Ideal) x0 x2)
      concatenates_S131072x7x1_S131072x7x1_S131072x7x2_d2 _ rfl (ix3 b q (⟨0, Nat.one_pos⟩ : Fin 1)) (fun bx => by
        match bx with
        | ⟨0, _⟩ => rfl
        | ⟨1, _⟩ => rfl
        | ⟨2, _⟩ => rfl)).trans ?_
    rw [val_main_v7_apply, val_main_v5_apply, e7, half_apply]
    rfl
  | ⟨1, _⟩ =>
    unfold val_main_v9
    refine (concatenate_pair_apply_right _ (val_main_v7 (F := Ideal) x0 x2) (val_main_v8 (F := Ideal) x0 x2)
      concatenates_S131072x7x1_S131072x7x1_S131072x7x2_d2 _ rfl rfl (ix3 b q (⟨0, Nat.one_pos⟩ : Fin 1)) (fun bx hb => by
        match bx with
        | ⟨0, _⟩ => rfl
        | ⟨1, _⟩ => rfl
        | ⟨2, _⟩ => exact absurd rfl hb) (by show 0 + 1 = 1; rfl)).trans ?_
    rw [val_main_v8_apply, val_main_v6_apply, e8, half_apply]
    rfl

/-- The state before any wire is multiplied in: wire 0's two amplitudes. -/
theorem state0 (x0 : (⟨S131072x7, .f32⟩ : BufTy).Contents (Elt Ideal)) (x2 : (⟨S7, .f32⟩ : BufTy).Contents (Elt Ideal)) (b : Fin 131072) (j : Fin 2) :
    val_main_v11 (F := Ideal) x0 x2 (ix2 b j) = wire x0 x2 b 0 j.val := by
  have hb : b.val < 131072 := b.isLt
  have hj : j.val < 2 := j.isLt
  have e : idx_main_v10 (idx_main_v11 (ix2 b j)) = ix3 b (0 : Fin 7) j := by
    funext a
    match a with
    | ⟨0, _⟩ => exact Fin.ext (by show (b.val * 2 + j.val) / 2 = b.val; omega)
    | ⟨1, _⟩ => exact Fin.ext (by show 0 = 0; rfl)
    | ⟨2, _⟩ => exact Fin.ext (by show (b.val * 2 + j.val) % 2 = j.val; omega)
  rw [val_main_v11_apply, val_main_v10_apply, e, amp_apply]

/-- Wire 1 multiplied in: amplitude `j` of the 4 is amplitude `j / 2` of the 2 before, times wire 1's amplitude at
    bit `j % 2`. The reshape reads row-major position `b · 4 + j` as `(b, j / 2, j % 2)`; the two broadcasts drop the last,
    resp. the middle, coordinate; the slice moves the middle coordinate to wire 1. -/
theorem stage1 (x0 : (⟨S131072x7, .f32⟩ : BufTy).Contents (Elt Ideal)) (x2 : (⟨S7, .f32⟩ : BufTy).Contents (Elt Ideal)) (b : Fin 131072) (j : Fin 4) (jh : Fin 2) (je : Fin 2)
    (hh : jh.val = j.val / 2) (he : je.val = j.val % 2) :
    val_main_v19 (F := Ideal) x0 x2 (ix2 b j)
      = (val_main_v11 (F := Ideal) x0 x2 (ix2 b jh) : EReal) * (val_main_v9 (F := Ideal) x0 x2 (ix3 b (1 : Fin 7) je) : EReal) := by
  have hb : b.val < 131072 := b.isLt
  have hj : j.val < 4 := j.isLt
  have e1 : idx_main_v12 (idx_main_v16 (idx_main_v19 (ix2 b j))) = ix2 b jh := by
    funext a
    match a with
    | ⟨0, _⟩ => exact Fin.ext (by show (b.val * 4 + j.val) / 4 = b.val; omega)
    | ⟨1, _⟩ => exact Fin.ext (by show (b.val * 4 + j.val) / 2 % 2 = jh.val; omega)
  have e2 : idx_main_v13 (idx_main_v14 (idx_main_v15 (idx_main_v17 (idx_main_v19 (ix2 b j)))))
      = ix3 b (1 : Fin 7) je := by
    funext a
    match a with
    | ⟨0, _⟩ => exact Fin.ext (by show ((b.val * 4 + j.val) / 4 * 2 + (b.val * 4 + j.val) % 2) / 2 = b.val; omega)
    | ⟨1, _⟩ => exact Fin.ext (by show 1 + 0 = 1; rfl)
    | ⟨2, _⟩ => exact Fin.ext (by show ((b.val * 4 + j.val) / 4 * 2 + (b.val * 4 + j.val) % 2) % 2 = je.val; omega)
  rw [val_main_v19_apply, val_main_v18_apply, val_main_v16_apply, val_main_v12_apply, val_main_v17_apply,
    val_main_v15_apply, val_main_v14_apply, val_main_v13_apply, e1, e2]
  rfl

/-- Wire 2 multiplied in: amplitude `j` of the 8 is amplitude `j / 2` of the 4 before, times wire 2's amplitude at
    bit `j % 2`. The reshape reads row-major position `b · 8 + j` as `(b, j / 2, j % 2)`; the two broadcasts drop the last,
    resp. the middle, coordinate; the slice moves the middle coordinate to wire 2. -/
theorem stage2 (x0 : (⟨S131072x7, .f32⟩ : BufTy).Contents (Elt Ideal)) (x2 : (⟨S7, .f32⟩ : BufTy).Contents (Elt Ideal)) (b : Fin 131072) (j : Fin 8) (jh : Fin 4) (je : Fin 2)
    (hh : jh.val = j.val / 2) (he : je.val = j.val % 2) :
    val_main_v27 (F := Ideal) x0 x2 (ix2 b j)
      = (val_main_v19 (F := Ideal) x0 x2 (ix2 b jh) : EReal) * (val_main_v9 (F := Ideal) x0 x2 (ix3 b (2 : Fin 7) je) : EReal) := by
  have hb : b.val < 131072 := b.isLt
  have hj : j.val < 8 := j.isLt
  have e1 : idx_main_v20 (idx_main_v24 (idx_main_v27 (ix2 b j))) = ix2 b jh := by
    funext a
    match a with
    | ⟨0, _⟩ => exact Fin.ext (by show (b.val * 8 + j.val) / 8 = b.val; omega)
    | ⟨1, _⟩ => exact Fin.ext (by show (b.val * 8 + j.val) / 2 % 4 = jh.val; omega)
  have e2 : idx_main_v21 (idx_main_v22 (idx_main_v23 (idx_main_v25 (idx_main_v27 (ix2 b j)))))
      = ix3 b (2 : Fin 7) je := by
    funext a
    match a with
    | ⟨0, _⟩ => exact Fin.ext (by show ((b.val * 8 + j.val) / 8 * 2 + (b.val * 8 + j.val) % 2) / 2 = b.val; omega)
    | ⟨1, _⟩ => exact Fin.ext (by show 2 + 0 = 2; rfl)
    | ⟨2, _⟩ => exact Fin.ext (by show ((b.val * 8 + j.val) / 8 * 2 + (b.val * 8 + j.val) % 2) % 2 = je.val; omega)
  rw [val_main_v27_apply, val_main_v26_apply, val_main_v24_apply, val_main_v20_apply, val_main_v25_apply,
    val_main_v23_apply, val_main_v22_apply, val_main_v21_apply, e1, e2]
  rfl

/-- Wire 3 multiplied in: amplitude `j` of the 16 is amplitude `j / 2` of the 8 before, times wire 3's amplitude at
    bit `j % 2`. The reshape reads row-major position `b · 16 + j` as `(b, j / 2, j % 2)`; the two broadcasts drop the last,
    resp. the middle, coordinate; the slice moves the middle coordinate to wire 3. -/
theorem stage3 (x0 : (⟨S131072x7, .f32⟩ : BufTy).Contents (Elt Ideal)) (x2 : (⟨S7, .f32⟩ : BufTy).Contents (Elt Ideal)) (b : Fin 131072) (j : Fin 16) (jh : Fin 8) (je : Fin 2)
    (hh : jh.val = j.val / 2) (he : je.val = j.val % 2) :
    val_main_v35 (F := Ideal) x0 x2 (ix2 b j)
      = (val_main_v27 (F := Ideal) x0 x2 (ix2 b jh) : EReal) * (val_main_v9 (F := Ideal) x0 x2 (ix3 b (3 : Fin 7) je) : EReal) := by
  have hb : b.val < 131072 := b.isLt
  have hj : j.val < 16 := j.isLt
  have e1 : idx_main_v28 (idx_main_v32 (idx_main_v35 (ix2 b j))) = ix2 b jh := by
    funext a
    match a with
    | ⟨0, _⟩ => exact Fin.ext (by show (b.val * 16 + j.val) / 16 = b.val; omega)
    | ⟨1, _⟩ => exact Fin.ext (by show (b.val * 16 + j.val) / 2 % 8 = jh.val; omega)
  have e2 : idx_main_v29 (idx_main_v30 (idx_main_v31 (idx_main_v33 (idx_main_v35 (ix2 b j)))))
      = ix3 b (3 : Fin 7) je := by
    funext a
    match a with
    | ⟨0, _⟩ => exact Fin.ext (by show ((b.val * 16 + j.val) / 16 * 2 + (b.val * 16 + j.val) % 2) / 2 = b.val; omega)
    | ⟨1, _⟩ => exact Fin.ext (by show 3 + 0 = 3; rfl)
    | ⟨2, _⟩ => exact Fin.ext (by show ((b.val * 16 + j.val) / 16 * 2 + (b.val * 16 + j.val) % 2) % 2 = je.val; omega)
  rw [val_main_v35_apply, val_main_v34_apply, val_main_v32_apply, val_main_v28_apply, val_main_v33_apply,
    val_main_v31_apply, val_main_v30_apply, val_main_v29_apply, e1, e2]
  rfl

/-- Wire 4 multiplied in: amplitude `j` of the 32 is amplitude `j / 2` of the 16 before, times wire 4's amplitude at
    bit `j % 2`. The reshape reads row-major position `b · 32 + j` as `(b, j / 2, j % 2)`; the two broadcasts drop the last,
    resp. the middle, coordinate; the slice moves the middle coordinate to wire 4. -/
theorem stage4 (x0 : (⟨S131072x7, .f32⟩ : BufTy).Contents (Elt Ideal)) (x2 : (⟨S7, .f32⟩ : BufTy).Contents (Elt Ideal)) (b : Fin 131072) (j : Fin 32) (jh : Fin 16) (je : Fin 2)
    (hh : jh.val = j.val / 2) (he : je.val = j.val % 2) :
    val_main_v43 (F := Ideal) x0 x2 (ix2 b j)
      = (val_main_v35 (F := Ideal) x0 x2 (ix2 b jh) : EReal) * (val_main_v9 (F := Ideal) x0 x2 (ix3 b (4 : Fin 7) je) : EReal) := by
  have hb : b.val < 131072 := b.isLt
  have hj : j.val < 32 := j.isLt
  have e1 : idx_main_v36 (idx_main_v40 (idx_main_v43 (ix2 b j))) = ix2 b jh := by
    funext a
    match a with
    | ⟨0, _⟩ => exact Fin.ext (by show (b.val * 32 + j.val) / 32 = b.val; omega)
    | ⟨1, _⟩ => exact Fin.ext (by show (b.val * 32 + j.val) / 2 % 16 = jh.val; omega)
  have e2 : idx_main_v37 (idx_main_v38 (idx_main_v39 (idx_main_v41 (idx_main_v43 (ix2 b j)))))
      = ix3 b (4 : Fin 7) je := by
    funext a
    match a with
    | ⟨0, _⟩ => exact Fin.ext (by show ((b.val * 32 + j.val) / 32 * 2 + (b.val * 32 + j.val) % 2) / 2 = b.val; omega)
    | ⟨1, _⟩ => exact Fin.ext (by show 4 + 0 = 4; rfl)
    | ⟨2, _⟩ => exact Fin.ext (by show ((b.val * 32 + j.val) / 32 * 2 + (b.val * 32 + j.val) % 2) % 2 = je.val; omega)
  rw [val_main_v43_apply, val_main_v42_apply, val_main_v40_apply, val_main_v36_apply, val_main_v41_apply,
    val_main_v39_apply, val_main_v38_apply, val_main_v37_apply, e1, e2]
  rfl

/-- Wire 5 multiplied in: amplitude `j` of the 64 is amplitude `j / 2` of the 32 before, times wire 5's amplitude at
    bit `j % 2`. The reshape reads row-major position `b · 64 + j` as `(b, j / 2, j % 2)`; the two broadcasts drop the last,
    resp. the middle, coordinate; the slice moves the middle coordinate to wire 5. -/
theorem stage5 (x0 : (⟨S131072x7, .f32⟩ : BufTy).Contents (Elt Ideal)) (x2 : (⟨S7, .f32⟩ : BufTy).Contents (Elt Ideal)) (b : Fin 131072) (j : Fin 64) (jh : Fin 32) (je : Fin 2)
    (hh : jh.val = j.val / 2) (he : je.val = j.val % 2) :
    val_main_v51 (F := Ideal) x0 x2 (ix2 b j)
      = (val_main_v43 (F := Ideal) x0 x2 (ix2 b jh) : EReal) * (val_main_v9 (F := Ideal) x0 x2 (ix3 b (5 : Fin 7) je) : EReal) := by
  have hb : b.val < 131072 := b.isLt
  have hj : j.val < 64 := j.isLt
  have e1 : idx_main_v44 (idx_main_v48 (idx_main_v51 (ix2 b j))) = ix2 b jh := by
    funext a
    match a with
    | ⟨0, _⟩ => exact Fin.ext (by show (b.val * 64 + j.val) / 64 = b.val; omega)
    | ⟨1, _⟩ => exact Fin.ext (by show (b.val * 64 + j.val) / 2 % 32 = jh.val; omega)
  have e2 : idx_main_v45 (idx_main_v46 (idx_main_v47 (idx_main_v49 (idx_main_v51 (ix2 b j)))))
      = ix3 b (5 : Fin 7) je := by
    funext a
    match a with
    | ⟨0, _⟩ => exact Fin.ext (by show ((b.val * 64 + j.val) / 64 * 2 + (b.val * 64 + j.val) % 2) / 2 = b.val; omega)
    | ⟨1, _⟩ => exact Fin.ext (by show 5 + 0 = 5; rfl)
    | ⟨2, _⟩ => exact Fin.ext (by show ((b.val * 64 + j.val) / 64 * 2 + (b.val * 64 + j.val) % 2) % 2 = je.val; omega)
  rw [val_main_v51_apply, val_main_v50_apply, val_main_v48_apply, val_main_v44_apply, val_main_v49_apply,
    val_main_v47_apply, val_main_v46_apply, val_main_v45_apply, e1, e2]
  rfl

/-- Wire 6 multiplied in: amplitude `j` of the 128 is amplitude `j / 2` of the 64 before, times wire 6's amplitude at
    bit `j % 2`. The reshape reads row-major position `b · 128 + j` as `(b, j / 2, j % 2)`; the two broadcasts drop the last,
    resp. the middle, coordinate; the slice moves the middle coordinate to wire 6. -/
theorem stage6 (x0 : (⟨S131072x7, .f32⟩ : BufTy).Contents (Elt Ideal)) (x2 : (⟨S7, .f32⟩ : BufTy).Contents (Elt Ideal)) (b : Fin 131072) (j : Fin 128) (jh : Fin 64) (je : Fin 2)
    (hh : jh.val = j.val / 2) (he : je.val = j.val % 2) :
    val_main_v59 (F := Ideal) x0 x2 (ix2 b j)
      = (val_main_v51 (F := Ideal) x0 x2 (ix2 b jh) : EReal) * (val_main_v9 (F := Ideal) x0 x2 (ix3 b (6 : Fin 7) je) : EReal) := by
  have hb : b.val < 131072 := b.isLt
  have hj : j.val < 128 := j.isLt
  have e1 : idx_main_v52 (idx_main_v56 (idx_main_v59 (ix2 b j))) = ix2 b jh := by
    funext a
    match a with
    | ⟨0, _⟩ => exact Fin.ext (by show (b.val * 128 + j.val) / 128 = b.val; omega)
    | ⟨1, _⟩ => exact Fin.ext (by show (b.val * 128 + j.val) / 2 % 64 = jh.val; omega)
  have e2 : idx_main_v53 (idx_main_v54 (idx_main_v55 (idx_main_v57 (idx_main_v59 (ix2 b j)))))
      = ix3 b (6 : Fin 7) je := by
    funext a
    match a with
    | ⟨0, _⟩ => exact Fin.ext (by show ((b.val * 128 + j.val) / 128 * 2 + (b.val * 128 + j.val) % 2) / 2 = b.val; omega)
    | ⟨1, _⟩ => exact Fin.ext (by show 6 + 0 = 6; rfl)
    | ⟨2, _⟩ => exact Fin.ext (by show ((b.val * 128 + j.val) / 128 * 2 + (b.val * 128 + j.val) % 2) % 2 = je.val; omega)
  rw [val_main_v59_apply, val_main_v58_apply, val_main_v56_apply, val_main_v52_apply, val_main_v57_apply,
    val_main_v55_apply, val_main_v54_apply, val_main_v53_apply, e1, e2]
  rfl

/-! After wire `k`, amplitude `j` is the product of the wires' amplitudes in their order, wire `q` at bit `k - q` of `j`. -/

theorem state1 (x0 : (⟨S131072x7, .f32⟩ : BufTy).Contents (Elt Ideal)) (x2 : (⟨S7, .f32⟩ : BufTy).Contents (Elt Ideal)) (b : Fin 131072) (j : Fin 4) :
    val_main_v19 (F := Ideal) x0 x2 (ix2 b j) = wire x0 x2 b 0 (j.val / 2) * wire x0 x2 b 1 (j.val % 2) := by
  rw [stage1 x0 x2 b j ⟨j.val / 2, by omega⟩ ⟨j.val % 2, by omega⟩ rfl rfl, state0, amp_apply]

theorem state2 (x0 : (⟨S131072x7, .f32⟩ : BufTy).Contents (Elt Ideal)) (x2 : (⟨S7, .f32⟩ : BufTy).Contents (Elt Ideal)) (b : Fin 131072) (j : Fin 8) :
    val_main_v27 (F := Ideal) x0 x2 (ix2 b j) = wire x0 x2 b 0 (j.val / 2 / 2) * wire x0 x2 b 1 (j.val / 2 % 2) * wire x0 x2 b 2 (j.val % 2) := by
  rw [stage2 x0 x2 b j ⟨j.val / 2, by omega⟩ ⟨j.val % 2, by omega⟩ rfl rfl, state1, amp_apply]

theorem state3 (x0 : (⟨S131072x7, .f32⟩ : BufTy).Contents (Elt Ideal)) (x2 : (⟨S7, .f32⟩ : BufTy).Contents (Elt Ideal)) (b : Fin 131072) (j : Fin 16) :
    val_main_v35 (F := Ideal) x0 x2 (ix2 b j) = wire x0 x2 b 0 (j.val / 2 / 2 / 2) * wire x0 x2 b 1 (j.val / 2 / 2 % 2) * wire x0 x2 b 2 (j.val / 2 % 2) * wire x0 x2 b 3 (j.val % 2) := by
  rw [stage3 x0 x2 b j ⟨j.val / 2, by omega⟩ ⟨j.val % 2, by omega⟩ rfl rfl, state2, amp_apply]

theorem state4 (x0 : (⟨S131072x7, .f32⟩ : BufTy).Contents (Elt Ideal)) (x2 : (⟨S7, .f32⟩ : BufTy).Contents (Elt Ideal)) (b : Fin 131072) (j : Fin 32) :
    val_main_v43 (F := Ideal) x0 x2 (ix2 b j) = wire x0 x2 b 0 (j.val / 2 / 2 / 2 / 2) * wire x0 x2 b 1 (j.val / 2 / 2 / 2 % 2) * wire x0 x2 b 2 (j.val / 2 / 2 % 2) * wire x0 x2 b 3 (j.val / 2 % 2) * wire x0 x2 b 4 (j.val % 2) := by
  rw [stage4 x0 x2 b j ⟨j.val / 2, by omega⟩ ⟨j.val % 2, by omega⟩ rfl rfl, state3, amp_apply]

theorem state5 (x0 : (⟨S131072x7, .f32⟩ : BufTy).Contents (Elt Ideal)) (x2 : (⟨S7, .f32⟩ : BufTy).Contents (Elt Ideal)) (b : Fin 131072) (j : Fin 64) :
    val_main_v51 (F := Ideal) x0 x2 (ix2 b j) = wire x0 x2 b 0 (j.val / 2 / 2 / 2 / 2 / 2) * wire x0 x2 b 1 (j.val / 2 / 2 / 2 / 2 % 2) * wire x0 x2 b 2 (j.val / 2 / 2 / 2 % 2) * wire x0 x2 b 3 (j.val / 2 / 2 % 2) * wire x0 x2 b 4 (j.val / 2 % 2) * wire x0 x2 b 5 (j.val % 2) := by
  rw [stage5 x0 x2 b j ⟨j.val / 2, by omega⟩ ⟨j.val % 2, by omega⟩ rfl rfl, state4, amp_apply]

theorem state6 (x0 : (⟨S131072x7, .f32⟩ : BufTy).Contents (Elt Ideal)) (x2 : (⟨S7, .f32⟩ : BufTy).Contents (Elt Ideal)) (b : Fin 131072) (j : Fin 128) :
    val_main_v59 (F := Ideal) x0 x2 (ix2 b j) = wire x0 x2 b 0 (j.val / 2 / 2 / 2 / 2 / 2 / 2) * wire x0 x2 b 1 (j.val / 2 / 2 / 2 / 2 / 2 % 2) * wire x0 x2 b 2 (j.val / 2 / 2 / 2 / 2 % 2) * wire x0 x2 b 3 (j.val / 2 / 2 / 2 % 2) * wire x0 x2 b 4 (j.val / 2 / 2 % 2) * wire x0 x2 b 5 (j.val / 2 % 2) * wire x0 x2 b 6 (j.val % 2) := by
  rw [stage6 x0 x2 b j ⟨j.val / 2, by omega⟩ ⟨j.val % 2, by omega⟩ rfl rfl, state5, amp_apply]

/-- The reference's state after the seventh wire is the specification's product state of the row's seven wires. -/
theorem v59_apply (x0 : (⟨S131072x7, .f32⟩ : BufTy).Contents (Elt Ideal)) (x2 : (⟨S7, .f32⟩ : BufTy).Contents (Elt Ideal)) (b : Fin 131072) (j : Fin 128) :
    Cert.ReferenceIdeal.ReadP.val_main_v59 (F := Ideal) x0 x2 (ValueIdx.ix2 b j)
      = Cert.Spec.state (fun q e => Cert.Spec.amp (x0 (ValueIdx.ix2 b q)) (x2 (ValueIdx.ix1 q)) e) j.val := by
  have hj : j.val < 128 := j.isLt
  rw [state6]
  unfold Cert.Spec.state
  rw [show j.val / 2 / 2 / 2 / 2 / 2 / 2 = j.val / 64 % 2 by omega,
    show j.val / 2 / 2 / 2 / 2 / 2 % 2 = j.val / 32 % 2 by omega,
    show j.val / 2 / 2 / 2 / 2 % 2 = j.val / 16 % 2 by omega,
    show j.val / 2 / 2 / 2 % 2 = j.val / 8 % 2 by omega,
    show j.val / 2 / 2 % 2 = j.val / 4 % 2 by omega]

end Cert.RefState

end
-- ==== Proof.RefCnotFlip.lean ====
/-
  One controlled flip of a seven-wire state, read at an index.

  The state of seven two-level wires is an array with one batch axis and seven axes of size two, wire `q` on axis `q + 1`.
  A controlled flip with its control wire on axis 1 and its target wire on axis 2 is computed in five layout steps: the
  array is cut along axis 1 into the half where the control is 0 and the half where it is 1; the second half is reversed
  along axis 2; each half loses its unit axis and gets it back; and the two halves are joined again along axis 1.
  Read at an index, the result is the operand at the same index, with the target coordinate reversed exactly when the
  control coordinate is 1. The proof follows one index through the five steps, in each of the two halves.

  The module also has what the reading needs at ranks 7 and 8: an index built from its coordinates, equality of indices
  coordinate by coordinate, and the row-major position of an index as one sum of products.
-/
import proofs.«164904_j9509057593682_2_alg».proof.Proof.Gen.ReferenceIdeal
import Idealize.ShloMosaic.Lib.Pipeline.Value
import Idealize.ShloMosaic.Lib.ValueIdx

noncomputable section

namespace Cert.RefCnot

open Cert.ReferenceIdeal Cert.ReferenceIdeal.Gen Idealize.ShloMosaic

variable {α : Type}

/-- A rank-7 index from its coordinates. -/
abbrev ix7 {n0 n1 n2 n3 n4 n5 n6 : Nat} (a0 : Fin n0) (a1 : Fin n1) (a2 : Fin n2) (a3 : Fin n3) (a4 : Fin n4) (a5 : Fin n5)
    (a6 : Fin n6) : (⟨7, ![n0, n1, n2, n3, n4, n5, n6]⟩ : Shape).Idx :=
  fun d => match d with
    | ⟨0, _⟩ => a0 | ⟨1, _⟩ => a1 | ⟨2, _⟩ => a2 | ⟨3, _⟩ => a3 | ⟨4, _⟩ => a4 | ⟨5, _⟩ => a5 | ⟨6, _⟩ => a6

/-- A rank-8 index from its coordinates. -/
abbrev ix8 {n0 n1 n2 n3 n4 n5 n6 n7 : Nat} (a0 : Fin n0) (a1 : Fin n1) (a2 : Fin n2) (a3 : Fin n3) (a4 : Fin n4) (a5 : Fin n5)
    (a6 : Fin n6) (a7 : Fin n7) : (⟨8, ![n0, n1, n2, n3, n4, n5, n6, n7]⟩ : Shape).Idx :=
  fun d => match d with
    | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- Two rank-8 indices with the same coordinates are equal. -/
theorem idx8_ext {d : Fin 8 → Nat} (i j : (⟨8, d⟩ : Shape).Idx) (h0 : i 0 = j 0) (h1 : i 1 = j 1) (h2 : i 2 = j 2) (h3 : i 3 = j 3)
    (h4 : i 4 = j 4) (h5 : i 5 = j 5) (h6 : i 6 = j 6) (h7 : i 7 = j 7) : i = j := by
  funext a
  match a with
  | ⟨0, _⟩ => exact h0 | ⟨1, _⟩ => exact h1 | ⟨2, _⟩ => exact h2 | ⟨3, _⟩ => exact h3
  | ⟨4, _⟩ => exact h4 | ⟨5, _⟩ => exact h5 | ⟨6, _⟩ => exact h6 | ⟨7, _⟩ => exact h7

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- One controlled flip of the wire on axis 2 by the wire on axis 1: the half with axis 1 at 0 is kept, the half with
    axis 1 at 1 is reversed along axis 2, and the two halves are joined again along axis 1. -/
def flip (X : S131072x2x2x2x2x2x2x2.Idx → α) : S131072x2x2x2x2x2x2x2.Idx → α :=
  concatenate S131072x2x2x2x2x2x2x2 1
    [⟨S131072x1x2x2x2x2x2x2, broadcastInDim S131072x1x2x2x2x2x2x2 ![0, 2, 3, 4, 5, 6, 7] bcast_S131072x2x2x2x2x2x2_S131072x1x2x2x2x2x2x2_0_2_3_4_5_6_7
        (shapeCast _ (extractStridedSlice S131072x1x2x2x2x2x2x2 ![0, 0, 0, 0, 0, 0, 0, 0] X slices_S131072x2x2x2x2x2x2x2_S131072x1x2x2x2x2x2x2_0_0_0_0_0_0_0_0)
          shapeCasts_S131072x1x2x2x2x2x2x2_S131072x2x2x2x2x2x2)⟩,
     ⟨S131072x1x2x2x2x2x2x2, broadcastInDim S131072x1x2x2x2x2x2x2 ![0, 2, 3, 4, 5, 6, 7] bcast_S131072x2x2x2x2x2x2_S131072x1x2x2x2x2x2x2_0_2_3_4_5_6_7
        (shapeCast _ (Host.reverse [2] (extractStridedSlice S131072x1x2x2x2x2x2x2 ![0, 1, 0, 0, 0, 0, 0, 0] X slices_S131072x2x2x2x2x2x2x2_S131072x1x2x2x2x2x2x2_0_1_0_0_0_0_0_0))
          shapeCasts_S131072x1x2x2x2x2x2x2_S131072x2x2x2x2x2x2)⟩]
    concatenates_S131072x1x2x2x2x2x2x2_S131072x1x2x2x2x2x2x2_S131072x2x2x2x2x2x2x2_d1

/-- A reversal along axis 2 read at an index. -/
theorem reverse2_apply (Y : S131072x1x2x2x2x2x2x2.Idx → α) (b : Fin 131072) (u : Fin 1) (t r3 r4 r5 r6 r7 : Fin 2) :
    Host.reverse [2] Y (ix8 b u t r3 r4 r5 r6 r7) = Y (ix8 b u t.rev r3 r4 r5 r6 r7) := by
  unfold Host.reverse
  refine congrArg Y (idx8_ext _ _ ?_ ?_ ?_ ?_ ?_ ?_ ?_ ?_) <;> rfl

/-- The flip read where the control coordinate is 0: the operand at the same index. -/
theorem flip_apply_zero (X : S131072x2x2x2x2x2x2x2.Idx → α) (b : Fin 131072) (t r3 r4 r5 r6 r7 : Fin 2) :
    flip X (ix8 b (0 : Fin 2) t r3 r4 r5 r6 r7) = X (ix8 b (0 : Fin 2) t r3 r4 r5 r6 r7) := by
  unfold flip
  refine (concatenate_pair_apply_left _ _ _ concatenates_S131072x1x2x2x2x2x2x2_S131072x1x2x2x2x2x2x2_S131072x2x2x2x2x2x2x2_d1
    (ix8 b (0 : Fin 2) t r3 r4 r5 r6 r7) rfl (ix8 b (0 : Fin 1) t r3 r4 r5 r6 r7) (fun a => match a with
    | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl)).trans ?_
  refine (broadcastInDim_apply _ bcast_S131072x2x2x2x2x2x2_S131072x1x2x2x2x2x2x2_0_2_3_4_5_6_7 _
    (ix8 b (0 : Fin 1) t r3 r4 r5 r6 r7) (ix7 b t r3 r4 r5 r6 r7) (fun a => match a with
    | ⟨0, _⟩ => by show b.val = if (131072 : Nat) = 1 then 0 else b.val; rw [if_neg (by decide)]
    | ⟨1, _⟩ => by show t.val = if (2 : Nat) = 1 then 0 else t.val; rw [if_neg (by decide)]
    | ⟨2, _⟩ => by show r3.val = if (2 : Nat) = 1 then 0 else r3.val; rw [if_neg (by decide)]
    | ⟨3, _⟩ => by show r4.val = if (2 : Nat) = 1 then 0 else r4.val; rw [if_neg (by decide)]
    | ⟨4, _⟩ => by show r5.val = if (2 : Nat) = 1 then 0 else r5.val; rw [if_neg (by decide)]
    | ⟨5, _⟩ => by show r6.val = if (2 : Nat) = 1 then 0 else r6.val; rw [if_neg (by decide)]
    | ⟨6, _⟩ => by show r7.val = if (2 : Nat) = 1 then 0 else r7.val; rw [if_neg (by decide)])).trans ?_
  refine (shapeCast_apply _ shapeCasts_S131072x1x2x2x2x2x2x2_S131072x2x2x2x2x2x2 (ix7 b t r3 r4 r5 r6 r7)
    (ix8 b (0 : Fin 1) t r3 r4 r5 r6 r7) ?_).trans ?_
  · rw [rowMajor_val_eight, rowMajor_val_seven]
    show (((((((b.val * 1 + 0) * 2 + t.val) * 2 + r3.val) * 2 + r4.val) * 2 + r5.val) * 2 + r6.val) * 2 + r7.val)
      = (((((b.val * 2 + t.val) * 2 + r3.val) * 2 + r4.val) * 2 + r5.val) * 2 + r6.val) * 2 + r7.val
    omega
  exact extractStridedSlice_apply _ X slices_S131072x2x2x2x2x2x2x2_S131072x1x2x2x2x2x2x2_0_0_0_0_0_0_0_0
    (ix8 b (0 : Fin 1) t r3 r4 r5 r6 r7) (ix8 b (0 : Fin 2) t r3 r4 r5 r6 r7) (fun a => match a with
    | ⟨0, _⟩ => by show b.val = 0 + b.val; omega
    | ⟨1, _⟩ => by show (0 : Nat) = 0 + 0; omega
    | ⟨2, _⟩ => by show t.val = 0 + t.val; omega
    | ⟨3, _⟩ => by show r3.val = 0 + r3.val; omega
    | ⟨4, _⟩ => by show r4.val = 0 + r4.val; omega
    | ⟨5, _⟩ => by show r5.val = 0 + r5.val; omega
    | ⟨6, _⟩ => by show r6.val = 0 + r6.val; omega
    | ⟨7, _⟩ => by show r7.val = 0 + r7.val; omega)

/-- The flip read where the control coordinate is 1: the operand at the index with the target coordinate reversed. -/
theorem flip_apply_one (X : S131072x2x2x2x2x2x2x2.Idx → α) (b : Fin 131072) (t r3 r4 r5 r6 r7 : Fin 2) :
    flip X (ix8 b (1 : Fin 2) t r3 r4 r5 r6 r7) = X (ix8 b (1 : Fin 2) t.rev r3 r4 r5 r6 r7) := by
  unfold flip
  refine (concatenate_pair_apply_right _ _ _ concatenates_S131072x1x2x2x2x2x2x2_S131072x1x2x2x2x2x2x2_S131072x2x2x2x2x2x2x2_d1
    (ix8 b (1 : Fin 2) t r3 r4 r5 r6 r7) rfl rfl (ix8 b (0 : Fin 1) t r3 r4 r5 r6 r7) (fun a => match a with
    | ⟨0, _⟩ => fun _ => rfl | ⟨1, _⟩ => fun h => absurd rfl h | ⟨2, _⟩ => fun _ => rfl | ⟨3, _⟩ => fun _ => rfl
    | ⟨4, _⟩ => fun _ => rfl | ⟨5, _⟩ => fun _ => rfl | ⟨6, _⟩ => fun _ => rfl | ⟨7, _⟩ => fun _ => rfl) rfl).trans ?_
  refine (broadcastInDim_apply _ bcast_S131072x2x2x2x2x2x2_S131072x1x2x2x2x2x2x2_0_2_3_4_5_6_7 _
    (ix8 b (0 : Fin 1) t r3 r4 r5 r6 r7) (ix7 b t r3 r4 r5 r6 r7) (fun a => match a with
    | ⟨0, _⟩ => by show b.val = if (131072 : Nat) = 1 then 0 else b.val; rw [if_neg (by decide)]
    | ⟨1, _⟩ => by show t.val = if (2 : Nat) = 1 then 0 else t.val; rw [if_neg (by decide)]
    | ⟨2, _⟩ => by show r3.val = if (2 : Nat) = 1 then 0 else r3.val; rw [if_neg (by decide)]
    | ⟨3, _⟩ => by show r4.val = if (2 : Nat) = 1 then 0 else r4.val; rw [if_neg (by decide)]
    | ⟨4, _⟩ => by show r5.val = if (2 : Nat) = 1 then 0 else r5.val; rw [if_neg (by decide)]
    | ⟨5, _⟩ => by show r6.val = if (2 : Nat) = 1 then 0 else r6.val; rw [if_neg (by decide)]
    | ⟨6, _⟩ => by show r7.val = if (2 : Nat) = 1 then 0 else r7.val; rw [if_neg (by decide)])).trans ?_
  refine (shapeCast_apply _ shapeCasts_S131072x1x2x2x2x2x2x2_S131072x2x2x2x2x2x2 (ix7 b t r3 r4 r5 r6 r7)
    (ix8 b (0 : Fin 1) t r3 r4 r5 r6 r7) ?_).trans ?_
  · rw [rowMajor_val_eight, rowMajor_val_seven]
    show (((((((b.val * 1 + 0) * 2 + t.val) * 2 + r3.val) * 2 + r4.val) * 2 + r5.val) * 2 + r6.val) * 2 + r7.val)
      = (((((b.val * 2 + t.val) * 2 + r3.val) * 2 + r4.val) * 2 + r5.val) * 2 + r6.val) * 2 + r7.val
    omega
  refine (reverse2_apply _ b (0 : Fin 1) t r3 r4 r5 r6 r7).trans ?_
  exact extractStridedSlice_apply _ X slices_S131072x2x2x2x2x2x2x2_S131072x1x2x2x2x2x2x2_0_1_0_0_0_0_0_0
    (ix8 b (0 : Fin 1) t.rev r3 r4 r5 r6 r7) (ix8 b (1 : Fin 2) t.rev r3 r4 r5 r6 r7) (fun a => match a with
    | ⟨0, _⟩ => by show b.val = 0 + b.val; omega
    | ⟨1, _⟩ => by show (1 : Nat) = 1 + 0; omega
    | ⟨2, _⟩ => by show t.rev.val = 0 + t.rev.val; omega
    | ⟨3, _⟩ => by show r3.val = 0 + r3.val; omega
    | ⟨4, _⟩ => by show r4.val = 0 + r4.val; omega
    | ⟨5, _⟩ => by show r5.val = 0 + r5.val; omega
    | ⟨6, _⟩ => by show r6.val = 0 + r6.val; omega
    | ⟨7, _⟩ => by show r7.val = 0 + r7.val; omega)

/-- The flip read at an index: the operand at the index whose target coordinate (axis 2) is reversed exactly when
    the control coordinate (axis 1) is 1. -/
theorem flip_apply (X : S131072x2x2x2x2x2x2x2.Idx → α) (b : Fin 131072) (c t r3 r4 r5 r6 r7 : Fin 2) :
    flip X (ix8 b c t r3 r4 r5 r6 r7) = X (ix8 b c (if c = 1 then t.rev else t) r3 r4 r5 r6 r7) := by
  match c with
  | ⟨0, _⟩ => exact flip_apply_zero X b t r3 r4 r5 r6 r7
  | ⟨1, _⟩ => exact flip_apply_one X b t r3 r4 r5 r6 r7

end Cert.RefCnot

end
-- ==== Proof.RefCnot.lean ====
/-
  The ring of seven controlled flips of the reference program, read at an index.

  The reference program holds the 128 amplitudes of a row's product state as an array with one batch axis and seven axes
  of size two, wire `q` on axis `q + 1`, so that amplitude `j` sits at the seven bits of `j`, the most significant first.
  It then applies seven controlled flips, wire `q` controlling wire `q + 1` and the last wire controlling the first. Each
  flip is computed with its control on axis 1 and its target on axis 2, and transpositions between the flips bring the
  next pair of wires to those two axes. At the end the seven axes are merged into a half (the first wire) and a position
  within the half.

  Every one of these steps only moves amplitudes: the result at an index is the operand at one index. Read backwards
  from the result, a transposition permutes the coordinates and a flip reverses the target coordinate when the control
  coordinate is 1. Composing the nineteen steps gives the seven bits of the position an amplitude came from as
  functions of the seven bits of the position it ends at; the batch coordinate is never touched. That map of the 128
  positions is compared with the table `cnotPerm` position by position, a finite check that does not involve the batch
  coordinate.
-/
import proofs.«164904_j9509057593682_2_alg».proof.Proof.ReadP
import proofs.«164904_j9509057593682_2_alg».proof.Proof.Spec
import proofs.«164904_j9509057593682_2_alg».proof.Proof.RefCnotFlip

noncomputable section

namespace Cert.RefCnot

open Cert.ReferenceIdeal Cert.ReferenceIdeal.Gen Cert.ReferenceIdeal.ReadP Idealize.ShloMosaic Idealize.ShloMosaic.ValueIdx

variable {F : FTy → Type} [FloatOps F]

/-- The position with the given seven bits, the first the most significant. -/
def pos7 (j1 j2 j3 j4 j5 j6 j7 : Fin 2) : Fin 128 :=
  ⟨64 * j1.val + 32 * j2.val + 16 * j3.val + 8 * j4.val + 4 * j5.val + 2 * j6.val + j7.val, by omega⟩

/-- The bit of weight `d` of a position below 64. -/
def bitOf (k : Fin 64) (d : Nat) : Fin 2 := ⟨k.val / d % 2, Nat.mod_lt _ (by decide)⟩

/-! ## The two reshapes at the ends -/

/-- The array of seven wire axes read at an index is the row of 128 amplitudes at the position with those bits. -/
theorem v60_apply (x0 : (⟨S131072x7, .f32⟩ : BufTy).Contents (Elt F)) (x2 : (⟨S7, .f32⟩ : BufTy).Contents (Elt F)) (b : Fin 131072) (j1 j2 j3 j4 j5 j6 j7 : Fin 2) :
    val_main_v60 (F := F) x0 x2 (ix8 b j1 j2 j3 j4 j5 j6 j7) = val_main_v59 (F := F) x0 x2 (ix2 b (pos7 j1 j2 j3 j4 j5 j6 j7)) := by
  unfold val_main_v60
  refine shapeCast_apply _ shapeCasts_S131072x128_S131072x2x2x2x2x2x2x2 (ix8 b j1 j2 j3 j4 j5 j6 j7)
    (ix2 b (pos7 j1 j2 j3 j4 j5 j6 j7)) ?_
  rw [Shape.rowMajor_val_two, rowMajor_val_eight]
  show b.val * 128 + (64 * j1.val + 32 * j2.val + 16 * j3.val + 8 * j4.val + 4 * j5.val + 2 * j6.val + j7.val)
    = ((((((b.val * 2 + j1.val) * 2 + j2.val) * 2 + j3.val) * 2 + j4.val) * 2 + j5.val) * 2 + j6.val) * 2 + j7.val
  omega

/-- The merged array read at a half and a position within it is the array of seven wire axes at the half and the six
    bits of the position. -/
theorem v129_reshape (x0 : (⟨S131072x7, .f32⟩ : BufTy).Contents (Elt F)) (x2 : (⟨S7, .f32⟩ : BufTy).Contents (Elt F)) (b : Fin 131072) (h : Fin 2) (k : Fin 64) :
    val_main_v129 (F := F) x0 x2 (ix3 b h k)
      = val_main_v128 (F := F) x0 x2 (ix8 b h (bitOf k 32) (bitOf k 16) (bitOf k 8) (bitOf k 4) (bitOf k 2) (bitOf k 1)) := by
  unfold val_main_v129
  refine shapeCast_apply _ shapeCasts_S131072x2x2x2x2x2x2x2_S131072x2x64 (ix3 b h k)
    (ix8 b h (bitOf k 32) (bitOf k 16) (bitOf k 8) (bitOf k 4) (bitOf k 2) (bitOf k 1)) ?_
  rw [rowMajor_val_eight, Shape.rowMajor_val_three]
  show ((((((b.val * 2 + h.val) * 2 + k.val / 32 % 2) * 2 + k.val / 16 % 2) * 2 + k.val / 8 % 2) * 2 + k.val / 4 % 2) * 2
      + k.val / 2 % 2) * 2 + k.val / 1 % 2 = (b.val * 2 + h.val) * 64 + k.val
  have hk : k.val < 64 := k.isLt
  omega

/-! ## The nineteen steps, one at a time -/

/-- These five layout steps are one controlled flip. -/
theorem f68_eq (x0 : (⟨S131072x7, .f32⟩ : BufTy).Contents (Elt F)) (x2 : (⟨S7, .f32⟩ : BufTy).Contents (Elt F)) : val_main_v68 (F := F) x0 x2 = flip (val_main_v60 (F := F) x0 x2) := rfl

/-- The controlled flip read at an index. -/
theorem f68 (x0 : (⟨S131072x7, .f32⟩ : BufTy).Contents (Elt F)) (x2 : (⟨S7, .f32⟩ : BufTy).Contents (Elt F)) (b : Fin 131072) (c t r3 r4 r5 r6 r7 : Fin 2) :
    val_main_v68 (F := F) x0 x2 (ix8 b c t r3 r4 r5 r6 r7)
      = val_main_v60 (F := F) x0 x2 (ix8 b c (if c = 1 then t.rev else t) r3 r4 r5 r6 r7) := by
  rw [f68_eq]; exact flip_apply _ b c t r3 r4 r5 r6 r7

/-- The transposition with axes [0,2,3,1,4,5,6,7] read at an index. -/
theorem t69 (x0 : (⟨S131072x7, .f32⟩ : BufTy).Contents (Elt F)) (x2 : (⟨S7, .f32⟩ : BufTy).Contents (Elt F)) (b : Fin 131072) (i1 i2 i3 i4 i5 i6 i7 : Fin 2) :
    val_main_v69 (F := F) x0 x2 (ix8 b i1 i2 i3 i4 i5 i6 i7) = val_main_v68 (F := F) x0 x2 (ix8 b i3 i1 i2 i4 i5 i6 i7) :=
  (val_main_v69_apply x0 x2 _).trans (congrArg _ (idx8_ext _ _ rfl rfl rfl rfl rfl rfl rfl rfl))

/-- These five layout steps are one controlled flip. -/
theorem f77_eq (x0 : (⟨S131072x7, .f32⟩ : BufTy).Contents (Elt F)) (x2 : (⟨S7, .f32⟩ : BufTy).Contents (Elt F)) : val_main_v77 (F := F) x0 x2 = flip (val_main_v69 (F := F) x0 x2) := rfl

/-- The controlled flip read at an index. -/
theorem f77 (x0 : (⟨S131072x7, .f32⟩ : BufTy).Contents (Elt F)) (x2 : (⟨S7, .f32⟩ : BufTy).Contents (Elt F)) (b : Fin 131072) (c t r3 r4 r5 r6 r7 : Fin 2) :
    val_main_v77 (F := F) x0 x2 (ix8 b c t r3 r4 r5 r6 r7)
      = val_main_v69 (F := F) x0 x2 (ix8 b c (if c = 1 then t.rev else t) r3 r4 r5 r6 r7) := by
  rw [f77_eq]; exact flip_apply _ b c t r3 r4 r5 r6 r7

/-- The transposition with axes [0,3,1,2,4,5,6,7] read at an index. -/
theorem t78 (x0 : (⟨S131072x7, .f32⟩ : BufTy).Contents (Elt F)) (x2 : (⟨S7, .f32⟩ : BufTy).Contents (Elt F)) (b : Fin 131072) (i1 i2 i3 i4 i5 i6 i7 : Fin 2) :
    val_main_v78 (F := F) x0 x2 (ix8 b i1 i2 i3 i4 i5 i6 i7) = val_main_v77 (F := F) x0 x2 (ix8 b i2 i3 i1 i4 i5 i6 i7) :=
  (val_main_v78_apply x0 x2 _).trans (congrArg _ (idx8_ext _ _ rfl rfl rfl rfl rfl rfl rfl rfl))

/-- The transposition with axes [0,3,4,1,2,5,6,7] read at an index. -/
theorem t79 (x0 : (⟨S131072x7, .f32⟩ : BufTy).Contents (Elt F)) (x2 : (⟨S7, .f32⟩ : BufTy).Contents (Elt F)) (b : Fin 131072) (i1 i2 i3 i4 i5 i6 i7 : Fin 2) :
    val_main_v79 (F := F) x0 x2 (ix8 b i1 i2 i3 i4 i5 i6 i7) = val_main_v78 (F := F) x0 x2 (ix8 b i3 i4 i1 i2 i5 i6 i7) :=
  (val_main_v79_apply x0 x2 _).trans (congrArg _ (idx8_ext _ _ rfl rfl rfl rfl rfl rfl rfl rfl))

/-- These five layout steps are one controlled flip. -/
theorem f87_eq (x0 : (⟨S131072x7, .f32⟩ : BufTy).Contents (Elt F)) (x2 : (⟨S7, .f32⟩ : BufTy).Contents (Elt F)) : val_main_v87 (F := F) x0 x2 = flip (val_main_v79 (F := F) x0 x2) := rfl

/-- The controlled flip read at an index. -/
theorem f87 (x0 : (⟨S131072x7, .f32⟩ : BufTy).Contents (Elt F)) (x2 : (⟨S7, .f32⟩ : BufTy).Contents (Elt F)) (b : Fin 131072) (c t r3 r4 r5 r6 r7 : Fin 2) :
    val_main_v87 (F := F) x0 x2 (ix8 b c t r3 r4 r5 r6 r7)
      = val_main_v79 (F := F) x0 x2 (ix8 b c (if c = 1 then t.rev else t) r3 r4 r5 r6 r7) := by
  rw [f87_eq]; exact flip_apply _ b c t r3 r4 r5 r6 r7

/-- The transposition with axes [0,3,4,1,2,5,6,7] read at an index. -/
theorem t88 (x0 : (⟨S131072x7, .f32⟩ : BufTy).Contents (Elt F)) (x2 : (⟨S7, .f32⟩ : BufTy).Contents (Elt F)) (b : Fin 131072) (i1 i2 i3 i4 i5 i6 i7 : Fin 2) :
    val_main_v88 (F := F) x0 x2 (ix8 b i1 i2 i3 i4 i5 i6 i7) = val_main_v87 (F := F) x0 x2 (ix8 b i3 i4 i1 i2 i5 i6 i7) :=
  (val_main_v88_apply x0 x2 _).trans (congrArg _ (idx8_ext _ _ rfl rfl rfl rfl rfl rfl rfl rfl))

/-- The transposition with axes [0,4,5,1,2,3,6,7] read at an index. -/
theorem t89 (x0 : (⟨S131072x7, .f32⟩ : BufTy).Contents (Elt F)) (x2 : (⟨S7, .f32⟩ : BufTy).Contents (Elt F)) (b : Fin 131072) (i1 i2 i3 i4 i5 i6 i7 : Fin 2) :
    val_main_v89 (F := F) x0 x2 (ix8 b i1 i2 i3 i4 i5 i6 i7) = val_main_v88 (F := F) x0 x2 (ix8 b i3 i4 i5 i1 i2 i6 i7) :=
  (val_main_v89_apply x0 x2 _).trans (congrArg _ (idx8_ext _ _ rfl rfl rfl rfl rfl rfl rfl rfl))

/-- These five layout steps are one controlled flip. -/
theorem f97_eq (x0 : (⟨S131072x7, .f32⟩ : BufTy).Contents (Elt F)) (x2 : (⟨S7, .f32⟩ : BufTy).Contents (Elt F)) : val_main_v97 (F := F) x0 x2 = flip (val_main_v89 (F := F) x0 x2) := rfl

/-- The controlled flip read at an index. -/
theorem f97 (x0 : (⟨S131072x7, .f32⟩ : BufTy).Contents (Elt F)) (x2 : (⟨S7, .f32⟩ : BufTy).Contents (Elt F)) (b : Fin 131072) (c t r3 r4 r5 r6 r7 : Fin 2) :
    val_main_v97 (F := F) x0 x2 (ix8 b c t r3 r4 r5 r6 r7)
      = val_main_v89 (F := F) x0 x2 (ix8 b c (if c = 1 then t.rev else t) r3 r4 r5 r6 r7) := by
  rw [f97_eq]; exact flip_apply _ b c t r3 r4 r5 r6 r7

/-- The transposition with axes [0,3,4,5,1,2,6,7] read at an index. -/
theorem t98 (x0 : (⟨S131072x7, .f32⟩ : BufTy).Contents (Elt F)) (x2 : (⟨S7, .f32⟩ : BufTy).Contents (Elt F)) (b : Fin 131072) (i1 i2 i3 i4 i5 i6 i7 : Fin 2) :
    val_main_v98 (F := F) x0 x2 (ix8 b i1 i2 i3 i4 i5 i6 i7) = val_main_v97 (F := F) x0 x2 (ix8 b i4 i5 i1 i2 i3 i6 i7) :=
  (val_main_v98_apply x0 x2 _).trans (congrArg _ (idx8_ext _ _ rfl rfl rfl rfl rfl rfl rfl rfl))

/-- The transposition with axes [0,5,6,1,2,3,4,7] read at an index. -/
theorem t99 (x0 : (⟨S131072x7, .f32⟩ : BufTy).Contents (Elt F)) (x2 : (⟨S7, .f32⟩ : BufTy).Contents (Elt F)) (b : Fin 131072) (i1 i2 i3 i4 i5 i6 i7 : Fin 2) :
    val_main_v99 (F := F) x0 x2 (ix8 b i1 i2 i3 i4 i5 i6 i7) = val_main_v98 (F := F) x0 x2 (ix8 b i3 i4 i5 i6 i1 i2 i7) :=
  (val_main_v99_apply x0 x2 _).trans (congrArg _ (idx8_ext _ _ rfl rfl rfl rfl rfl rfl rfl rfl))

/-- These five layout steps are one controlled flip. -/
theorem f107_eq (x0 : (⟨S131072x7, .f32⟩ : BufTy).Contents (Elt F)) (x2 : (⟨S7, .f32⟩ : BufTy).Contents (Elt F)) : val_main_v107 (F := F) x0 x2 = flip (val_main_v99 (F := F) x0 x2) := rfl

/-- The controlled flip read at an index. -/
theorem f107 (x0 : (⟨S131072x7, .f32⟩ : BufTy).Contents (Elt F)) (x2 : (⟨S7, .f32⟩ : BufTy).Contents (Elt F)) (b : Fin 131072) (c t r3 r4 r5 r6 r7 : Fin 2) :
    val_main_v107 (F := F) x0 x2 (ix8 b c t r3 r4 r5 r6 r7)
      = val_main_v99 (F := F) x0 x2 (ix8 b c (if c = 1 then t.rev else t) r3 r4 r5 r6 r7) := by
  rw [f107_eq]; exact flip_apply _ b c t r3 r4 r5 r6 r7

/-- The transposition with axes [0,3,4,5,6,1,2,7] read at an index. -/
theorem t108 (x0 : (⟨S131072x7, .f32⟩ : BufTy).Contents (Elt F)) (x2 : (⟨S7, .f32⟩ : BufTy).Contents (Elt F)) (b : Fin 131072) (i1 i2 i3 i4 i5 i6 i7 : Fin 2) :
    val_main_v108 (F := F) x0 x2 (ix8 b i1 i2 i3 i4 i5 i6 i7) = val_main_v107 (F := F) x0 x2 (ix8 b i5 i6 i1 i2 i3 i4 i7) :=
  (val_main_v108_apply x0 x2 _).trans (congrArg _ (idx8_ext _ _ rfl rfl rfl rfl rfl rfl rfl rfl))

/-- The transposition with axes [0,6,7,1,2,3,4,5] read at an index. -/
theorem t109 (x0 : (⟨S131072x7, .f32⟩ : BufTy).Contents (Elt F)) (x2 : (⟨S7, .f32⟩ : BufTy).Contents (Elt F)) (b : Fin 131072) (i1 i2 i3 i4 i5 i6 i7 : Fin 2) :
    val_main_v109 (F := F) x0 x2 (ix8 b i1 i2 i3 i4 i5 i6 i7) = val_main_v108 (F := F) x0 x2 (ix8 b i3 i4 i5 i6 i7 i1 i2) :=
  (val_main_v109_apply x0 x2 _).trans (congrArg _ (idx8_ext _ _ rfl rfl rfl rfl rfl rfl rfl rfl))

/-- These five layout steps are one controlled flip. -/
theorem f117_eq (x0 : (⟨S131072x7, .f32⟩ : BufTy).Contents (Elt F)) (x2 : (⟨S7, .f32⟩ : BufTy).Contents (Elt F)) : val_main_v117 (F := F) x0 x2 = flip (val_main_v109 (F := F) x0 x2) := rfl

/-- The controlled flip read at an index. -/
theorem f117 (x0 : (⟨S131072x7, .f32⟩ : BufTy).Contents (Elt F)) (x2 : (⟨S7, .f32⟩ : BufTy).Contents (Elt F)) (b : Fin 131072) (c t r3 r4 r5 r6 r7 : Fin 2) :
    val_main_v117 (F := F) x0 x2 (ix8 b c t r3 r4 r5 r6 r7)
      = val_main_v109 (F := F) x0 x2 (ix8 b c (if c = 1 then t.rev else t) r3 r4 r5 r6 r7) := by
  rw [f117_eq]; exact flip_apply _ b c t r3 r4 r5 r6 r7

/-- The transposition with axes [0,3,4,5,6,7,1,2] read at an index. -/
theorem t118 (x0 : (⟨S131072x7, .f32⟩ : BufTy).Contents (Elt F)) (x2 : (⟨S7, .f32⟩ : BufTy).Contents (Elt F)) (b : Fin 131072) (i1 i2 i3 i4 i5 i6 i7 : Fin 2) :
    val_main_v118 (F := F) x0 x2 (ix8 b i1 i2 i3 i4 i5 i6 i7) = val_main_v117 (F := F) x0 x2 (ix8 b i6 i7 i1 i2 i3 i4 i5) :=
  (val_main_v118_apply x0 x2 _).trans (congrArg _ (idx8_ext _ _ rfl rfl rfl rfl rfl rfl rfl rfl))

/-- The transposition with axes [0,7,1,2,3,4,5,6] read at an index. -/
theorem t119 (x0 : (⟨S131072x7, .f32⟩ : BufTy).Contents (Elt F)) (x2 : (⟨S7, .f32⟩ : BufTy).Contents (Elt F)) (b : Fin 131072) (i1 i2 i3 i4 i5 i6 i7 : Fin 2) :
    val_main_v119 (F := F) x0 x2 (ix8 b i1 i2 i3 i4 i5 i6 i7) = val_main_v118 (F := F) x0 x2 (ix8 b i2 i3 i4 i5 i6 i7 i1) :=
  (val_main_v119_apply x0 x2 _).trans (congrArg _ (idx8_ext _ _ rfl rfl rfl rfl rfl rfl rfl rfl))

/-- These five layout steps are one controlled flip. -/
theorem f127_eq (x0 : (⟨S131072x7, .f32⟩ : BufTy).Contents (Elt F)) (x2 : (⟨S7, .f32⟩ : BufTy).Contents (Elt F)) : val_main_v127 (F := F) x0 x2 = flip (val_main_v119 (F := F) x0 x2) := rfl

/-- The controlled flip read at an index. -/
theorem f127 (x0 : (⟨S131072x7, .f32⟩ : BufTy).Contents (Elt F)) (x2 : (⟨S7, .f32⟩ : BufTy).Contents (Elt F)) (b : Fin 131072) (c t r3 r4 r5 r6 r7 : Fin 2) :
    val_main_v127 (F := F) x0 x2 (ix8 b c t r3 r4 r5 r6 r7)
      = val_main_v119 (F := F) x0 x2 (ix8 b c (if c = 1 then t.rev else t) r3 r4 r5 r6 r7) := by
  rw [f127_eq]; exact flip_apply _ b c t r3 r4 r5 r6 r7

/-- The transposition with axes [0,2,3,4,5,6,7,1] read at an index. -/
theorem t128 (x0 : (⟨S131072x7, .f32⟩ : BufTy).Contents (Elt F)) (x2 : (⟨S7, .f32⟩ : BufTy).Contents (Elt F)) (b : Fin 131072) (i1 i2 i3 i4 i5 i6 i7 : Fin 2) :
    val_main_v128 (F := F) x0 x2 (ix8 b i1 i2 i3 i4 i5 i6 i7) = val_main_v127 (F := F) x0 x2 (ix8 b i7 i1 i2 i3 i4 i5 i6) :=
  (val_main_v128_apply x0 x2 _).trans (congrArg _ (idx8_ext _ _ rfl rfl rfl rfl rfl rfl rfl rfl))

/-! ## The steps composed -/

/-- The state after the ring of flips read at an index is the state before it at the index whose seven bits are these
    functions of the index's bits. -/
theorem v128_apply (x0 : (⟨S131072x7, .f32⟩ : BufTy).Contents (Elt F)) (x2 : (⟨S7, .f32⟩ : BufTy).Contents (Elt F)) (b : Fin 131072) (i1 i2 i3 i4 i5 i6 i7 : Fin 2) :
    val_main_v128 (F := F) x0 x2 (ix8 b i1 i2 i3 i4 i5 i6 i7)
      = val_main_v60 (F := F) x0 x2 (ix8 b
          (if i7 = 1 then i1.rev else i1)
          (if (if i7 = 1 then i1.rev else i1) = 1 then i2.rev else i2)
          (if i2 = 1 then i3.rev else i3)
          (if i3 = 1 then i4.rev else i4)
          (if i4 = 1 then i5.rev else i5)
          (if i5 = 1 then i6.rev else i6)
          (if i6 = 1 then i7.rev else i7)) := by
  rw [t128, f127, t119, t118, f117, t109, t108, f107, t99, t98, f97, t89, t88, f87, t79, t78, f77, t69, f68]

/-- The composed map of the 128 positions is the table. -/
theorem perm_table : ∀ (h : Fin 2) (k : Fin 64),
    pos7 (if (bitOf k 1) = 1 then h.rev else h)
        (if (if (bitOf k 1) = 1 then h.rev else h) = 1 then ((bitOf k 32)).rev else (bitOf k 32))
        (if (bitOf k 32) = 1 then ((bitOf k 16)).rev else (bitOf k 16))
        (if (bitOf k 16) = 1 then ((bitOf k 8)).rev else (bitOf k 8))
        (if (bitOf k 8) = 1 then ((bitOf k 4)).rev else (bitOf k 4))
        (if (bitOf k 4) = 1 then ((bitOf k 2)).rev else (bitOf k 2))
        (if (bitOf k 2) = 1 then ((bitOf k 1)).rev else (bitOf k 1))
      = Cert.Spec.cnotPerm ⟨64 * h.val + k.val, by omega⟩ := by
  decide

/-- The result of the ring of flips, read at a half and a position within it, is the product state's amplitude at the
    position the table names. -/
theorem v129_apply (x0 : (⟨S131072x7, .f32⟩ : BufTy).Contents (Elt F)) (x2 : (⟨S7, .f32⟩ : BufTy).Contents (Elt F)) (b : Fin 131072) (h : Fin 2) (k : Fin 64) :
    Cert.ReferenceIdeal.ReadP.val_main_v129 (F := F) x0 x2 (ValueIdx.ix3 b h k)
      = Cert.ReferenceIdeal.ReadP.val_main_v59 (F := F) x0 x2 (ValueIdx.ix2 b (Cert.Spec.cnotPerm ⟨64 * h.val + k.val, by omega⟩)) := by
  rw [v129_reshape, v128_apply, v60_apply]
  exact congrArg (fun j => val_main_v59 (F := F) x0 x2 (ix2 b j)) (perm_table h k)

end Cert.RefCnot

end
-- ==== Proof.RefTail.lean ====
/-
  The reference's last stretch: from the moved product state to the result.

  The state after the seven controlled flips, reshaped to two halves of 64, is squared; each half is summed and the
  second sum taken from the first: the expectation value of the row. It is put in front of the row's 64 features, and
  the 65 entries go through an affine layer with a rectifier into 32, another into 16, and an affine layer into one;
  the column of results is reshaped to a vector. Row `b` of the result is the three layers of row `b`'s expectation
  value and features.
-/
import proofs.«164904_j9509057593682_2_alg».proof.Proof.ReadP
import proofs.«164904_j9509057593682_2_alg».proof.Proof.Spec
import Idealize.ShloMosaic.Lib.ValueLayout

noncomputable section

open scoped BigOperators

namespace Cert.RefTail

open Cert.ReferenceIdeal Cert.ReferenceIdeal.Gen Cert.ReferenceIdeal.ReadP Idealize.ShloMosaic Idealize.ShloMosaic.ValueIdx Cert.Spec Cert.Proof.DenseRow

/-- The moved state at `(b, h, k)` is the product state at the position the flips take `64 h + k` from. -/
def MovedState : Prop := ∀ (x0 : (⟨S131072x7, .f32⟩ : BufTy).Contents (Elt Ideal)) (x2 : (⟨S7, .f32⟩ : BufTy).Contents (Elt Ideal)) (b : Fin 131072) (h : Fin 2) (k : Fin 64),
  val_main_v129 (F := Ideal) x0 x2 (ix3 b h k) = val_main_v59 (F := Ideal) x0 x2 (ix2 b (cnotPerm ⟨64 * h.val + k.val, by omega⟩))

/-- The product state at `(b, j)` is amplitude `j` of row `b`'s seven wires. -/
def ProductState : Prop := ∀ (x0 : (⟨S131072x7, .f32⟩ : BufTy).Contents (Elt Ideal)) (x2 : (⟨S7, .f32⟩ : BufTy).Contents (Elt Ideal)) (b : Fin 131072) (j : Fin 128),
  val_main_v59 (F := Ideal) x0 x2 (ix2 b j) = state (fun q e => amp (x0 (ix2 b q)) (x2 (ix1 q)) e) j.val

/-- An affine layer with its rectifier at an entry. -/
theorem reluDense_apply {K N : ℕ} (x : Fin K → EReal) (W : Fin K → Fin N → EReal) (b : Fin N → EReal) (n : Fin N) :
    reluDense x W b n = max ((∑ k : Fin K, x k * W k n) + b n) 0 := rfl

/-- An affine layer at an entry. -/
theorem dense_apply {K N : ℕ} (x : Fin K → EReal) (W : Fin K → Fin N → EReal) (b : Fin N → EReal) (n : Fin N) :
    dense x W b n = (∑ k : Fin K, x k * W k n) + b n := rfl

variable (hA : MovedState) (hB : ProductState)

include hA hB in
/-- One entry of a squared half. -/
theorem v130_apply (x0 : (⟨S131072x7, .f32⟩ : BufTy).Contents (Elt Ideal)) (x2 : (⟨S7, .f32⟩ : BufTy).Contents (Elt Ideal)) (b : Fin 131072) (h : Fin 2) (k : Fin 64) :
    val_main_v130 (F := Ideal) x0 x2 (ix3 b h k)
      = state (fun q e => amp (x0 (ix2 b q)) (x2 (ix1 q)) e) (cnotPerm ⟨64 * h.val + k.val, by omega⟩).val
        * state (fun q e => amp (x0 (ix2 b q)) (x2 (ix1 q)) e) (cnotPerm ⟨64 * h.val + k.val, by omega⟩).val := by
  rw [val_main_v130_apply, hA, hB]
  rfl

include hA hB in
/-- The expectation value of row `b`: the first half's sum of squares minus the second half's. -/
theorem v137_apply (x0 : (⟨S131072x7, .f32⟩ : BufTy).Contents (Elt Ideal)) (x2 : (⟨S7, .f32⟩ : BufTy).Contents (Elt Ideal)) (b : Fin 131072) :
    val_main_v137 (F := Ideal) x0 x2 (ix1 b) = expHalves cnotPerm (state fun q e => amp (x0 (ix2 b q)) (x2 (ix1 q)) e) := by
  rw [val_main_v137_apply, val_main_v133_apply, val_main_v136_apply, val_main_cst_0_apply, val_main_cst_1_apply]
  simp only [Ideal.subf_def, Ideal.ofBits_def, Ideal.ofBits_zero_f32, zero_add]
  unfold expHalves
  refine congrArg₂ (· - ·) (Finset.sum_congr rfl fun k _ => ?_) (Finset.sum_congr rfl fun k _ => ?_)
  · rw [val_main_v132_apply, val_main_v131_apply]
    have e : idx_main_v131 (idx_main_v132 (idx_main_v133 (ix1 b) k)) = ix3 b (0 : Fin 2) k := by
      funext a
      refine Fin.ext ?_
      match a with
      | ⟨0, _⟩ => show (b.val * 64 + k.val) / 64 = b.val; omega
      | ⟨1, _⟩ => rfl
      | ⟨2, _⟩ => show (b.val * 64 + k.val) % 64 = k.val; omega
    rw [e, v130_apply hA hB]
    simp only [Fin.val_zero, Nat.mul_zero, Nat.zero_add]
  · rw [val_main_v135_apply, val_main_v134_apply]
    have e : idx_main_v134 (idx_main_v135 (idx_main_v136 (ix1 b) k)) = ix3 b (1 : Fin 2) k := by
      funext a
      refine Fin.ext ?_
      match a with
      | ⟨0, _⟩ => show (b.val * 64 + k.val) / 64 = b.val; omega
      | ⟨1, _⟩ => rfl
      | ⟨2, _⟩ => show (b.val * 64 + k.val) % 64 = k.val; omega
    rw [e, v130_apply hA hB]
    simp only [Fin.val_one, Nat.mul_one]

include hA hB in
/-- The 65 entries of row `b`: the expectation value, then the features. -/
theorem v139_apply (x0 : (⟨S131072x7, .f32⟩ : BufTy).Contents (Elt Ideal)) (x1 : (⟨S131072x64, .f32⟩ : BufTy).Contents (Elt Ideal)) (x2 : (⟨S7, .f32⟩ : BufTy).Contents (Elt Ideal)) (b : Fin 131072) (k : Fin 65) :
    val_main_v139 (F := Ideal) x0 x1 x2 (ix2 b k)
      = (Fin.cons (expHalves cnotPerm (state fun q e => amp (x0 (ix2 b q)) (x2 (ix1 q)) e)) (fun k => x1 (ix2 b k)) : Fin 65 → EReal) k := by
  unfold val_main_v139
  refine Fin.cases ?_ (fun k' => ?_) k
  · rw [Fin.cons_zero]
    refine (concatenate_pair_apply_left (t := S131072x65) (s₁ := S131072x1) (s₂ := S131072x64) (1 : Fin 2)
      (val_main_v138 (F := Ideal) x0 x2) x1 concatenates_S131072x1_S131072x64_S131072x65_d1 (ix2 b (0 : Fin 65)) rfl (ix2 b (0 : Fin 1))
      (fun a => by match a with | ⟨0, _⟩ => rfl | ⟨1, _⟩ => rfl)).trans ?_
    rw [val_main_v138_apply]
    exact (congrArg (val_main_v137 (F := Ideal) x0 x2) (funext fun a => Fin.ext (by match a with | ⟨0, _⟩ => rfl))).trans (v137_apply hA hB x0 x2 b)
  · rw [Fin.cons_succ]
    exact concatenate_pair_apply_right (t := S131072x65) (s₁ := S131072x1) (s₂ := S131072x64) (1 : Fin 2)
      (val_main_v138 (F := Ideal) x0 x2) x1 concatenates_S131072x1_S131072x64_S131072x65_d1 (ix2 b k'.succ) rfl rfl (ix2 b k')
      (fun a ha => by match a with | ⟨0, _⟩ => rfl | ⟨1, _⟩ => exact absurd rfl ha)
      (by show k'.val + 1 = k'.val + 1; rfl)

include hA hB in
/-- Row `b` of the result is the three layers of its expectation value and features. -/
theorem v154_apply (x0 : (⟨S131072x7, .f32⟩ : BufTy).Contents (Elt Ideal)) (x1 : (⟨S131072x64, .f32⟩ : BufTy).Contents (Elt Ideal)) (x2 : (⟨S7, .f32⟩ : BufTy).Contents (Elt Ideal)) (x3 : (⟨S65x32, .f32⟩ : BufTy).Contents (Elt Ideal)) (x4 : (⟨S32, .f32⟩ : BufTy).Contents (Elt Ideal)) (x5 : (⟨S32x16, .f32⟩ : BufTy).Contents (Elt Ideal)) (x6 : (⟨S16, .f32⟩ : BufTy).Contents (Elt Ideal)) (x7 : (⟨S16x1, .f32⟩ : BufTy).Contents (Elt Ideal)) (x8 : (⟨S1, .f32⟩ : BufTy).Contents (Elt Ideal)) (b : Fin 131072) :
    val_main_v154 (F := Ideal) x0 x1 x2 x3 x4 x5 x6 x7 x8 (ix1 b)
      = rowOut (expHalves cnotPerm) (fun q => x0 (ix2 b q)) (fun q => x2 (ix1 q)) (fun k => x1 (ix2 b k)) (fun k n => x3 (ix2 k n))
          (fun n => x4 (ix1 n)) (fun n p => x5 (ix2 n p)) (fun p => x6 (ix1 p)) (fun p z => x7 (ix2 p z)) (fun z => x8 (ix1 z)) := by
  have h143 : ∀ n : Fin 32, val_main_v144 (F := Ideal) x0 x1 x2 x3 x4 (ix2 b n)
      = reluDense (Fin.cons (expHalves cnotPerm (state fun q e => amp (x0 (ix2 b q)) (x2 (ix1 q)) e)) (fun k => x1 (ix2 b k)) : Fin 65 → EReal)
          (fun k n => x3 (ix2 k n)) (fun n => x4 (ix1 n)) n := fun n => by
    rw [val_main_v144_apply, val_main_v143_apply, val_main_v140_apply, val_main_v142_apply, val_main_v141_apply,
      val_main_call0_v0_apply, val_main_call0_cst_apply]
    simp only [Ideal.maximumf_def, Ideal.addf_def, Ideal.ofBits_def, Ideal.ofBits_zero_f32]
    refine Eq.trans ?_ (reluDense_apply _ _ _ _).symm
    refine congrArg (max · 0) (congrArg₂ (· + ·) (Finset.sum_congr rfl fun k _ => ?_) ?_)
    · have e1 : lidx_main_v140 (ix2 b n) k = ix2 b k := funext fun a => Fin.ext (by match a with | ⟨0, _⟩ => rfl | ⟨1, _⟩ => rfl)
      have e2 : ridx_main_v140 (ix2 b n) k = ix2 k n := funext fun a => Fin.ext (by match a with | ⟨0, _⟩ => rfl | ⟨1, _⟩ => rfl)
      rw [e1, e2, v139_apply hA hB]
    · exact congrArg x4 (funext fun a => Fin.ext (by match a with | ⟨0, _⟩ => rfl))
  have h149 : ∀ p : Fin 16, val_main_v149 (F := Ideal) x0 x1 x2 x3 x4 x5 x6 (ix2 b p)
      = reluDense (reluDense (Fin.cons (expHalves cnotPerm (state fun q e => amp (x0 (ix2 b q)) (x2 (ix1 q)) e)) (fun k => x1 (ix2 b k)) : Fin 65 → EReal)
          (fun k n => x3 (ix2 k n)) (fun n => x4 (ix1 n))) (fun n p => x5 (ix2 n p)) (fun p => x6 (ix1 p)) p := fun p => by
    rw [val_main_v149_apply, val_main_v148_apply, val_main_v145_apply, val_main_v147_apply, val_main_v146_apply,
      val_main_call1_v0_apply, val_main_call1_cst_apply]
    simp only [Ideal.maximumf_def, Ideal.addf_def, Ideal.ofBits_def, Ideal.ofBits_zero_f32]
    refine Eq.trans ?_ (reluDense_apply _ _ _ _).symm
    refine congrArg (max · 0) (congrArg₂ (· + ·) (Finset.sum_congr rfl fun k _ => ?_) ?_)
    · have e1 : lidx_main_v145 (ix2 b p) k = ix2 b k := funext fun a => Fin.ext (by match a with | ⟨0, _⟩ => rfl | ⟨1, _⟩ => rfl)
      have e2 : ridx_main_v145 (ix2 b p) k = ix2 k p := funext fun a => Fin.ext (by match a with | ⟨0, _⟩ => rfl | ⟨1, _⟩ => rfl)
      rw [e1, e2, h143]
    · exact congrArg x6 (funext fun a => Fin.ext (by match a with | ⟨0, _⟩ => rfl))
  rw [val_main_v154_apply]
  have e0 : idx_main_v154 (ix1 b) = ix2 b (0 : Fin 1) := funext fun a => Fin.ext (by
    match a with
    | ⟨0, _⟩ => show b.val / 1 = b.val; omega
    | ⟨1, _⟩ => rfl)
  rw [e0, val_main_v153_apply, val_main_v150_apply, val_main_v152_apply, val_main_v151_apply]
  simp only [Ideal.addf_def]
  unfold rowOut mlp
  refine Eq.trans ?_ (dense_apply _ _ _ _).symm
  refine congrArg₂ (· + ·) (Finset.sum_congr rfl fun k _ => ?_) ?_
  · have e1 : lidx_main_v150 (ix2 b (0 : Fin 1)) k = ix2 b k := funext fun a => Fin.ext (by match a with | ⟨0, _⟩ => rfl | ⟨1, _⟩ => rfl)
    have e2 : ridx_main_v150 (ix2 b (0 : Fin 1)) k = ix2 k (0 : Fin 1) := funext fun a => Fin.ext (by match a with | ⟨0, _⟩ => rfl | ⟨1, _⟩ => rfl)
    rw [e1, e2, h149]
  · exact congrArg x8 (funext fun a => Fin.ext (by match a with | ⟨0, _⟩ => rfl))

end Cert.RefTail

end
-- ==== Proof.LibMeanAggregate.lean ====
/-
  Extended-real algebra for mean aggregation.

  On the extended reals ℝ ∪ {-∞, +∞} the ring laws (distributivity, associativity of sums of
  products, commuting a scaling past a sum) fail at the infinities. They all hold on the image of
  ℝ. This file records that image as a predicate, its closure under the operations a mean
  aggregation uses (sum, product, maximum, quotient by a nonzero real), and the two identities
  that let a row scaling  x ↦ x / d  move across a matrix product when every entry is real.
-/
import Idealize.ShloMosaic.PureOps.Ideal
import Mathlib.Tactic.FieldSimp
import Mathlib.Tactic.Ring

noncomputable section

namespace Cert.Lib.MeanAggregate

open Idealize.ShloMosaic
open scoped BigOperators

/-- An extended real is *real* when it is the image of a real number: neither +∞ nor -∞. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion ℝ → EReal commutes with a finite sum over any finite set of indices. -/
theorem finset_sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion ℝ → EReal commutes with a sum over a finite type. -/
theorem sum_coe {ι : Type} [Fintype ι] (f : ι → ℝ) :
    ∑ i, ((f i : ℝ) : EReal) = ((∑ i, f i : ℝ) : EReal) :=
  finset_sum_coe Finset.univ f

/-- A sum of reals over a finite set of indices is real. -/
theorem IsReal.finset_sum {ι : Type} (s : Finset ι) {f : ι → EReal} (h : ∀ i, IsReal (f i)) :
    IsReal (∑ i ∈ s, f i) := by
  choose g hg using h
  have hf : f = fun i => ((g i : ℝ) : EReal) := funext hg
  rw [hf, finset_sum_coe]
  exact ⟨_, rfl⟩

/-- A sum of reals over a finite type is real. -/
theorem IsReal.sum {ι : Type} [Fintype ι] {f : ι → EReal} (h : ∀ i, IsReal (f i)) :
    IsReal (∑ i, f i) :=
  IsReal.finset_sum Finset.univ h

/-- The maximum of two images of reals is the image of the maximum. -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum (in the order of the extended reals) of two reals is real. -/
theorem IsReal.max {x y : EReal} (hx : IsReal x) (hy : IsReal y) : IsReal (max x y) := by
  obtain ⟨a, rfl⟩ := hx
  obtain ⟨b, rfl⟩ := hy
  exact ⟨_, max_coe a b⟩

/-- The exact float maximum of two reals is real: at the extended reals it is the order's max. -/
theorem IsReal.maximumf {φ : FTy} {x y : Ideal φ} (hx : IsReal x) (hy : IsReal y) :
    IsReal (FloatOps.maximumf x y) :=
  IsReal.max hx hy

/-- The quotient of a real by a nonzero real is real: it is the product with the reciprocal. -/
theorem IsReal.div {x d : EReal} (hx : IsReal x) (hd : IsReal d) (h0 : d ≠ 0) :
    IsReal (Ideal.div x d) := by
  obtain ⟨a, rfl⟩ := hx
  obtain ⟨b, rfl⟩ := hd
  have hb : b ≠ 0 := by
    rintro rfl
    exact h0 rfl
  rw [Ideal.div_coe hb, ← EReal.coe_mul]
  exact ⟨_, rfl⟩

/-- The maximum of anything with a positive real is positive. -/
theorem max_coe_pos (s : EReal) {e : ℝ} (he : 0 < e) : 0 < max s (e : EReal) :=
  lt_max_of_lt_right (EReal.coe_pos.mpr he)

/-- A degree clamped from below: for a real s and a positive real e, max s e is real and nonzero
    (it is at least e, which is positive). -/
theorem deg_ne_zero {s : EReal} (hs : IsReal s) {e : ℝ} (he : 0 < e) :
    IsReal (max s (e : EReal)) ∧ max s (e : EReal) ≠ 0 :=
  ⟨hs.max (isReal_coe e), ne_of_gt (max_coe_pos s he)⟩

/-- The same with the arguments of the maximum exchanged: max e s is real and nonzero. -/
theorem deg_ne_zero' {s : EReal} (hs : IsReal s) {e : ℝ} (he : 0 < e) :
    IsReal (max (e : EReal) s) ∧ max (e : EReal) s ≠ 0 := by
  rw [max_comm]
  exact deg_ne_zero hs he

/-- The clamped degree through the exact float maximum: it is the order's max, so for a real s and
    a positive real e, maximumf s e is real and nonzero. -/
theorem deg_ne_zero_maximumf {φ : FTy} {s : Ideal φ} (hs : IsReal s) {e : ℝ} (he : 0 < e) :
    IsReal (FloatOps.maximumf s ((e : EReal) : Ideal φ)) ∧
      FloatOps.maximumf s ((e : EReal) : Ideal φ) ≠ 0 :=
  deg_ne_zero hs he

/-- The same with the arguments of the float maximum exchanged. -/
theorem deg_ne_zero_maximumf' {φ : FTy} {s : Ideal φ} (hs : IsReal s) {e : ℝ} (he : 0 < e) :
    IsReal (FloatOps.maximumf ((e : EReal) : Ideal φ) s) ∧
      FloatOps.maximumf ((e : EReal) : Ideal φ) s ≠ 0 :=
  deg_ne_zero' hs he

/-- Multiplying by the reciprocal of a nonzero real is dividing by it: x * (1 / d) = x / d. -/
theorem mul_one_div_eq_div {x d : EReal} (_hx : IsReal x) (hd : IsReal d) (h0 : d ≠ 0) :
    x * Ideal.div 1 d = Ideal.div x d := by
  obtain ⟨b, rfl⟩ := hd
  have hb : b ≠ 0 := by
    rintro rfl
    exact h0 rfl
  rw [Ideal.div_coe hb, Ideal.div_coe hb, one_mul]

/-- A row scaling commutes with a right multiplication, one output entry at a time. For a row a of
    weights, a matrix h, a matrix W and a scalar d, all real, with d ≠ 0:
      ∑ₖ ((∑ⱼ aⱼ hⱼₖ) / d) Wₖ = (∑ⱼ aⱼ ∑ₖ hⱼₖ Wₖ) · (1 / d),
    that is ((a·h)/d)·W = (a·(h·W))·(1/d). Both sides are the image of the same real number:
    associativity and distributivity in ℝ. -/
theorem assoc_scale {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, Ideal.div (∑ j, a j * h j k) d * W k c
      = (∑ j, a j * ∑ k, h j k * W k c) * Ideal.div 1 d := by
  choose a' ha' using ha
  choose h' hh' using hh
  choose W' hW' using hW
  obtain ⟨b, rfl⟩ := hd
  have hb : b ≠ 0 := by
    rintro rfl
    exact h0 rfl
  obtain rfl : a = fun j => ((a' j : ℝ) : EReal) := funext ha'
  obtain rfl : h = fun j k => ((h' j k : ℝ) : EReal) := funext fun j => funext (hh' j)
  obtain rfl : W = fun k c => ((W' k c : ℝ) : EReal) := funext fun k => funext (hW' k)
  simp only [Ideal.div_coe hb, one_mul, ← EReal.coe_mul, sum_coe]
  refine congrArg _ ?_
  simp only [Finset.sum_mul, Finset.mul_sum]
  rw [Finset.sum_comm]
  refine Finset.sum_congr rfl fun j _ => Finset.sum_congr rfl fun k _ => ?_
  ring

/-- The scaling written as a product with the reciprocal, before the right multiplication:
      ∑ₖ ((∑ⱼ aⱼ hⱼₖ) · (1 / d)) Wₖ = ∑ₖ ((∑ⱼ aⱼ hⱼₖ) / d) Wₖ
    for real a, h, d with d ≠ 0 (W is arbitrary). -/
theorem scale_mul_eq_div {ι κ γ : Type} [Fintype ι] [Fintype κ] [Fintype γ]
    {a : ι → EReal} {h : ι → κ → EReal} (W : κ → γ → EReal) {d : EReal}
    (ha : ∀ j, IsReal (a j)) (hh : ∀ j k, IsReal (h j k))
    (hd : IsReal d) (h0 : d ≠ 0) (c : γ) :
    ∑ k, ((∑ j, a j * h j k) * Ideal.div 1 d) * W k c
      = ∑ k, Ideal.div (∑ j, a j * h j k) d * W k c :=
  Finset.sum_congr rfl fun k _ => by
    rw [mul_one_div_eq_div (IsReal.sum fun j => (ha j).mul (hh j k)) hd h0]

/-- Both forms at once: scaling by the reciprocal before the right multiplication equals scaling
    by it after,  ((a·h)·(1/d))·W = (a·(h·W))·(1/d), when every entry is real and d ≠ 0. -/
theorem assoc_scale_mul {ι κ γ : Type} [Fintype ι] [Fintype κ] [Fintype γ]
    {a : ι → EReal} {h : ι → κ → EReal} {W : κ → γ → EReal} {d : EReal}
    (ha : ∀ j, IsReal (a j)) (hh : ∀ j k, IsReal (h j k)) (hW : ∀ k c, IsReal (W k c))
    (hd : IsReal d) (h0 : d ≠ 0) (c : γ) :
    ∑ k, ((∑ j, a j * h j k) * Ideal.div 1 d) * W k c
      = (∑ j, a j * ∑ k, h j k * W k c) * Ideal.div 1 d :=
  (scale_mul_eq_div W ha hh hd h0 c).trans (assoc_scale ha hh hW hd h0 c)

end Cert.Lib.MeanAggregate
-- ==== Proof.Algebra.lean ====
/-
  The signed sum of squared amplitudes is the difference of the two halves after the permutation.

  Moving the 128 amplitudes by a permutation `π` and then taking the first 64 squares minus the last 64 is the sum over
  all final positions `i` of the square at `π i` times the sign of `i`'s half; re-indexed by `j = π i` it is the sum over
  the original positions `j` of the square at `j` times the sign of the half `j` is moved to — the weight table. The
  re-indexing and the splitting of a difference of sums are laws of the reals; they are used for real amplitudes only,
  and a product state of cosines and sines of real angles is real.
-/
import proofs.«164904_j9509057593682_2_alg».proof.Proof.Spec
import proofs.«164904_j9509057593682_2_alg».proof.Proof.LibMeanAggregate

noncomputable section

open scoped BigOperators

namespace Cert.Algebra

open Idealize.ShloMosaic Cert.Spec Cert.Lib.MeanAggregate

/-- Where each original position is moved to: the inverse of `cnotPerm`. -/
def cnotInv : Fin 128 → Fin 128 :=
  ![0, 65, 67, 2, 71, 6, 4, 69, 79, 14, 12, 77, 8, 73, 75, 10, 95, 30, 28, 93, 24, 89, 91, 26, 16, 81, 83, 18, 87, 22, 20, 85,
    127, 62, 60, 125, 56, 121, 123, 58, 48, 113, 115, 50, 119, 54, 52, 117, 32, 97, 99, 34, 103, 38, 36, 101, 111, 46, 44, 109, 40, 105, 107, 42,
    63, 126, 124, 61, 120, 57, 59, 122, 112, 49, 51, 114, 55, 118, 116, 53, 96, 33, 35, 98, 39, 102, 100, 37, 47, 110, 108, 45, 104, 41, 43, 106,
    64, 1, 3, 66, 7, 70, 68, 5, 15, 78, 76, 13, 72, 9, 11, 74, 31, 94, 92, 29, 88, 25, 27, 90, 80, 17, 19, 82, 23, 86, 84, 21]

theorem cnotInv_perm : ∀ i : Fin 128, cnotInv (cnotPerm i) = i := by decide
theorem cnotPerm_inv : ∀ j : Fin 128, cnotPerm (cnotInv j) = j := by decide

/-- The permutation of the 128 positions. -/
def cnotEquiv : Fin 128 ≃ Fin 128 := ⟨cnotPerm, cnotInv, cnotInv_perm, cnotPerm_inv⟩

/-- Over the reals: a sum weighed by the sign of the half each position is moved to is the first half of the moved
    terms minus the second half. -/
theorem halves_real (t w : Fin 128 → ℝ) (hw : ∀ i : Fin 128, w (cnotPerm i) = if i.val < 64 then 1 else -1) :
    ∑ j : Fin 128, t j * w j
      = (∑ k : Fin 64, t (cnotPerm ⟨k.val, by omega⟩)) - ∑ k : Fin 64, t (cnotPerm ⟨64 + k.val, by omega⟩) := by
  rw [← Equiv.sum_comp cnotEquiv (fun j => t j * w j)]
  have e : ∀ i : Fin 128, t (cnotEquiv i) * w (cnotEquiv i) = t (cnotPerm i) * (if i.val < 64 then 1 else -1) :=
    fun i => by rw [← hw i]; rfl
  rw [Finset.sum_congr rfl fun i _ => e i]
  have h := Fin.sum_univ_add (a := 64) (b := 64) (fun i : Fin (64 + 64) => t (cnotPerm i) * (if i.val < 64 then (1 : ℝ) else -1))
  refine h.trans ?_
  rw [sub_eq_add_neg, ← Finset.sum_neg_distrib]
  refine congrArg₂ (· + ·) (Finset.sum_congr rfl fun k _ => ?_) (Finset.sum_congr rfl fun k _ => ?_)
  · have hk : (Fin.castAdd 64 k).val < 64 := k.isLt
    rw [if_pos hk, mul_one]; rfl
  · have hk : ¬ (Fin.natAdd 64 k).val < 64 := by simp [Fin.natAdd]
    rw [if_neg hk, mul_neg, mul_one]; rfl

/-- The f32 word of one half is a real. -/
theorem isReal_halfW : IsReal halfW := by
  refine ⟨(1 / 2 : ℝ), ?_⟩
  simp [halfW, Ideal.ofBits, Ideal.ieee, -EReal.coe_mul]
  norm_num

/-- A wire's amplitudes are real when its two angles are. -/
theorem isReal_amp {x p : EReal} (hx : IsReal x) (hp : IsReal p) (e : ℕ) : IsReal (amp x p e) := by
  obtain ⟨r, hr⟩ : IsReal (ang x p) := (hx.add hp).mul isReal_halfW
  unfold amp
  rw [hr]
  split
  · exact ⟨_, Ideal.cos_coe r⟩
  · exact ⟨_, Ideal.sin_coe r⟩

/-- The product state of real amplitudes is real. -/
theorem isReal_state {a : Fin 7 → ℕ → EReal} (ha : ∀ q e, IsReal (a q e)) (j : ℕ) : IsReal (state a j) := by
  unfold state
  exact ((((((ha 0 _).mul (ha 1 _)).mul (ha 2 _)).mul (ha 3 _)).mul (ha 4 _)).mul (ha 5 _)).mul (ha 6 _)

/-- For real amplitudes the two expectation values agree, when the weight of the position `π i` is the sign of the
    half of `i`. -/
theorem expTable_eq_expHalves (w : Fin 128 → EReal) (hw : ∀ i : Fin 128, w (cnotPerm i) = if i.val < 64 then 1 else -1)
    (s : ℕ → EReal) (hs : ∀ j, IsReal (s j)) : expTable w s = expHalves cnotPerm s := by
  choose sr hsr using hs
  have hwr : ∀ j : Fin 128, w j = (((if (cnotInv j).val < 64 then 1 else -1 : ℝ)) : EReal) := fun j => by
    have h := hw (cnotInv j)
    rw [cnotPerm_inv] at h
    rw [h]
    split <;> simp
  unfold expTable expHalves
  have e1 : ∀ j : Fin 128, s j.val * s j.val * w j
      = ((sr j.val * sr j.val * (if (cnotInv j).val < 64 then 1 else -1 : ℝ) : ℝ) : EReal) := fun j => by
    rw [hsr, hwr, ← EReal.coe_mul, ← EReal.coe_mul]
  have e2 : ∀ i : Fin 128, s (cnotPerm i).val * s (cnotPerm i).val = ((sr (cnotPerm i).val * sr (cnotPerm i).val : ℝ) : EReal) :=
    fun i => by rw [hsr, ← EReal.coe_mul]
  have E1 : ∑ j : Fin 128, s j.val * s j.val * w j
      = ((∑ j : Fin 128, sr j.val * sr j.val * (if (cnotInv j).val < 64 then 1 else -1 : ℝ) : ℝ) : EReal) := by
    rw [← sum_coe]; exact Finset.sum_congr rfl fun j _ => e1 j
  have E2 : ∑ k : Fin 64, s (cnotPerm ⟨k.val, by omega⟩).val * s (cnotPerm ⟨k.val, by omega⟩).val
      = ((∑ k : Fin 64, sr (cnotPerm ⟨k.val, by omega⟩).val * sr (cnotPerm ⟨k.val, by omega⟩).val : ℝ) : EReal) := by
    rw [← sum_coe]; exact Finset.sum_congr rfl fun k _ => e2 _
  have E3 : ∑ k : Fin 64, s (cnotPerm ⟨64 + k.val, by omega⟩).val * s (cnotPerm ⟨64 + k.val, by omega⟩).val
      = ((∑ k : Fin 64, sr (cnotPerm ⟨64 + k.val, by omega⟩).val * sr (cnotPerm ⟨64 + k.val, by omega⟩).val : ℝ) : EReal) := by
    rw [← sum_coe]; exact Finset.sum_congr rfl fun k _ => e2 _
  rw [E1, E2, E3, ← EReal.coe_sub]
  refine congrArg _ (halves_real (fun j => sr j.val * sr j.val) _ fun i => ?_)
  show (if (cnotInv (cnotPerm i)).val < 64 then (1 : ℝ) else -1) = _
  rw [cnotInv_perm]

end Cert.Algebra

end
-- ==== Proof.Finite.lean ====
/-
  The precondition read back: every entry of the two angle arrays is a real number.

  The precondition is a conjunction of nine tests, one per argument array, each the test "every entry's absolute value is
  below +∞" reduced by `and` from the bit one. A conjunction that is one has both conjuncts one; a reduction by `and` that
  is one met only ones; and an extended real whose absolute value is below +∞ is neither infinity, so it is a real.
-/
import proofs.«164904_j9509057593682_2_alg».proof.Pre_finite_inputs
import proofs.«164904_j9509057593682_2_alg».proof.Proof.LibMeanAggregate
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs Cert.Lib.MeanAggregate

instance : Subsingleton S_.Idx := ⟨fun a b => funext fun d => d.elim0⟩

/-- An extended real whose absolute value tests below the f32 word of +∞ is a real. -/
theorem isReal_of_lt_inf (x : EReal)
    (h : Ideal.cmp .olt (max x (-x)) (Ideal.ofBits .f32 0x7F800000#32) = 1#1) : IsReal x := by
  induction x using EReal.rec with
  | bot => exfalso; revert h; simp [Ideal.ofBits, Ideal.ieee, Ideal.cmp]
  | coe r => exact ⟨r, rfl⟩
  | top => exfalso; revert h; simp [Ideal.ofBits, Ideal.ieee, Ideal.cmp]

variable [Cert.Pre_finite_inputs.Facts]

/-- Under the precondition every entry of the first argument (the data angles) and of the third (the parameter
    angles) is a real. -/
theorem angles_real (a0 : FVec Ideal S131072x7 .f32) (a1 : FVec Ideal S131072x64 .f32) (a2 : FVec Ideal S7 .f32)
    (a3 : FVec Ideal S65x32 .f32) (a4 : FVec Ideal S32 .f32) (a5 : FVec Ideal S32x16 .f32) (a6 : FVec Ideal S16 .f32)
    (a7 : FVec Ideal S16x1 .f32) (a8 : FVec Ideal S1 .f32)
    (h : fn (F := Ideal) a0 a1 a2 a3 a4 a5 a6 a7 a8 = fun _ => 1#1) :
    (∀ i, IsReal (a0 i)) ∧ (∀ i, IsReal (a2 i)) := by
  have h0 := congrFun h ix0
  dsimp only [fn, fn_part1, fn_part2] at h0
  obtain ⟨h38, -⟩ := IntOp.andi_eq_one.1 h0
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, -⟩ := IntOp.andi_eq_one.1 h8
  refine ⟨fun i => isReal_of_lt_inf _ ?_, fun i => isReal_of_lt_inf _ ?_⟩
  · exact Host.reduce_andi_all _ _ _ _ _ h3 i
  · exact Host.reduce_andi_all _ _ _ _ _ h12 i

end Cert.Finite

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibAffineLayer.lean ====
/-
  One affine layer as the vector unit spells it and as the host spells it, each as ONE function of the whole arrays,
  on the extended reals, generic in the extents.

  The vector unit: the product of an `M × K` array with a `K × N` array into a zero accumulator, plus a `[1, N]` bias
  row spread over the `M` rows. The host: the `dot_general` of the two arrays plus a `[N]` bias vector placed on a unit
  row and spread over the rows. Either way the entry at `(r, n)` is the affine layer of row `r`:
  `(∑ k, X (r, k) · W (k, n)) + b n`. The rectifier is the maximum with a zero word, splat by the vector unit or
  broadcast from a scalar by the host; a change of float format keeps every entry.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«164904_j9509057593682_2_alg».proof.Proof.LibPlainDot
import proofs.«164904_j9509057593682_2_alg».proof.Proof.LibDenseRow

noncomputable section

open scoped BigOperators

namespace Cert.Proof.Layers

open Idealize.ShloMosaic Idealize.ShloMosaic.ValueIdx Cert.Proof.DenseRow

/-- The maximum with a splat f32 zero word is the rectifier, entry by entry. -/
theorem relu_splat {s : Shape} (x : FVec Ideal s .f32) :
    maximumf x (broadcast s (Scalar.ofBits .f32 0x00000000#32)) = fun i => relu (x i) := by
  funext i
  show max (x i) (Ideal.ofBits .f32 0x00000000#32) = max (x i) 0
  rw [Ideal.ofBits_zero_f32]

/-- The maximum with a scalar f32 zero constant broadcast to the whole shape is the rectifier, entry by entry. -/
theorem relu_bcast {s : Shape} (x : FVec Ideal s .f32) (h : (⟨0, ![]⟩ : Shape).BroadcastsInDim s ![]) :
    maximumf x (broadcastInDim s ![] h (constant (F := Ideal) ⟨0, ![]⟩ .f32 0x00000000#32)) = fun i => relu (x i) := by
  funext i
  show max (x i) (broadcastInDim s ![] h (constant (F := Ideal) ⟨0, ![]⟩ .f32 0x00000000#32) i) = max (x i) 0
  rw [broadcastInDim_apply ![] h _ i ix0 (fun a => a.elim0), constant_apply, Ideal.ofBits_zero_f32]

/-- A change of float format keeps the array. -/
theorem truncf_eq {s : Shape} {φ ψ : FTy} (a : FVec Ideal s φ) (h : ψ.bits < φ.bits) :
    (truncf ψ a h : FVec Ideal s ψ) = fun i => a i := rfl

/-- The vector unit's affine layer: entry `(r, n)` is the affine layer of row `r` of `X`. -/
theorem vpu_affine {M K N : ℕ} {φ₁ φ₂ : FTy} (X : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul (DotDims.plain M K N) none X W (constant ⟨2, ![M, N]⟩ .f32 0x00000000#32)) (broadcastTo ⟨2, ![M, N]⟩ b hb)
      = fun i => dense (fun k => X (ix2 (i 0) k)) (fun k n => W (ix2 k n)) (fun n => b (ix2 (0 : Fin 1) n)) (i 1) := by
  funext i
  obtain ⟨r, n, rfl⟩ : ∃ (r : Fin M) (n : Fin N), i = ix2 r n := ⟨i 0, i 1, eq_ix2 i⟩
  refine (addf_apply _ _ _).trans (congrArg₂ (· + ·) ?_ ?_)
  · exact Cert.Proof.PlainDot.matmul_plain_zero none X W (ix2 r n)
  · exact broadcastTo_1b_ab_apply b hb r n

/-- The host's affine layer: entry `(r, n)` is the affine layer of row `r` of `X`. -/
theorem host_affine {M K N : ℕ} (X : FVec Ideal ⟨2, ![M, K]⟩ .f32) (W : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (DotDims.plain M K N) none X W)
        (broadcastInDim ⟨2, ![M, N]⟩ ![0, 1] h2 (broadcastInDim ⟨2, ![1, N]⟩ ![1] h1 b))
      = fun i => dense (fun k => X (ix2 (i 0) k)) (fun k n => W (ix2 k n)) (fun n => b (ix1 n)) (i 1) := by
  funext i
  obtain ⟨r, n, rfl⟩ : ∃ (r : Fin M) (n : Fin N), i = ix2 r n := ⟨i 0, i 1, eq_ix2 i⟩
  refine (addf_apply _ _ _).trans (congrArg₂ (· + ·) ?_ ?_)
  · simp only [Host.dotGeneral]
    exact Cert.Proof.PlainDot.dotGeneral_plain none _ X W (ix2 r n)
  · rw [broadcastInDim_apply ![0, 1] h2 _ (ix2 r n) (ix2 (0 : Fin 1) n) (fun a => by
      match a with
      | ⟨0, _⟩ => rfl
      | ⟨1, _⟩ =>
        show n.val = if N = 1 then 0 else n.val
        split
        · have := n.isLt; omega
        · rfl)]
    exact broadcastInDim_apply ![1] h1 b (ix2 (0 : Fin 1) n) (ix1 n) (fun a => by
      match a with
      | ⟨0, _⟩ =>
        show n.val = if N = 1 then 0 else n.val
        split
        · have := n.isLt; omega
        · rfl)

end Cert.Proof.Layers

end
-- ==== Proof.KerPay.lean ====
/-
  The kernel body's arithmetic read at an index, on the extended reals, one row of the block at a time.

  The body first forms the half angles `(x + p) · ½` of the block's seven wires and their cosines and sines. It then
  builds the 128 amplitudes of each row by six doubling stages: it starts from wire 6's two amplitudes side by side and,
  for wires 5, 4, …, 0 in turn, lays the array times the wire's cosine beside the array times the wire's sine, so that the
  new wire owns the next more significant bit of the column number. Column `j` of the result is therefore the product
  over the wires of the wire's amplitude at its own bit of `j`, wire 0 at the most significant bit: the product state,
  its seven factors multiplied in the other order (multiplication of extended reals is commutative and associative, and
  the bit of `j` a stage reads, `(j % 2a) / a`, is the bit `j / a % 2`).
  The expectation value is the lane sum of the squared amplitudes times the table row. The first layer is spelled as a
  one-column product with the first weight row plus a 64-column product with the other 64 weight rows plus the bias:
  the affine layer on the row that starts with the expectation value and goes on with the 64 features. The maximum with
  a splat zero is the rectifier, a change of float format keeps every entry, and the other two layers are plain affine
  layers. The result, `out_apply`: at row `r` the body's value is `Spec.rowOut` of the row's data with the expectation
  value taken against the table.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«164904_j9509057593682_2_alg».proof.Proof.Gen.KernelIdeal.Skeleton
import proofs.«164904_j9509057593682_2_alg».proof.Proof.Spec
import proofs.«164904_j9509057593682_2_alg».proof.Proof.LibConcatAt
import proofs.«164904_j9509057593682_2_alg».proof.Proof.LibColumns
import proofs.«164904_j9509057593682_2_alg».proof.Proof.LibAffineLayer

noncomputable section

open scoped BigOperators

namespace Cert.KerPay

open Idealize.ShloMosaic Idealize.ShloMosaic.ValueIdx Cert.KernelIdeal Cert.KernelIdeal.Gen Cert.Proof.DenseRow

variable [Cert.KernelIdeal.Facts]

/-- One doubling stage read at an index: the new array's column `j` is the old array's column `j % a` times the
    new wire's amplitude number `j / a` (cosine for the first `a` columns, sine for the next `a`). -/
theorem stage_apply {n a c : ℕ} (prev : FVec Ideal ⟨2, ![n, a]⟩ .f32) (cc ss : FVec Ideal ⟨2, ![n, 1]⟩ .f32)
    (hb : (⟨2, ![n, 1]⟩ : Shape).Broadcasts ⟨2, ![n, a]⟩)
    (hc : Shape.Concatenates [(⟨2, ![n, a]⟩ : Shape), ⟨2, ![n, a]⟩] ⟨2, ![n, c]⟩ (1 : Fin 2))
    (hca : c = a + a) (r : Fin n) (j : Fin c) (f g : ℕ → EReal)
    (hf : ∀ k : Fin a, prev (ix2 r k) = f k.val)
    (hg0 : cc (ix2 r (0 : Fin 1)) = g 0) (hg1 : ss (ix2 r (0 : Fin 1)) = g 1) :
    concatenate ⟨2, ![n, c]⟩ (1 : Fin 2)
        [⟨⟨2, ![n, a]⟩, mulf prev (broadcastTo ⟨2, ![n, a]⟩ cc hb)⟩, ⟨⟨2, ![n, a]⟩, mulf prev (broadcastTo ⟨2, ![n, a]⟩ ss hb)⟩] hc (ix2 r j)
      = f (j.val % a) * g (j.val / a) := by
  by_cases hj : j.val < a
  · rw [Cert.Proof.ConcatAt.pair_left _ _ hc (ix2 r j) r ⟨j.val, hj⟩ rfl rfl]
    rw [mulf_apply, Cert.Proof.Columns.broadcastTo_a1_ab_apply, hf, hg0, Nat.mod_eq_of_lt hj, Nat.div_eq_of_lt hj]
  · have hk : j.val - a < a := by have := j.isLt; omega
    rw [Cert.Proof.ConcatAt.pair_right _ _ hc (ix2 r j) r ⟨j.val - a, hk⟩ rfl (by show j.val = a + (j.val - a); omega)]
    rw [mulf_apply, Cert.Proof.Columns.broadcastTo_a1_ab_apply, hf, hg1]
    have h1 : j.val % a = j.val - a := by
      rw [Nat.mod_eq_sub_mod (by omega), Nat.mod_eq_of_lt hk]
    have h2 : j.val / a = 1 := Nat.div_eq_of_lt_le (by omega) (by omega)
    rw [h1, h2]

/-- The first two columns: the cosine column beside the sine column. -/
theorem base_apply {n : ℕ} (cc ss : FVec Ideal ⟨2, ![n, 1]⟩ .f32)
    (hc : Shape.Concatenates [(⟨2, ![n, 1]⟩ : Shape), ⟨2, ![n, 1]⟩] ⟨2, ![n, 2]⟩ (1 : Fin 2)) (r : Fin n) (j : Fin 2)
    (g : ℕ → EReal) (hg0 : cc (ix2 r (0 : Fin 1)) = g 0) (hg1 : ss (ix2 r (0 : Fin 1)) = g 1) :
    concatenate ⟨2, ![n, 2]⟩ (1 : Fin 2) [⟨⟨2, ![n, 1]⟩, cc⟩, ⟨⟨2, ![n, 1]⟩, ss⟩] hc (ix2 r j) = g j.val := by
  match j with
  | ⟨0, _⟩ => exact (Cert.Proof.ConcatAt.pair_left _ _ hc _ r (0 : Fin 1) rfl rfl).trans hg0
  | ⟨1, _⟩ => exact (Cert.Proof.ConcatAt.pair_right _ _ hc _ r (0 : Fin 1) rfl rfl).trans hg1

/-- The block's half angles: the parameter row spread over the rows, added, times one half. -/
abbrev halfAngles (x0 : Vec Ideal S4096x7 .f32) (x2 : Vec Ideal S1x7 .f32) : FVec Ideal S4096x7 .f32 :=
  mulf (addf x0 (broadcastTo S4096x7 (shapeCast S1x7 x2 Facts₀.shapeCasts_S1x7_S1x7) Facts₀.broadcasts_S1x7_S4096x7))
    (broadcast S4096x7 (Scalar.ofBits .f32 0x3F000000#32))

/-- Entry `(r, q)` of the half angles is wire `q`'s half angle on row `r`. -/
theorem halfAngles_apply (x0 : Vec Ideal S4096x7 .f32) (x2 : Vec Ideal S1x7 .f32) (r : Fin 4096) (q : Fin 7) :
    halfAngles x0 x2 (ix2 r q) = Spec.ang (x0 (ix2 r q)) (x2 (ix2 0 q)) := by
  show (x0 (ix2 r q) + broadcastTo S4096x7 (shapeCast S1x7 x2 Facts₀.shapeCasts_S1x7_S1x7) Facts₀.broadcasts_S1x7_S4096x7 (ix2 r q))
      * Ideal.ofBits .f32 0x3F000000#32 = _
  rw [broadcastTo_1b_ab_apply, shapeCast_apply x2 _ _ (ix2 0 q) rfl]
  rfl

/-- Column `q` of the cosines, cut out as a one-column array, is wire `q`'s amplitude number `0`. -/
theorem cos_col (x0 : Vec Ideal S4096x7 .f32) (x2 : Vec Ideal S1x7 .f32) (q : ℕ) (hq : q < 7)
    (hs : S4096x7.Slices ![0, q] S4096x1) (r : Fin 4096) :
    extractStridedSlice S4096x1 ![0, q] (cos (halfAngles x0 x2)) hs (ix2 r (0 : Fin 1))
      = Spec.amp (x0 (ix2 r ⟨q, hq⟩)) (x2 (ix2 0 ⟨q, hq⟩)) 0 := by
  rw [slice2_axis1_apply q _ hs r 0 ⟨q, hq⟩ rfl]
  show Ideal.cos (halfAngles x0 x2 (ix2 r ⟨q, hq⟩)) = _
  rw [halfAngles_apply]
  exact (if_pos rfl).symm

/-- Column `q` of the sines, cut out as a one-column array, is wire `q`'s amplitude number `1`. -/
theorem sin_col (x0 : Vec Ideal S4096x7 .f32) (x2 : Vec Ideal S1x7 .f32) (q : ℕ) (hq : q < 7)
    (hs : S4096x7.Slices ![0, q] S4096x1) (r : Fin 4096) :
    extractStridedSlice S4096x1 ![0, q] (sin (halfAngles x0 x2)) hs (ix2 r (0 : Fin 1))
      = Spec.amp (x0 (ix2 r ⟨q, hq⟩)) (x2 (ix2 0 ⟨q, hq⟩)) 1 := by
  rw [slice2_axis1_apply q _ hs r 0 ⟨q, hq⟩ rfl]
  show Ideal.sin (halfAngles x0 x2 (ix2 r ⟨q, hq⟩)) = _
  rw [halfAngles_apply]
  exact (if_neg Nat.one_ne_zero).symm

/-! The product state as the doubling stages build it: wire 6 first, each later wire on the next more significant bit. -/

/-- Wire 6's two amplitudes. -/
def st0 (A : Fin 7 → ℕ → EReal) (j : ℕ) : EReal := A 6 j
/-- Wires 6 and 5: four amplitudes, wire 5 on bit 1. -/
def st1 (A : Fin 7 → ℕ → EReal) (j : ℕ) : EReal := st0 A (j % 2) * A 5 (j / 2)
/-- Wires 6 to 4: eight amplitudes, wire 4 on bit 2. -/
def st2 (A : Fin 7 → ℕ → EReal) (j : ℕ) : EReal := st1 A (j % 4) * A 4 (j / 4)
/-- Wires 6 to 3: sixteen amplitudes, wire 3 on bit 3. -/
def st3 (A : Fin 7 → ℕ → EReal) (j : ℕ) : EReal := st2 A (j % 8) * A 3 (j / 8)
/-- Wires 6 to 2: thirty-two amplitudes, wire 2 on bit 4. -/
def st4 (A : Fin 7 → ℕ → EReal) (j : ℕ) : EReal := st3 A (j % 16) * A 2 (j / 16)
/-- Wires 6 to 1: sixty-four amplitudes, wire 1 on bit 5. -/
def st5 (A : Fin 7 → ℕ → EReal) (j : ℕ) : EReal := st4 A (j % 32) * A 1 (j / 32)
/-- All seven wires: 128 amplitudes, wire 0 on bit 6. -/
def st6 (A : Fin 7 → ℕ → EReal) (j : ℕ) : EReal := st5 A (j % 64) * A 0 (j / 64)

/-- Below 128 the staged product is the product state: the same seven factors, each wire at its own bit, in the
    other order. -/
theorem st6_eq_state (A : Fin 7 → ℕ → EReal) (j : ℕ) (hj : j < 128) : st6 A j = Spec.state A j := by
  unfold st6 st5 st4 st3 st2 st1 st0 Spec.state
  have e0 : j / 64 % 2 = j / 64 := by omega
  have e1 : j % 64 / 32 = j / 32 % 2 := by omega
  have e2 : j % 64 % 32 / 16 = j / 16 % 2 := by omega
  have e3 : j % 64 % 32 % 16 / 8 = j / 8 % 2 := by omega
  have e4 : j % 64 % 32 % 16 % 8 / 4 = j / 4 % 2 := by omega
  have e5 : j % 64 % 32 % 16 % 8 % 4 / 2 = j / 2 % 2 := by omega
  have e6 : j % 64 % 32 % 16 % 8 % 4 % 2 = j % 2 := by omega
  rw [e6, e5, e4, e3, e2, e1, e0]
  ac_rfl

/-- The 128 amplitudes the kernel builds on row `r`: the staged product of the wires' amplitudes. -/
theorem pay2_st (x0 : Vec Ideal S4096x7 .f32) (x2 : Vec Ideal S1x7 .f32) (r : Fin 4096) (j : Fin 128) :
    k0_pay2 x0 x2 (ix2 r j) = st6 (fun q e => Spec.amp (x0 (ix2 r q)) (x2 (ix2 0 q)) e) j.val := by
  unfold k0_pay2
  refine stage_apply _ _ _ _ _ (by rfl) r j (st5 _) (fun e => Spec.amp (x0 (ix2 r 0)) (x2 (ix2 0 0)) e) (fun k => ?_)
    (cos_col x0 x2 0 (by omega) _ r) (sin_col x0 x2 0 (by omega) _ r)
  refine stage_apply _ _ _ _ _ (by rfl) r k (st4 _) (fun e => Spec.amp (x0 (ix2 r 1)) (x2 (ix2 0 1)) e) (fun k => ?_)
    (cos_col x0 x2 1 (by omega) _ r) (sin_col x0 x2 1 (by omega) _ r)
  refine stage_apply _ _ _ _ _ (by rfl) r k (st3 _) (fun e => Spec.amp (x0 (ix2 r 2)) (x2 (ix2 0 2)) e) (fun k => ?_)
    (cos_col x0 x2 2 (by omega) _ r) (sin_col x0 x2 2 (by omega) _ r)
  refine stage_apply _ _ _ _ _ (by rfl) r k (st2 _) (fun e => Spec.amp (x0 (ix2 r 3)) (x2 (ix2 0 3)) e) (fun k => ?_)
    (cos_col x0 x2 3 (by omega) _ r) (sin_col x0 x2 3 (by omega) _ r)
  refine stage_apply _ _ _ _ _ (by rfl) r k (st1 _) (fun e => Spec.amp (x0 (ix2 r 4)) (x2 (ix2 0 4)) e) (fun k => ?_)
    (cos_col x0 x2 4 (by omega) _ r) (sin_col x0 x2 4 (by omega) _ r)
  refine stage_apply _ _ _ _ _ (by rfl) r k (st0 _) (fun e => Spec.amp (x0 (ix2 r 5)) (x2 (ix2 0 5)) e) (fun k => ?_)
    (cos_col x0 x2 5 (by omega) _ r) (sin_col x0 x2 5 (by omega) _ r)
  exact base_apply _ _ _ r k (fun e => Spec.amp (x0 (ix2 r 6)) (x2 (ix2 0 6)) e)
    (cos_col x0 x2 6 (by omega) _ r) (sin_col x0 x2 6 (by omega) _ r)

/-- The 128 amplitudes the kernel builds on row `r` are the product state of the row's seven wires. -/
theorem pay2_apply (x0 : Vec Ideal S4096x7 .f32) (x2 : Vec Ideal S1x7 .f32) (r : Fin 4096) (j : Fin 128) :
    k0_pay2 x0 x2 (ix2 r j) = Spec.state (fun q e => Spec.amp (x0 (ix2 r q)) (x2 (ix2 0 q)) e) j.val :=
  (pay2_st x0 x2 r j).trans (st6_eq_state _ j.val j.isLt)

/-- Affine layers with equal rows, weights and biases are equal. -/
theorem dense_congr {K N : ℕ} {x x' : Fin K → EReal} {W W' : Fin K → Fin N → EReal} {b b' : Fin N → EReal}
    (hx : x = x') (hW : W = W') (hb : b = b') (n : Fin N) : dense x W b n = dense x' W' b' n := by
  subst hx hW hb; rfl

/-- The maximum with a splat zero, then a change of float format: the rectifier, entry by entry. -/
theorem trunc_relu_apply {s : Shape} (x : FVec Ideal s .f32) (h : FTy.bits .bf16 < FTy.bits .f32) (i : s.Idx) :
    (truncf .bf16 (maximumf x (broadcast s (Scalar.ofBits .f32 0x00000000#32))) h : FVec Ideal s .bf16) i = relu (x i) :=
  congrFun (Cert.Proof.Layers.relu_splat x) i

/-- The lane sum of the squared amplitudes weighed by the table row, cast to a column: entry `(r, u)` is the
    weighted sum on row `r`. -/
theorem exp_col (v53 : FVec Ideal S4096x128 .f32) (v54 : Vec Ideal S1x128 .f32)
    (h1 : S1x128.ShapeCasts S1x128) (h2 : S1x128.Broadcasts S4096x128) (h3 : S4096x128.Reduces [1] S4096)
    (h4 : S4096.ShapeCasts S4096x1) (hφ : FKind.Formats .f32)
    (hacc : (0x00000000#32 : BitVec (FTy.bits .f32)) = FKind.add.neutral .f32 hφ) (r : Fin 4096) (u : Fin 1) :
    shapeCast S4096x1 (multiReduction (F := Ideal) .add [1] S4096
        (mulf (mulf v53 v53) (broadcastTo S4096x128 (shapeCast S1x128 v54 h1) h2)) 0x00000000#32 h3 hφ hacc) h4 (ix2 r u)
      = ∑ k : Fin 128, v53 (ix2 r k) * v53 (ix2 r k) * v54 (ix2 0 k) := by
  rw [Cert.Proof.Columns.shapeCast_a_a1_apply, Cert.Proof.Columns.multiReduction_add_rows]
  refine Finset.sum_congr rfl fun k _ => ?_
  show v53 (ix2 r k) * v53 (ix2 r k) * broadcastTo S4096x128 (shapeCast S1x128 v54 h1) h2 (ix2 r k) = _
  rw [broadcastTo_1b_ab_apply, shapeCast_apply v54 h1 _ (ix2 0 k) rfl]

/-- The first layer as the kernel spells it: the one-column product with the first weight row plus the 64-column product
    with the other 64 weight rows plus the bias row, at `(r, n)`, is the affine layer on the row that starts with the
    column's entry and goes on with the 64 features. -/
theorem layer1_apply (q : FVec Ideal S4096x1 .f32) (v61 : Vec Ideal S4096x64 .f32) (v62 : Vec Ideal S65x32 .f32)
    (v65 : Vec Ideal S1x32 .f32) (hs0 : S65x32.Slices ![0, 0] S1x32) (hs1 : S65x32.Slices ![1, 0] S64x32)
    (hc : S1x32.ShapeCasts S1x32) (hb : S1x32.Broadcasts S4096x32) (hlt : FTy.bits .bf16 < FTy.bits .f32)
    (r : Fin 4096) (n : Fin 32) (E : EReal) (hq : q (ix2 r 0) = E) :
    addf (addf
          (matmul dot_S4096x1_S1x32_S4096x32_1_0_0_1_n_n none (truncf .bf16 q hlt)
            (truncf .bf16 (extractStridedSlice S1x32 ![0, 0] v62 hs0) hlt) (constant S4096x32 .f32 0x00000000#32))
          (matmul dot_S4096x64_S64x32_S4096x32_1_0_0_1_n_n none (truncf .bf16 v61 hlt)
            (truncf .bf16 (extractStridedSlice S64x32 ![1, 0] v62 hs1) hlt) (constant S4096x32 .f32 0x00000000#32)))
        (broadcastTo S4096x32 (shapeCast S1x32 v65 hc) hb) (ix2 r n)
      = dense (Fin.cons E (fun k => v61 (ix2 r k)) : Fin 65 → EReal) (fun k n => v62 (ix2 k n)) (fun n => v65 (ix2 0 n)) n := by
  refine (addf_apply _ _ _).trans ?_
  unfold dense
  refine congrArg₂ (· + ·) ?_ ?_
  · refine (addf_apply _ _ _).trans ?_
    rw [Fin.sum_univ_succ]
    refine congrArg₂ (· + ·) ?_ ?_
    · refine (Cert.Proof.PlainDot.matmul_plain_zero (M := 4096) (K := 1) (N := 32) none _ _ (ix2 r n)).trans ?_
      rw [Fin.sum_univ_one]
      show q (ix2 r 0) * extractStridedSlice S1x32 ![0, 0] v62 hs0 (ix2 0 n) = _
      rw [Fin.cons_zero, slice2_axis0_apply 0 v62 hs0 0 n 0 rfl, hq]
    · refine (Cert.Proof.PlainDot.matmul_plain_zero (M := 4096) (K := 64) (N := 32) none _ _ (ix2 r n)).trans ?_
      refine Finset.sum_congr rfl fun k _ => ?_
      show v61 (ix2 r k) * extractStridedSlice S64x32 ![1, 0] v62 hs1 (ix2 k n) = _
      rw [Fin.cons_succ, slice2_axis0_apply 1 v62 hs1 k n k.succ (by rw [Fin.val_succ]; omega)]
  · exact (broadcastTo_1b_ab_apply _ _ r n).trans (shapeCast_apply v65 hc _ (ix2 0 n) rfl)

/-- The first two layers on row `r`: the weighted lane sum in front of the 64 features, two affine layers each followed
    by the rectifier. -/
theorem pay4_apply (v53 : FVec Ideal S4096x128 .f32) (v54 : Vec Ideal S1x128 .f32) (v61 : Vec Ideal S4096x64 .f32)
    (v62 : Vec Ideal S65x32 .f32) (v65 : Vec Ideal S1x32 .f32) (v78 : Vec Ideal S32x16 .f32) (v79 : Vec Ideal S1x16 .f32)
    (r : Fin 4096) (n : Fin 16) :
    k0_pay4 v53 v54 v61 v62 v65 v78 v79 (ix2 r n)
      = reluDense (reluDense (Fin.cons (∑ k : Fin 128, v53 (ix2 r k) * v53 (ix2 r k) * v54 (ix2 0 k)) (fun k => v61 (ix2 r k)) : Fin 65 → EReal)
          (fun k n => v62 (ix2 k n)) (fun n => v65 (ix2 0 n))) (fun n p => v78 (ix2 n p)) (fun p => v79 (ix2 0 p)) n := by
  unfold k0_pay4
  refine (trunc_relu_apply _ _ _).trans (congrArg relu ?_)
  refine (congrFun (Cert.Proof.Layers.vpu_affine (M := 4096) (K := 32) (N := 16) _ _ _ _) (ix2 r n)).trans ?_
  refine dense_congr (funext fun k => ?_) rfl (funext fun p => shapeCast_apply v79 _ _ (ix2 0 p) rfl) n
  refine (trunc_relu_apply _ _ _).trans (congrArg relu ?_)
  exact layer1_apply _ v61 v62 v65 _ _ _ _ _ r k _ (exp_col v53 v54 _ _ _ _ _ _ r 0)

/-- The last layer on row `r`. -/
theorem pay1_apply (v88 : Vec Ideal S16x1 .f32) (v90 : FVec Ideal S1x1 .f32) (v91 : FVec Ideal S4096x16 .bf16)
    (r : Fin 4096) (z : Fin 1) :
    k0_pay1 v88 v90 v91 (ix2 r z)
      = dense (fun k => v91 (ix2 r k)) (fun k n => v88 (ix2 k n)) (fun n => v90 (ix2 0 n)) z := by
  unfold k0_pay1
  exact congrFun (Cert.Proof.Layers.vpu_affine (M := 4096) (K := 16) (N := 1) v91 _ v90 _) (ix2 r z)

/-- The kernel body's result on row `r`: the row's product state, its expectation value against the table row, the
    three layers. -/
theorem out_apply (x0 : Vec Ideal S4096x7 .f32) (x1 : Vec Ideal S4096x64 .f32) (x2 : Vec Ideal S1x7 .f32)
    (x3 : Vec Ideal S1x128 .f32) (x4 : Vec Ideal S65x32 .f32) (x5 : Vec Ideal S1x32 .f32) (x6 : Vec Ideal S32x16 .f32)
    (x7 : Vec Ideal S1x16 .f32) (x8 : Vec Ideal S16x1 .f32) (x9 : Vec Ideal S1x1 .f32) (r : Fin 4096) :
    k0_pay1 (F := Ideal) x8 (k0_pay3 x9) (k0_pay4 (k0_pay2 x0 x2) x3 x1 x4 x5 x6 x7) (ix2 r 0)
      = Spec.rowOut (Spec.expTable fun j => x3 (ix2 0 j)) (fun q => x0 (ix2 r q)) (fun q => x2 (ix2 0 q))
          (fun k => x1 (ix2 r k)) (fun k n => x4 (ix2 k n)) (fun n => x5 (ix2 0 n)) (fun n p => x6 (ix2 n p))
          (fun p => x7 (ix2 0 p)) (fun p z => x8 (ix2 p z)) (fun z => x9 (ix2 0 z)) := by
  refine (pay1_apply _ _ _ r 0).trans ?_
  unfold Spec.rowOut Spec.mlp
  refine dense_congr (funext fun k => ?_) rfl (funext fun z => ?_) 0
  · refine (pay4_apply _ x3 x1 x4 x5 x6 x7 r k).trans ?_
    have hE : (∑ k : Fin 128, k0_pay2 x0 x2 (ix2 r k) * k0_pay2 x0 x2 (ix2 r k) * x3 (ix2 0 k))
        = Spec.expTable (fun j => x3 (ix2 0 j)) (Spec.state fun q e => Spec.amp (x0 (ix2 r q)) (x2 (ix2 0 q)) e) := by
      unfold Spec.expTable
      exact Finset.sum_congr rfl fun k _ => by rw [pay2_apply]
    rw [hE]
  · unfold k0_pay3
    exact shapeCast_apply x9 _ _ (ix2 0 z) rfl

end Cert.KerPay

end
-- ==== Proof.KerFrame.lean ====
/-
  The idealized kernel's run, with its result array named.

  The kernel walks 32 grid points; point `t` loads rows `4096·t … 4096·t + 4095` of the two batch arrays and the
  eight small parameter arrays whole, and stores one column of 4096 results. Row `r` of that column depends only on
  row `4096·t + r` of the batch arrays and on the parameters (the body's arithmetic read at an index, taken here as
  the hypothesis `hpay`), so every point writes back a block of ONE function of the argument arrays: the row function
  `Cert.Spec.rowOut` applied row by row. The 32 blocks cover the [131072,1] array (row `i` lies in block `i / 4096`),
  so after the run that array is the row function everywhere; the reshape that follows the region reads it as a
  vector of 131072 entries. The parameter arrays the region sees are reshapes to one row of the arguments, and the
  sign table a reshape of a literal, read here at an index.
-/
import proofs.«164904_j9509057593682_2_alg».proof.Proof.Gen.KernelIdeal.Frame
import proofs.«164904_j9509057593682_2_alg».proof.Proof.Spec
import Idealize.ShloMosaic.Lib.Pipeline.Value
import Idealize.ShloMosaic.Lib.ValueIdx
import Idealize.ShloMosaic.Lib.Tactic
import Idealize.ShloMosaic.PureOps.Ideal
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KerFrame

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's arithmetic read at an index: row `r` of the stored column is the row function of row `r` of the two
    batch blocks and of the parameter blocks. -/
abbrev PayAt : Prop :=
  ∀ (x0 : Vec Ideal S4096x7 .f32) (x1 : Vec Ideal S4096x64 .f32) (x2 : Vec Ideal S1x7 .f32) (x3 : Vec Ideal S1x128 .f32)
    (x4 : Vec Ideal S65x32 .f32) (x5 : Vec Ideal S1x32 .f32) (x6 : Vec Ideal S32x16 .f32) (x7 : Vec Ideal S1x16 .f32)
    (x8 : Vec Ideal S16x1 .f32) (x9 : Vec Ideal S1x1 .f32) (r : Fin 4096),
    Gen.k0_pay1 (F := Ideal) x8 (Gen.k0_pay3 x9) (Gen.k0_pay4 (Gen.k0_pay2 x0 x2) x3 x1 x4 x5 x6 x7) (ix2 r 0)
      = Cert.Spec.rowOut (Cert.Spec.expTable fun j => x3 (ix2 0 j)) (fun q => x0 (ix2 r q)) (fun q => x2 (ix2 0 q))
          (fun k => x1 (ix2 r k)) (fun k n => x4 (ix2 k n)) (fun n => x5 (ix2 0 n)) (fun n p => x6 (ix2 n p))
          (fun p => x7 (ix2 0 p)) (fun p z => x8 (ix2 p z)) (fun z => x9 (ix2 0 z))

/-- The [131072,1] array the region leaves, as one function of the ten arrays the region reads: row `i 0` of the
    batch arrays and the parameters through the row function. -/
def G (A0 : S131072x7.Idx → EReal) (A1 : S131072x64.Idx → EReal) (A2 : S1x7.Idx → EReal) (A3 : S1x128.Idx → EReal)
    (A4 : S65x32.Idx → EReal) (A5 : S1x32.Idx → EReal) (A6 : S32x16.Idx → EReal) (A7 : S1x16.Idx → EReal)
    (A8 : S16x1.Idx → EReal) (A9 : S1x1.Idx → EReal) : S131072x1.Idx → EReal := fun i =>
  Cert.Spec.rowOut (Cert.Spec.expTable fun j => A3 (ix2 0 j)) (fun q => A0 (ix2 (i 0) q)) (fun q => A2 (ix2 0 q))
    (fun k => A1 (ix2 (i 0) k)) (fun k n => A4 (ix2 k n)) (fun n => A5 (ix2 0 n)) (fun n p => A6 (ix2 n p))
    (fun p => A7 (ix2 0 p)) (fun p z => A8 (ix2 p z)) (fun z => A9 (ix2 0 z))

/-- The printed index maps, decided over the 32 grid points: the two batch windows and the output window are at
    block `t` of the rows, every parameter window at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The arrays the region reads, on core `c`. -/
abbrev GV (c : Dev nD) : S131072x1.Idx → EReal :=
  G (V m c main_arg0) (V m c main_arg1) (V m c main_v1) (V m c main_v0) (V m c main_arg3) (V m c main_v2)
    (V m c main_arg5) (V m c main_v3) (V m c main_arg7) (V m c main_v4)

/-- A parameter window's block is its whole array at every point: the block index is 0 on both axes. -/
theorem iblk2 (c : Dev nD) (t : Fin cfg0.N) : (iblk m c 2 t : Vec Ideal S1x7 .f32) = V m c main_v1 := by
  obtain ⟨e00, e01, e10, e11, e20, e21, e30, e31, e40, e41, e50, e51, e60, e61, e70, e71, e80, e81, e90, e91, eo0, eo1⟩ := idx_facts t
  funext x
  unfold iblk
  rw [View.read_apply]
  show V m c main_v1 _ = V m c main_v1 x
  congr 1
  funext a
  apply Fin.ext
  match a with
  | ⟨0, _⟩ => show win0_2.index t 0 * 1 + 1 * (x 0).val = (x 0).val; rw [e20]; omega
  | ⟨1, _⟩ => show win0_2.index t 1 * 7 + 1 * (x 1).val = (x 1).val; rw [e21]; omega

theorem iblk3 (c : Dev nD) (t : Fin cfg0.N) : (iblk m c 3 t : Vec Ideal S1x128 .f32) = V m c main_v0 := by
  obtain ⟨e00, e01, e10, e11, e20, e21, e30, e31, e40, e41, e50, e51, e60, e61, e70, e71, e80, e81, e90, e91, eo0, eo1⟩ := idx_facts t
  funext x
  unfold iblk
  rw [View.read_apply]
  show V m c main_v0 _ = V m c main_v0 x
  congr 1
  funext a
  apply Fin.ext
  match a with
  | ⟨0, _⟩ => show win0_3.index t 0 * 1 + 1 * (x 0).val = (x 0).val; rw [e30]; omega
  | ⟨1, _⟩ => show win0_3.index t 1 * 128 + 1 * (x 1).val = (x 1).val; rw [e31]; omega

theorem iblk4 (c : Dev nD) (t : Fin cfg0.N) : (iblk m c 4 t : Vec Ideal S65x32 .f32) = V m c main_arg3 := by
  obtain ⟨e00, e01, e10, e11, e20, e21, e30, e31, e40, e41, e50, e51, e60, e61, e70, e71, e80, e81, e90, e91, eo0, eo1⟩ := idx_facts t
  funext x
  unfold iblk
  rw [View.read_apply]
  show V m c main_arg3 _ = V m c main_arg3 x
  congr 1
  funext a
  apply Fin.ext
  match a with
  | ⟨0, _⟩ => show win0_4.index t 0 * 65 + 1 * (x 0).val = (x 0).val; rw [e40]; omega
  | ⟨1, _⟩ => show win0_4.index t 1 * 32 + 1 * (x 1).val = (x 1).val; rw [e41]; omega

theorem iblk5 (c : Dev nD) (t : Fin cfg0.N) : (iblk m c 5 t : Vec Ideal S1x32 .f32) = V m c main_v2 := by
  obtain ⟨e00, e01, e10, e11, e20, e21, e30, e31, e40, e41, e50, e51, e60, e61, e70, e71, e80, e81, e90, e91, eo0, eo1⟩ := idx_facts t
  funext x
  unfold iblk
  rw [View.read_apply]
  show V m c main_v2 _ = V m c main_v2 x
  congr 1
  funext a
  apply Fin.ext
  match a with
  | ⟨0, _⟩ => show win0_5.index t 0 * 1 + 1 * (x 0).val = (x 0).val; rw [e50]; omega
  | ⟨1, _⟩ => show win0_5.index t 1 * 32 + 1 * (x 1).val = (x 1).val; rw [e51]; omega

theorem iblk6 (c : Dev nD) (t : Fin cfg0.N) : (iblk m c 6 t : Vec Ideal S32x16 .f32) = V m c main_arg5 := by
  obtain ⟨e00, e01, e10, e11, e20, e21, e30, e31, e40, e41, e50, e51, e60, e61, e70, e71, e80, e81, e90, e91, eo0, eo1⟩ := idx_facts t
  funext x
  unfold iblk
  rw [View.read_apply]
  show V m c main_arg5 _ = V m c main_arg5 x
  congr 1
  funext a
  apply Fin.ext
  match a with
  | ⟨0, _⟩ => show win0_6.index t 0 * 32 + 1 * (x 0).val = (x 0).val; rw [e60]; omega
  | ⟨1, _⟩ => show win0_6.index t 1 * 16 + 1 * (x 1).val = (x 1).val; rw [e61]; omega

theorem iblk7 (c : Dev nD) (t : Fin cfg0.N) : (iblk m c 7 t : Vec Ideal S1x16 .f32) = V m c main_v3 := by
  obtain ⟨e00, e01, e10, e11, e20, e21, e30, e31, e40, e41, e50, e51, e60, e61, e70, e71, e80, e81, e90, e91, eo0, eo1⟩ := idx_facts t
  funext x
  unfold iblk
  rw [View.read_apply]
  show V m c main_v3 _ = V m c main_v3 x
  congr 1
  funext a
  apply Fin.ext
  match a with
  | ⟨0, _⟩ => show win0_7.index t 0 * 1 + 1 * (x 0).val = (x 0).val; rw [e70]; omega
  | ⟨1, _⟩ => show win0_7.index t 1 * 16 + 1 * (x 1).val = (x 1).val; rw [e71]; omega

theorem iblk8 (c : Dev nD) (t : Fin cfg0.N) : (iblk m c 8 t : Vec Ideal S16x1 .f32) = V m c main_arg7 := by
  obtain ⟨e00, e01, e10, e11, e20, e21, e30, e31, e40, e41, e50, e51, e60, e61, e70, e71, e80, e81, e90, e91, eo0, eo1⟩ := idx_facts t
  funext x
  unfold iblk
  rw [View.read_apply]
  show V m c main_arg7 _ = V m c main_arg7 x
  congr 1
  funext a
  apply Fin.ext
  match a with
  | ⟨0, _⟩ => show win0_8.index t 0 * 16 + 1 * (x 0).val = (x 0).val; rw [e80]; omega
  | ⟨1, _⟩ => show win0_8.index t 1 * 1 + 1 * (x 1).val = (x 1).val; rw [e81]; omega

theorem iblk9 (c : Dev nD) (t : Fin cfg0.N) : (iblk m c 9 t : Vec Ideal S1x1 .f32) = V m c main_v4 := by
  obtain ⟨e00, e01, e10, e11, e20, e21, e30, e31, e40, e41, e50, e51, e60, e61, e70, e71, e80, e81, e90, e91, eo0, eo1⟩ := idx_facts t
  funext x
  unfold iblk
  rw [View.read_apply]
  show V m c main_v4 _ = V m c main_v4 x
  congr 1
  funext a
  apply Fin.ext
  match a with
  | ⟨0, _⟩ => show win0_9.index t 0 * 1 + 1 * (x 0).val = (x 0).val; rw [e90]; omega
  | ⟨1, _⟩ => show win0_9.index t 1 * 1 + 1 * (x 1).val = (x 1).val; rw [e91]; omega

/-- A batch window's block at point `t` is rows `4096·t …` of its array. -/
theorem iblk0_apply (c : Dev nD) (t : Fin cfg0.N) (x : S4096x7.Idx) (k : S131072x7.Idx)
    (hk0 : (k 0).val = 4096 * t.val + (x 0).val) (hk1 : (k 1).val = (x 1).val) :
    (iblk m c 0 t : Vec Ideal S4096x7 .f32) x = V m c main_arg0 k := by
  obtain ⟨e00, e01, e10, e11, e20, e21, e30, e31, e40, e41, e50, e51, e60, e61, e70, e71, e80, e81, e90, e91, eo0, eo1⟩ := idx_facts t
  unfold iblk
  rw [View.read_apply]
  show V m c main_arg0 _ = V m c main_arg0 k
  congr 1
  funext a
  apply Fin.ext
  match a with
  | ⟨0, _⟩ => show win0_0.index t 0 * 4096 + 1 * (x 0).val = (k 0).val; rw [e00, hk0]; omega
  | ⟨1, _⟩ => show win0_0.index t 1 * 7 + 1 * (x 1).val = (k 1).val; rw [e01, hk1]; omega

theorem iblk1_apply (c : Dev nD) (t : Fin cfg0.N) (x : S4096x64.Idx) (k : S131072x64.Idx)
    (hk0 : (k 0).val = 4096 * t.val + (x 0).val) (hk1 : (k 1).val = (x 1).val) :
    (iblk m c 1 t : Vec Ideal S4096x64 .f32) x = V m c main_arg1 k := by
  obtain ⟨e00, e01, e10, e11, e20, e21, e30, e31, e40, e41, e50, e51, e60, e61, e70, e71, e80, e81, e90, e91, eo0, eo1⟩ := idx_facts t
  unfold iblk
  rw [View.read_apply]
  show V m c main_arg1 _ = V m c main_arg1 k
  congr 1
  funext a
  apply Fin.ext
  match a with
  | ⟨0, _⟩ => show win0_1.index t 0 * 4096 + 1 * (x 0).val = (k 0).val; rw [e10, hk0]; omega
  | ⟨1, _⟩ => show win0_1.index t 1 * 64 + 1 * (x 1).val = (k 1).val; rw [e11, hk1]; omega

/-- WHAT POINT `t` WRITES BACK is block `t` of `G` of the arrays the region reads. -/
theorem flushed_eq (hpay : PayAt) (c : Dev nD) (t : Fin cfg0.N) :
    (dats m 0 c).flushed 10 t = ((cfg0.win 10).blk t).view.read (Elt Ideal) (GV m c) := by
  show (cfg0.win 10).cut (grid0.coords t) ((dats m 0 c).after 10 t) = _
  rw [after0_10]
  unfold out0_10
  rw [View.canon_unit_zero hz]
  simp only [View.ld_unit_zero (S := S4096x7) hz, View.ld_unit_zero (S := S4096x64) hz, View.ld_unit_zero (S := S1x7) hz,
    View.ld_unit_zero (S := S1x128) hz, View.ld_unit_zero (S := S65x32) hz, View.ld_unit_zero (S := S1x32) hz,
    View.ld_unit_zero (S := S32x16) hz, View.ld_unit_zero (S := S1x16) hz, View.ld_unit_zero (S := S16x1) hz,
    View.ld_unit_zero (S := S1x1) hz]
  obtain ⟨e00, e01, e10, e11, e20, e21, e30, e31, e40, e41, e50, e51, e60, e61, e70, e71, e80, e81, e90, e91, eo0, eo1⟩ := idx_facts t
  funext j
  have hj0 : (j 0).val < 4096 := (j 0).isLt
  have hj1 : (j 1).val < 1 := (j 1).isLt
  obtain ⟨r, hr⟩ : ∃ r : Fin 4096, r.val = (j 0).val := ⟨⟨_, hj0⟩, rfl⟩
  have hj : win0_10.xinj (grid0.coords t) j = (ix2 r 0 : S4096x1.Idx) := by
    funext a
    apply Fin.ext
    match a with
    | ⟨0, _⟩ => show (j 0).val = r.val; exact hr.symm
    | ⟨1, _⟩ => show (j 1).val = 0; omega
  show k0_pay1 (F := Ideal) (iblk m c 8 t) (k0_pay3 (iblk m c 9 t)) (k0_pay4 (k0_pay2 (iblk m c 0 t) (iblk m c 2 t)) (iblk m c 3 t) (iblk m c 1 t) (iblk m c 4 t) (iblk m c 5 t) (iblk m c 6 t) (iblk m c 7 t)) (win0_10.xinj (grid0.coords t) j)
    = GV m c (((cfg0.win 10).blk t).view.emb j)
  refine (congrArg _ hj).trans ?_
  refine (hpay _ _ _ _ _ _ _ _ _ _ r).trans ?_
  have hrow : ((((cfg0.win 10).blk t).view.emb j) 0).val = 4096 * t.val + r.val := by
    show win0_10.index t 0 * 4096 + 1 * (j 0).val = _
    rw [eo0, hr]; omega
  have h0 : (fun q => (iblk m c 0 t : Vec Ideal S4096x7 .f32) (ix2 r q))
      = fun q => V m c main_arg0 (ix2 ((((cfg0.win 10).blk t).view.emb j) 0) q) :=
    funext fun q => iblk0_apply m c t _ _ hrow rfl
  have h1 : (fun k => (iblk m c 1 t : Vec Ideal S4096x64 .f32) (ix2 r k))
      = fun k => V m c main_arg1 (ix2 ((((cfg0.win 10).blk t).view.emb j) 0) k) :=
    funext fun k => iblk1_apply m c t _ _ hrow rfl
  rw [h0, h1, iblk2 m c t, iblk3 m c t, iblk4 m c t, iblk5 m c t, iblk6 m c t, iblk7 m c t, iblk8 m c t, iblk9 m c t]
  rfl

/-- An index of the array is in point `t`'s block iff each coordinate is in the block's range on its axis. -/
theorem mem_blk (t : Fin cfg0.N) (i : S131072x1.Idx) :
    i ∈ ((cfg0.win 10).blk t).view.set ↔ ∀ a : Fin 2, win0_10.index t a * S4096x1.size a ≤ (i a).val
      ∧ (i a).val < win0_10.index t a * S4096x1.size a + S4096x1.size a := by
  show i ∈ ((View.whole main_v5).slice (win0_10.rect t)).set ↔ _
  rw [View.set_slice_whole, Rect.mem_set_unit]
  exact Iff.rfl

/-- The blocks cover the array: row `i` lies in the block of point `i / 4096`. -/
theorem cover (i : S131072x1.Idx) : ∃ t : Fin cfg0.N, (cfg0.win 10).flush t = true ∧ i ∈ ((cfg0.win 10).blk t).view.set := by
  have hi0 : (i 0).val < 131072 := (i 0).isLt
  have hi1 : (i 1).val < 1 := (i 1).isLt
  have hN : cfg0.N = 32 := N_0
  obtain ⟨t, ht⟩ : ∃ t : Fin cfg0.N, t.val = (i 0).val / 4096 := ⟨⟨(i 0).val / 4096, by rw [hN]; omega⟩, rfl⟩
  obtain ⟨e00, e01, e10, e11, e20, e21, e30, e31, e40, e41, e50, e51, e60, e61, e70, e71, e80, e81, e90, e91, eo0, eo1⟩ := idx_facts t
  refine ⟨t, flush0_10 t, ?_⟩
  rw [mem_blk]
  intro a
  match a with
  | ⟨0, _⟩ => show win0_10.index t 0 * 4096 ≤ (i 0).val ∧ (i 0).val < win0_10.index t 0 * 4096 + 4096; rw [eo0, ht]; omega
  | ⟨1, _⟩ => show win0_10.index t 1 * 1 ≤ (i 1).val ∧ (i 1).val < win0_10.index t 1 * 1 + 1; rw [eo1]; omega

/-- THE ARRAY after the region: `G` of the arrays the region reads. -/
theorem final (hpay : PayAt) (c : Dev nD) : (dats m 0 c).arrAt 10 cfg0.N = GV m c :=
  (dats m 0 c).arrAt_eq_of_cover 10 (GV m c) (fun t _ => flushed_eq m hpay c t) cover

/-- The result after the reshape that follows the region: the [131072,1] array read as a vector. -/
theorem tail_eq (hpay : PayAt) (c : Dev nD) :
    Pipeline.afterTail₀ cfgs (dats m) 0 (V0 m) [hostOps1] c main_v6
      = shapeCast S131072 (GV m c) shapeCasts_S131072x1_S131072 := by
  unfold Pipeline.afterTail₀
  show StableHlo.after hostOps1 _ (Proc.devRef .tc main_v6) = _
  after_results
  have hw := (Pipeline.withArrays_arr spec0 launch0.win.arr_inj c (V0 m c) (fun w => (dats m 0 c).arrAt w cfg0.N) 10).trans (final m hpay c)
  show (fun i => shapeCast S131072 (Pipeline.withArrays spec0 c (V0 m c) (fun w => (dats m 0 c).arrAt w cfg0.N)
    (Proc.devRef .tc (Pipeline.arrRef spec0 10))) shapeCasts_S131072x1_S131072 i) = _
  rw [hw]

/-! ## The arrays the region reads, at an index -/

/-- A one-row reshape of a vector read at column `q` is the vector at `q`. -/
theorem V_v1 (c : Dev nD) (q : Fin 7) : V m c main_v1 (ix2 0 q) = m ((c : Thread nD τ).loc main_arg2) (ix1 q) := by
  have h : V m c main_v1 = shapeCast S1x7 (m ((c : Thread nD τ).loc main_arg2)) shapeCasts_S7_S1x7 := by
    show StableHlo.after hostOps0 (fun b => m (c, b)) (Proc.devRef .tc main_v1) = _
    after_results
    rfl
  rw [h]
  refine shapeCast_apply _ _ _ (ix1 q) ?_
  rw [Shape.rowMajor_val_one, Shape.rowMajor_val_two]
  show q.val = (0 : Fin 1).val * _ + q.val
  simp

theorem V_v2 (c : Dev nD) (q : Fin 32) : V m c main_v2 (ix2 0 q) = m ((c : Thread nD τ).loc main_arg4) (ix1 q) := by
  have h : V m c main_v2 = shapeCast S1x32 (m ((c : Thread nD τ).loc main_arg4)) shapeCasts_S32_S1x32 := by
    show StableHlo.after hostOps0 (fun b => m (c, b)) (Proc.devRef .tc main_v2) = _
    after_results
    rfl
  rw [h]
  refine shapeCast_apply _ _ _ (ix1 q) ?_
  rw [Shape.rowMajor_val_one, Shape.rowMajor_val_two]
  show q.val = (0 : Fin 1).val * _ + q.val
  simp

theorem V_v3 (c : Dev nD) (q : Fin 16) : V m c main_v3 (ix2 0 q) = m ((c : Thread nD τ).loc main_arg6) (ix1 q) := by
  have h : V m c main_v3 = shapeCast S1x16 (m ((c : Thread nD τ).loc main_arg6)) shapeCasts_S16_S1x16 := by
    show StableHlo.after hostOps0 (fun b => m (c, b)) (Proc.devRef .tc main_v3) = _
    after_results
    rfl
  rw [h]
  refine shapeCast_apply _ _ _ (ix1 q) ?_
  rw [Shape.rowMajor_val_one, Shape.rowMajor_val_two]
  show q.val = (0 : Fin 1).val * _ + q.val
  simp

theorem V_v4 (c : Dev nD) (q : Fin 1) : V m c main_v4 (ix2 0 q) = m ((c : Thread nD τ).loc main_arg8) (ix1 q) := by
  have h : V m c main_v4 = shapeCast S1x1 (m ((c : Thread nD τ).loc main_arg8)) shapeCasts_S1_S1x1 := by
    show StableHlo.after hostOps0 (fun b => m (c, b)) (Proc.devRef .tc main_v4) = _
    after_results
    rfl
  rw [h]
  refine shapeCast_apply _ _ _ (ix1 q) ?_
  rw [Shape.rowMajor_val_one, Shape.rowMajor_val_two]
  show q.val = (0 : Fin 1).val * _ + q.val
  simp

/-- The sign table the region reads is the one-row reshape of the literal: column `j` is the literal's word `j`. -/
theorem V_v0 (c : Dev nD) (j : Fin 128) : V m c main_v0 (ix2 0 j) = Ideal.ofBits .f32 (lit0 j) := by
  have h : V m c main_v0 = shapeCast S1x128 (fun i : S128.Idx => FloatOps.ofBits (F := Ideal) .f32 (lit0 (S128.rowMajor i))) shapeCasts_S128_S1x128 := by
    show StableHlo.after hostOps0 (fun b => m (c, b)) (Proc.devRef .tc main_v0) = _
    after_results
    rfl
  rw [h]
  refine (shapeCast_apply _ _ _ (ix1 j) ?_).trans ?_
  · rw [Shape.rowMajor_val_one, Shape.rowMajor_val_two]
    show j.val = (0 : Fin 1).val * _ + j.val
    simp
  · show Ideal.ofBits .f32 (lit0 (S128.rowMajor (ix1 j))) = Ideal.ofBits .f32 (lit0 j)
    exact congrArg (fun k => Ideal.ofBits .f32 (lit0 k)) (Fin.ext (Shape.rowMajor_val_one (ix1 j)))

/-! ## The result -/

/-- The kernel's result as a function of the nine argument arrays: entry `i` is the row function of row `i` of the two
    batch arrays and of the parameters, the sign table the program's literal. -/
def kerOut (a0 : S131072x7.Idx → EReal) (a1 : S131072x64.Idx → EReal) (a2 : S7.Idx → EReal) (a3 : S65x32.Idx → EReal)
    (a4 : S32.Idx → EReal) (a5 : S32x16.Idx → EReal) (a6 : S16.Idx → EReal) (a7 : S16x1.Idx → EReal)
    (a8 : S1.Idx → EReal) : S131072.Idx → EReal := fun i =>
  Cert.Spec.rowOut (Cert.Spec.expTable fun j => Ideal.ofBits .f32 (Cert.KernelIdeal.lit0 j)) (fun q => a0 (ix2 (i 0) q))
    (fun q => a2 (ix1 q)) (fun k => a1 (ix2 (i 0) k)) (fun k n => a3 (ix2 k n)) (fun n => a4 (ix1 n))
    (fun n p => a5 (ix2 n p)) (fun p => a6 (ix1 p)) (fun p z => a7 (ix2 p z)) (fun z => a8 (ix1 z))

/-- The region's array read as a vector is `kerOut` of the arguments as launched. -/
theorem result_eq (c : Dev nD) :
    shapeCast S131072 (GV m c) shapeCasts_S131072x1_S131072
      = kerOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  funext i
  refine (shapeCast_apply _ _ i (ix2 (i 0) 0) ?_).trans ?_
  · rw [Shape.rowMajor_val_one, Shape.rowMajor_val_two]
    show (i 0).val * _ + (0 : Fin 1).val = (i 0).val
    simp
  · unfold GV G kerOut
    simp only [V_v0 m c, V_v1 m c, V_v2 m c, V_v3 m c, V_v4 m c, V_main_arg0 m c, V_main_arg1 m c, V_main_arg3 m c,
      V_main_arg5 m c, V_main_arg7 m c] <;> rfl

/-- THE RUN, READ: every weakly fair execution of @main on the TensorCores terminates with the result array at
    `kerOut` of the arguments and the arguments unchanged. -/
theorem run (hpay : PayAt) : θ_run (defs (F := Ideal)) (onTc (τ := τ) (main (F := Ideal))) ⟨m, fun _ => 0, ρ⟩ (fun r => ∀ c : Dev nD,
      r.2.mem ((c.tc : Thread nD τ).loc main_v6)
        = kerOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_v6 (Pipeline.mem_restRefs_of main_v6 (by decide) (by decide))).trans
        (tail_eq m hpay c)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 4).trans (((dats m 0 c).arrAt_in 4 rfl _).trans ((A_eq m c 4).trans (V_main_arg3 m c))),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c))⟩)
    (run_main m ρ)

end Cert.KerFrame

end
-- ==== Proof.lean ====
/-
  Two programs compute, for each of 131072 rows, the expectation value of a seven-wire circuit — product-state
  rotations followed by a ring of seven controlled flips — and send it, in front of 64 further features, through three
  affine layers. On the extended reals they agree, row by row.

  The kernel takes the squared amplitudes of the rotated product state and sums them against a table of signs; the
  reference really moves the amplitudes by the seven flips, squares them, and takes the first 64 minus the last 64. The
  flips only permute the 128 positions, so the second value is the sum over the final positions of the square moved
  there times the sign of its half, and re-indexed by the original position it is the first value: the table is the sign
  of the half each position is moved to (checked entry by entry). This step splits a difference of sums and re-indexes a
  sum, which is sound for real amplitudes; the amplitudes are cosines and sines of real half angles because the
  precondition keeps every input finite. The two product states list the same seven factors in opposite orders, and the
  first layer's 65-term sum is the kernel's one-term sum plus its 64-term sum; neither needs finiteness. Changes of float
  format are the identity on the extended reals.

  The kernel's frames are the generated ones; the reference's run is read back in stages (its result as one flat term
  does not fit). The ideal pass rewrote nothing, so the kernel's idealization is its own text.
-/
import proofs.«164904_j9509057593682_2_alg».proof.Defs
import proofs.«164904_j9509057593682_2_alg».proof.Proof.Gen.Kernel
import proofs.«164904_j9509057593682_2_alg».proof.Proof.Gen.Kernel.Skeleton
import proofs.«164904_j9509057593682_2_alg».proof.Proof.Gen.Kernel.Launch
import proofs.«164904_j9509057593682_2_alg».proof.Proof.Gen.Kernel.Points
import proofs.«164904_j9509057593682_2_alg».proof.Proof.Gen.Kernel.Frame
import proofs.«164904_j9509057593682_2_alg».proof.Proof.Gen.KernelIdeal
import proofs.«164904_j9509057593682_2_alg».proof.Proof.Gen.KernelIdeal.Skeleton
import proofs.«164904_j9509057593682_2_alg».proof.Proof.Gen.KernelIdeal.Launch
import proofs.«164904_j9509057593682_2_alg».proof.Proof.Gen.KernelIdeal.Points
import proofs.«164904_j9509057593682_2_alg».proof.Proof.Gen.KernelIdeal.Frame
import proofs.«164904_j9509057593682_2_alg».proof.Proof.Gen.ReferenceIdeal
import proofs.«164904_j9509057593682_2_alg».proof.Proof.Gen.Pre_finite_inputs
import proofs.«164904_j9509057593682_2_alg».proof.Proof.RefRun
import proofs.«164904_j9509057593682_2_alg».proof.Proof.RefState
import proofs.«164904_j9509057593682_2_alg».proof.Proof.RefCnot
import proofs.«164904_j9509057593682_2_alg».proof.Proof.RefTail
import proofs.«164904_j9509057593682_2_alg».proof.Proof.Algebra
import proofs.«164904_j9509057593682_2_alg».proof.Proof.Finite
import proofs.«164904_j9509057593682_2_alg».proof.Proof.KerPay
import proofs.«164904_j9509057593682_2_alg».proof.Proof.KerFrame
import Idealize.ShloMosaic.Adequacy
import Idealize.ShloMosaic.Init

noncomputable section

namespace Cert.Proof

open Idealize.ShloMosaic Idealize.SL.Sem Idealize.ShloMosaic.ValueIdx Cert.Spec

/-! ## The table of signs -/

/-- The kernel's table holds, at the position the flips take `i` from, the word of `+1` when `i` is in the first half
    and the word of `-1` when it is in the second: decided entry by entry. -/
theorem lit_sign : ∀ i : Fin 128,
    Cert.KernelIdeal.lit0 (cnotPerm i) = if i.val < 64 then 0x3F800000#32 else 0xBF800000#32 := by decide

/-- The f32 word `0x3F800000` is `1`. -/
theorem ofBits_one : Ideal.ofBits .f32 0x3F800000#32 = (1 : EReal) := by
  simp [Ideal.ofBits, Ideal.ieee, -EReal.coe_mul]
  norm_num

/-- The f32 word `0xBF800000` is `-1`. -/
theorem ofBits_neg_one : Ideal.ofBits .f32 0xBF800000#32 = (-1 : EReal) := by
  simp [Ideal.ofBits, Ideal.ieee, -EReal.coe_mul]
  norm_num

/-- The weight of the position `cnotPerm i` is the sign of `i`'s half. -/
theorem weight_sign (i : Fin 128) :
    Ideal.ofBits .f32 (Cert.KernelIdeal.lit0 (cnotPerm i)) = if i.val < 64 then (1 : EReal) else -1 := by
  rw [lit_sign]
  split
  · exact ofBits_one
  · exact ofBits_neg_one

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the same result array: row `b` is the three layers of the row's expectation value and
    features, and the two expectation values agree because the row's angles are real. -/
theorem algebraic : Cert.algebraic_KernelIdeal_ReferenceIdeal := by
  intro m ρ m' ρ' hpre hagree
  refine ⟨_, Cert.KerFrame.run m ρ Cert.KerPay.out_apply, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8⟩ := hagree c
  rw [h0, h1, h2, h3, h4, h5, h6, h7, h8]
  obtain ⟨hr0, hr2⟩ := Cert.Finite.angles_real _ _ _ _ _ _ _ _ _ (hpre c)
  funext i
  obtain ⟨b, rfl⟩ : ∃ b : Fin 131072, i = ix1 b := ⟨i 0, eq_ix1 i⟩
  rw [Cert.RefTail.v154_apply Cert.RefCnot.v129_apply Cert.RefState.v59_apply]
  unfold Cert.KerFrame.kerOut rowOut
  refine congrArg (fun q => mlp q _ _ _ _ _ _ _) ?_
  exact (Cert.Algebra.expTable_eq_expHalves _ weight_sign _
    (fun j => Cert.Algebra.isReal_state (fun q e => Cert.Algebra.isReal_amp (hr0 _) (hr2 _) e) j)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
